-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16x2048x2048 : Shape := ⟨3, ![16, 2048, 2048]⟩
abbrev S16x2048 : Shape := ⟨2, ![16, 2048]⟩
abbrev S2 : Shape := ⟨1, ![2]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S16x2048 : S_.BroadcastsInDim S16x2048 (![] : Fin 0 → Fin S16x2048.rank)
  reducesTo_S16x2048_S_d0_1 : S16x2048.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg3 : IVec S2 32) (main_v13 : IVec S_ 1) (main_v15 : IVec S2 1) (main_c_5 : IVec S_ 32) : IVec S_ 1 :=
  let main_v16 : IVec S2 32 := broadcastInDim S2 ![] bcast_S_S2 main_c_5
  let main_v17 : IVec S2 1 := cmpi .slt main_arg3 main_v16
  let main_v18 : IVec S2 1 := andi main_v15 main_v17
  let main_c_6 : IVec S_ 1 := constantI S_ 1 1#1
  let main_v19 : IVec S_ 1 := (fun x v => Host.reduce IntOp.andi x v reducesTo_S2_S_d0 h_S_) main_v18 main_c_6
  let main_v20 : IVec S_ 1 := andi main_v13 main_v19
  main_v20

def fn {F : FTy → Type} [FloatOps F] (main_arg0 : FVec F S16384x2048 .f32) (main_arg1 : FVec F S16x2048x2048 .f32) (main_arg2 : FVec F S16x2048 .f32) (main_arg3 : IVec S2 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  let main_c_4 : IVec S_ 32 := constantI S_ 32 0#32
  let main_v14 : IVec S2 32 := broadcastInDim S2 ![] bcast_S_S2 main_c_4
  let main_v15 : IVec S2 1 := cmpi .sge main_arg3 main_v14
  let main_c_5 : IVec S_ 32 := constantI S_ 32 16#32
  fn_part1 (F := F) main_arg3 main_v13 main_v15 main_c_5
-- ==== Kernel.lean ====
abbrev S16384x2048 : Shape := ⟨2, ![16384, 2048]⟩
abbrev S16x2048x2048 : Shape := ⟨3, ![16, 2048, 2048]⟩
abbrev S16x2048 : Shape := ⟨2, ![16, 2048]⟩
abbrev S2 : Shape := ⟨1, ![2]⟩
abbrev S16x1x2048 : Shape := ⟨3, ![16, 1, 2048]⟩
abbrev S2048x2048 : Shape := ⟨2, ![2048, 2048]⟩
abbrev S1x1024x2048 : Shape := ⟨3, ![1, 1024, 2048]⟩
abbrev S1 : Shape := ⟨1, ![1]⟩
abbrev S2048x1024 : Shape := ⟨2, ![2048, 1024]⟩
abbrev S1024x2048 : Shape := ⟨2, ![1024, 2048]⟩
abbrev S1x1x2048 : Shape := ⟨3, ![1, 1, 2048]⟩
abbrev S2048 : Shape := ⟨1, ![2048]⟩
abbrev S1x2048 : Shape := ⟨2, ![1, 2048]⟩

abbrev nBuf : Space → Nat
  | .hbm => 6
  | .vmem => 14
  | .smem => 1
  | _ => 0

abbrev bufTy : (tb : Table) → Fin (tcTables nBuf tb) → BufTy
  | .hbm, ⟨0, _⟩ => ⟨S16384x2048, .f32⟩
  | .hbm, ⟨1, _⟩ => ⟨S16x2048x2048, .f32⟩
  | .hbm, ⟨2, _⟩ => ⟨S16x2048, .f32⟩
  | .hbm, ⟨3, _⟩ => ⟨S16x1x2048, .f32⟩
  | .hbm, ⟨4, _⟩ => ⟨S2048x2048, .bf16⟩
  | .hbm, ⟨5, _⟩ => ⟨S16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .f32⟩
  | .local _ .vmem, ⟨7, _⟩ => ⟨S1024x2048, .f32⟩
  | .local _ .vmem, ⟨8, _⟩ => ⟨S2048x2048, .bf16⟩
  | .local _ .vmem, ⟨9, _⟩ => ⟨S1x1x2048, .f32⟩
  | .local _ .vmem, ⟨10, _⟩ => ⟨S1x1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | .local _ .smem, ⟨0, _⟩ => ⟨S2, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

abbrev pre1 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (inb_S2_S1_0 : ∀ a, (![0] : Fin 1 → Nat) a + S1.size a ≤ S2.size a) (numel1_S1 : S1.numel = 1) (pf : pre1.Contents (Elt F)) (i : grid1.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  let c0_i32_1 : BitVec 32 := 0#32
  ![v0.toNat, c0_i32.toNat, c0_i32_0.toNat]

def cc1_transform_3 (inb_S2_S1_1 : ∀ a, (![1] : Fin 1 → Nat) a + S1.size a ≤ S2.size a) (numel1_S1 : S1.numel = 1) (pf : pre1.Contents (Elt F)) (i : grid1.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S16x2048_S16x1x2048 : S16x2048.ShapeCasts S16x1x2048
  inb_S2_S1_0 : ∀ a, (![0] : Fin 1 → Nat) a + S1.size a ≤ S2.size a
  numel1_S1 : S1.numel = 1
  inb_S2_S1_1 : ∀ a, (![1] : Fin 1 → Nat) a + S1.size a ≤ S2.size a
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  transposes_S1024x2048_p1_0_S2048x1024 : S1024x2048.Transposes [1, 0] S2048x1024
  inb_S2048x1024_S2048x1024_0_0 : ∀ a, (![0, 0] : Fin 2 → Nat) a + S2048x1024.size a ≤ S2048x1024.size a
  h_S2048x1024 : 0 < S2048x1024.numel
  packedbf16_S2048x1024_S2048x1024_0_0 : (Rect.unit (s := S2048x1024) ![0, 0] S2048x1024.size inb_S2048x1024_S2048x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S1024x2048 : S1x2048.Broadcasts S1024x2048
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 inb_S2_S1_0 numel1_S1 pf i = cc0_transform_0 inb_S2_S1_0 numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 inb_S2_S1_1 numel1_S1 pf i = cc0_transform_1 inb_S2_S1_1 numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x2048.size a
  hwx0_2 : ∀ i : grid0.Coords, EltTy.bits .bf16 = 32 ∨ (Rect.block (s := S2048x2048) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 1
  hreads1_2 : ∀ {F : FTy → Type} [FloatOps F] (pf : pre1.Contents (Elt F)) (i i' : grid1.Coords), (∀ a, reads1_2 a = true → i a = i' a) → cc1_transform_2 inb_S2_S1_0 numel1_S1 pf i = cc1_transform_2 inb_S2_S1_0 numel1_S1 pf i'
  hstage1_3 : ∀ j, (stage1_3 j).IsWhole
  nbuf1_3 : grid1.bufCount reads1_3 false = 1
  hreads1_3 : ∀ {F : FTy → Type} [FloatOps F] (pf : pre1.Contents (Elt F)) (i i' : grid1.Coords), (∀ a, reads1_3 a = true → i a = i' a) → cc1_transform_3 inb_S2_S1_1 numel1_S1 pf i = cc1_transform_3 inb_S2_S1_1 numel1_S1 pf i'
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S16384x2048.size a
  hwx1_4 : ∀ i : grid1.Coords, EltTy.bits .f32 = 32 ∨ (Rect.block (s := S16384x2048) S1024x2048.size (cc1_transform_4 i) (hinb1_4 i)).WholeWords (EltTy.packing .f32)

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev spec0_0 : Pipeline.WinSpec sig grid0.rank :=
  Pipeline.WinSpec.ofSpec (Memref.whole main_arg1) S1x1024x2048.size reads0_0 false false 2 stage0_0 sem0_0 nbuf0_0 hstage0_0

abbrev spec0_1 : Pipeline.WinSpec sig grid0.rank :=
  Pipeline.WinSpec.ofSpec (Memref.whole main_arg1) S1x1024x2048.size reads0_1 false false 2 stage0_1 sem0_1 nbuf0_1 hstage0_1

abbrev spec0_2 : Pipeline.WinSpec sig grid0.rank :=
  Pipeline.WinSpec.ofSpec (Memref.whole main_call0_v1) S2048x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 inb_S2_S1_0 numel1_S1 pf | 1 => cc0_transform_1 inb_S2_S1_1 numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 inb_S2_S1_0 numel1_S1 pf i a + 1) * S1x1024x2048.size a ≤ S16x2048x2048.size a), EltTy.bits .f32 = 32 ∨ (Rect.block (s := S16x2048x2048) S1x1024x2048.size (cc0_transform_0 inb_S2_S1_0 numel1_S1 pf i) h).WholeWords (EltTy.packing .f32)) ∧
  (∀ i : grid0.Coords, ∃ h : (∀ a, (cc0_transform_1 inb_S2_S1_1 numel1_S1 pf i a + 1) * S1x1024x2048.size a ≤ S16x2048x2048.size a), EltTy.bits .f32 = 32 ∨ (Rect.block (s := S16x2048x2048) S1x1024x2048.size (cc0_transform_1 inb_S2_S1_1 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev spec1_0 : Pipeline.WinSpec sig grid1.rank :=
  Pipeline.WinSpec.ofSpec (Memref.whole main_arg0) S1024x2048.size reads1_0 false false 2 stage1_0 sem1_0 nbuf1_0 hstage1_0

abbrev spec1_1 : Pipeline.WinSpec sig grid1.rank :=
  Pipeline.WinSpec.ofSpec (Memref.whole main_call0_v1) S2048x2048.size reads1_1 false true 1 stage1_1 sem1_1 nbuf1_1 hstage1_1

abbrev spec1_2 : Pipeline.WinSpec sig grid1.rank :=
  Pipeline.WinSpec.ofSpec (Memref.whole main_call0_v0) S1x1x2048.size reads1_2 false false 1 stage1_2 sem1_2 nbuf1_2 hstage1_2

abbrev spec1_3 : Pipeline.WinSpec sig grid1.rank :=
  Pipeline.WinSpec.ofSpec (Memref.whole main_call0_v0) S1x1x2048.size reads1_3 false false 1 stage1_3 sem1_3 nbuf1_3 hstage1_3

abbrev spec1_4 : Pipeline.WinSpec sig grid1.rank :=
  Pipeline.WinSpec.ofSpec (Memref.whole main_v0) S1024x2048.size reads1_4 true false 2 stage1_4 sem1_4 nbuf1_4 hstage1_4

abbrev spec1 : Fin 5 → Pipeline.WinSpec sig grid1.rank := fun | 0 => spec1_0 | 1 => spec1_1 | 2 => spec1_2 | 3 => spec1_3 | 4 => spec1_4 | ⟨_ + 5, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | ⟨_ + 5, h⟩ => absurd h (Nat.not_lt.2 (Nat.le_add_left _ _))
abbrev ix1 (pf : pre1.Contents (Elt F)) : (w : Fin 5) → grid1.Coords → Fin (spec1 w).shape.rank → Nat := fun | 0 => cc1_transform_0 | 1 => cc1_transform_1 | 2 => cc1_transform_2 inb_S2_S1_0 numel1_S1 pf | 3 => cc1_transform_3 inb_S2_S1_1 numel1_S1 pf | 4 => cc1_transform_4 | ⟨_ + 5, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 pf | 3 => hreads1_3 pf | 4 => hreads1_4 | ⟨_ + 5, h⟩ => absurd h (Nat.not_lt.2 (Nat.le_add_left _ _))
def ok1 (pf : pre1.Contents (Elt F)) : Prop :=
  (∀ i : grid1.Coords, ∃ h : (∀ a, (cc1_transform_2 inb_S2_S1_0 numel1_S1 pf i a + 1) * S1x1x2048.size a ≤ S16x1x2048.size a), EltTy.bits .f32 = 32 ∨ (Rect.block (s := S16x1x2048) S1x1x2048.size (cc1_transform_2 inb_S2_S1_0 numel1_S1 pf i) h).WholeWords (EltTy.packing .f32)) ∧
  (∀ i : grid1.Coords, ∃ h : (∀ a, (cc1_transform_3 inb_S2_S1_1 numel1_S1 pf i a + 1) * S1x1x2048.size a ≤ S16x1x2048.size a), EltTy.bits .f32 = 32 ∨ (Rect.block (s := S16x1x2048) S1x1x2048.size (cc1_transform_3 inb_S2_S1_1 numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => hinb1_1 | 2 => fun i a => (hok.1 i).elim fun h _ => h a | 3 => fun i a => (hok.2 i).elim fun h _ => h a | 4 => hinb1_4 | ⟨_ + 5, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => hwx1_1 | 2 => fun i => (hok.1 i).elim fun _ h => h | 3 => fun i => (hok.2 i).elim fun _ h => h | 4 => hwx1_4 | ⟨_ + 5, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S16384x2048 : Shape := ⟨2, ![16384, 2048]⟩
abbrev S16x2048x2048 : Shape := ⟨3, ![16, 2048, 2048]⟩
abbrev S16x2048 : Shape := ⟨2, ![16, 2048]⟩
abbrev S2 : Shape := ⟨1, ![2]⟩
abbrev S_ : Shape := ⟨0, ![]⟩
abbrev S2x1 : Shape := ⟨2, ![2, 1]⟩
abbrev S1 : Shape := ⟨1, ![1]⟩
abbrev S1x1 : Shape := ⟨2, ![1, 1]⟩
abbrev S2x2048x2048 : Shape := ⟨3, ![2, 2048, 2048]⟩
abbrev S2x2048 : Shape := ⟨2, ![2, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048x2048, .f32⟩
  | .hbm, ⟨2, _⟩ => ⟨S16x2048, .f32⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i1⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S2, .i32⟩
  | .hbm, ⟨11, _⟩ => ⟨S2x1, .i32⟩
  | .hbm, ⟨12, _⟩ => ⟨S1, .i32⟩
  | .hbm, ⟨13, _⟩ => ⟨S_, .i32⟩
  | .hbm, ⟨14, _⟩ => ⟨S2x1, .i32⟩
  | .hbm, ⟨15, _⟩ => ⟨S2x1, .i1⟩
  | .hbm, ⟨16, _⟩ => ⟨S1x1, .i32⟩
  | .hbm, ⟨17, _⟩ => ⟨S2x1, .i32⟩
  | .hbm, ⟨18, _⟩ => ⟨S2x1, .i1⟩
  | .hbm, ⟨19, _⟩ => ⟨S2x1, .i1⟩
  | .hbm, ⟨20, _⟩ => ⟨S_, .i1⟩
  | .hbm, ⟨21, _⟩ => ⟨S2, .i1⟩
  | .hbm, ⟨22, _⟩ => ⟨S2x2048x2048, .f32⟩
  | .hbm, ⟨23, _⟩ => ⟨S2x2048x2048, .i1⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S_, .i32⟩
  | .hbm, ⟨28, _⟩ => ⟨S2, .i32⟩
  | .hbm, ⟨29, _⟩ => ⟨S2, .i1⟩
  | .hbm, ⟨30, _⟩ => ⟨S_, .i32⟩
  | .hbm, ⟨31, _⟩ => ⟨S2, .i32⟩
  | .hbm, ⟨32, _⟩ => ⟨S2, .i32⟩
  | .hbm, ⟨33, _⟩ => ⟨S2, .i32⟩
  | .hbm, ⟨34, _⟩ => ⟨S2x1, .i32⟩
  | .hbm, ⟨35, _⟩ => ⟨S1, .i32⟩
  | .hbm, ⟨36, _⟩ => ⟨S_, .i32⟩
  | .hbm, ⟨37, _⟩ => ⟨S2x1, .i32⟩
  | .hbm, ⟨38, _⟩ => ⟨S2x1, .i1⟩
  | .hbm, ⟨39, _⟩ => ⟨S1x1, .i32⟩
  | .hbm, ⟨40, _⟩ => ⟨S2x1, .i32⟩
  | .hbm, ⟨41, _⟩ => ⟨S2x1, .i1⟩
  | .hbm, ⟨42, _⟩ => ⟨S2x1, .i1⟩
  | .hbm, ⟨43, _⟩ => ⟨S_, .i1⟩
  | .hbm, ⟨44, _⟩ => ⟨S2, .i1⟩
  | .hbm, ⟨45, _⟩ => ⟨S2x2048, .f32⟩
  | .hbm, ⟨46, _⟩ => ⟨S2x2048, .i1⟩
  | .hbm, ⟨47, _⟩ => ⟨S_, .f32⟩
  | .hbm, ⟨48, _⟩ => ⟨S2x2048, .f32⟩
  | .hbm, ⟨49, _⟩ => ⟨S2x2048, .f32⟩
  | .hbm, ⟨50, _⟩ => ⟨S_, .f32⟩
  | .hbm, ⟨51, _⟩ => ⟨S2048x2048, .f32⟩
  | .hbm, ⟨52, _⟩ => ⟨S16384x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S16384x2048, .f32⟩
  | .hbm, ⟨57, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_cst : Ref sig .tc := ⟨.hbm, 50, rfl⟩
abbrev main_v2 : Ref sig .tc := ⟨.hbm, 51, rfl⟩
abbrev main_v3 : Ref sig .tc := ⟨.hbm, 52, rfl⟩
abbrev main_cst_0 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S_S2x1 : S_.BroadcastsInDim S2x1 (![] : Fin 0 → Fin S2x1.rank)
  bcast_S1_S1x1_1 : S1.BroadcastsInDim S1x1 (![1] : Fin 1 → Fin S1x1.rank)
  bcast_S1x1_S2x1_0_1 : S1x1.BroadcastsInDim S2x1 (![0, 1] : Fin 2 → Fin S2x1.rank)
  reducesTo_S2x1_S2_d1 : S2x1.ReducesTo [1] S2
  h_S_ : 0 < S_.numel
  bcast_S2_S2x2048x2048_0 : S2.BroadcastsInDim S2x2048x2048 (![0] : Fin 1 → Fin S2x2048x2048.rank)
  bcast_S_S2x2048x2048 : S_.BroadcastsInDim S2x2048x2048 (![] : Fin 0 → Fin S2x2048x2048.rank)
  bcast_S2_S2x2048_0 : S2.BroadcastsInDim S2x2048 (![0] : Fin 1 → Fin S2x2048.rank)
  bcast_S_S2x2048 : S_.BroadcastsInDim S2x2048 (![] : Fin 0 → Fin S2x2048.rank)
  reducesTo_S2x2048x2048_S2048x2048_d0 : S2x2048x2048.ReducesTo [0] S2048x2048
  reducesTo_S2x2048_S2048_d0 : S2x2048.ReducesTo [0] S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  gather_S16x2048x2048_S2x1_S2x2048x2048_12_0_n_n_0_1_120482048_wf : GatherDims.WF S16x2048x2048 S2x1 S2x2048x2048 [1, 2] [0] [] [0] [] 1 ![1, 2048, 2048]
  gather_S16x2048_S2x1_S2x2048_1_0_n_n_0_1_12048_wf : GatherDims.WF S16x2048 S2x1 S2x2048 [1] [0] [] [0] [] 1 ![1, 2048]
  dot_S16384x2048_S2048x2048_S16384x2048_1_1_0_0_n_n_wf : DotDims.WF S16384x2048 S2048x2048 S16384x2048 [1] [1] [0] [0] [] []

variable [Facts₀]

def gather_S16x2048x2048_S2x1_S2x2048x2048_12_0_n_n_0_1_120482048 : GatherDims S16x2048x2048 S2x1 S2x2048x2048 where
  offsetDims := [1, 2]
  collapsedSliceDims := [0]
  operandBatchingDims := []
  startIndicesBatchingDims := []
  startIndexMap := [0]
  indexVectorDim := 1
  sliceSizes := ![1, 2048, 2048]
  wf := gather_S16x2048x2048_S2x1_S2x2048x2048_12_0_n_n_0_1_120482048_wf
def gather_S16x2048_S2x1_S2x2048_1_0_n_n_0_1_12048 : GatherDims S16x2048 S2x1 S2x2048 where
  offsetDims := [1]
  collapsedSliceDims := [0]
  operandBatchingDims := []
  startIndicesBatchingDims := []
  startIndexMap := [0]
  indexVectorDim := 1
  sliceSizes := ![1, 2048]
  wf := gather_S16x2048_S2x1_S2x2048_1_0_n_n_0_1_12048_wf
def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.Spec.lean ====
/-
  The routing layer's result as one function of its inputs, over the extended reals.

  Inputs: activations x : [16384, 2048], expert weights W : [16, 2048, 2048] (W[e] is an out×in matrix), expert
  biases b : [16, 2048], and two expert numbers e0, e1. Every token goes to the same two experts, so

      y[r, o] = Σ_d x[r, d] · (W[e0, o, d] + W[e1, o, d]) + (b[e0, o] + b[e1, o]).

  The weights of the two experts are added first (entry (d, o) of the combined, transposed weight is
  W[e0, o, d] + W[e1, o, d]); one product with x and one addition of the combined bias follow. Both programs
  compute it in this order, so no law of the extended reals beyond 0 + a = a is needed to join them.
  The two-word integer input names the experts: word k is the number e_k, 0 ≤ e_k < 16.
-/
import Idealize.ShloMosaic.PureOps.Ideal
import Idealize.ShloMosaic.Lib.ValueIdx

noncomputable section

open scoped BigOperators

namespace RMoE

open Idealize.ShloMosaic Idealize.ShloMosaic.ValueIdx

abbrev SX : Shape := ⟨2, ![16384, 2048]⟩
abbrev SW : Shape := ⟨3, ![16, 2048, 2048]⟩
abbrev SB : Shape := ⟨2, ![16, 2048]⟩
abbrev SI : Shape := ⟨1, ![2]⟩

/-- Entry (d, o) of the combined, transposed weight: W[e0, o, d] + W[e1, o, d]. -/
def wsumAt (W : FVec Ideal SW .f32) (e0 e1 : Fin 16) (d o : Fin 2048) : EReal :=
  W (ix3 e0 o d) + W (ix3 e1 o d)

/-- Entry o of the combined bias: b[e0, o] + b[e1, o]. -/
def bsumAt (b : FVec Ideal SB .f32) (e0 e1 : Fin 16) (o : Fin 2048) : EReal :=
  b (ix2 e0 o) + b (ix2 e1 o)

/-- y[r, o] = Σ_d x[r, d] · (W[e0, o, d] + W[e1, o, d]) + (b[e0, o] + b[e1, o]). -/
def outAt (x : FVec Ideal SX .f32) (W : FVec Ideal SW .f32) (b : FVec Ideal SB .f32) (e0 e1 : Fin 16)
    (r : Fin 16384) (o : Fin 2048) : EReal :=
  (∑ d : Fin 2048, x (ix2 r d) * wsumAt W e0 e1 d o) + bsumAt b e0 e1 o

/-- The whole result array. -/
def G (x : FVec Ideal SX .f32) (W : FVec Ideal SW .f32) (b : FVec Ideal SB .f32) (e0 e1 : Fin 16) :
    FVec Ideal SX .f32 :=
  fun i => outAt x W b e0 e1 (i 0) (i 1)

theorem G_apply (x : FVec Ideal SX .f32) (W : FVec Ideal SW .f32) (b : FVec Ideal SB .f32) (e0 e1 : Fin 16)
    (r : Fin 16384) (o : Fin 2048) : G x W b e0 e1 (ix2 r o) = outAt x W b e0 e1 r o := rfl

/-- The two id words are the expert numbers e0 and e1. -/
def IdsAre (ids : IVec SI 32) (e0 e1 : Fin 16) : Prop :=
  ids (ix1 (0 : Fin 2)) = BitVec.ofNat 32 e0.val ∧ ids (ix1 (1 : Fin 2)) = BitVec.ofNat 32 e1.val

end RMoE

end
-- ==== Proof.Body0.lean ====
/-
  The first kernel body as a separation-logic triple, at any float instance.

  The body reads two [1,1024,2048] blocks, adds them, narrows the sum and writes its transpose over the whole
  [2048,1024] output buffer. Run on whole buffers holding x0 and x1, it leaves the inputs as they were and the
  output buffer at the one store's payload of the two loads.
-/
import proofs.«136559_g38783554683117_cont_8to1_b_1222_28_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole input rectangle. -/
abbrev r0_in : Rect S1x1024x2048 := Rect.unit (s := S1x1024x2048) ![0, 0, 0] S1x1024x2048.size inb_S1x1024x2048_S1x1024x2048_0_0_0
/-- The whole output rectangle. -/
abbrev r0_out : Rect S2048x1024 := Rect.unit (s := S2048x1024) ![0, 0] S2048x1024.size inb_S2048x1024_S2048x1024_0_0

/-- What the body leaves in its output buffer: its one store, over the whole buffer, of the payload of the two
    loads. -/
def out0_2 (x0 x1 : Vec F S1x1024x2048 .f32) : Vec F S2048x1024 .bf16 :=
  View.canon [⟨r0_out, k0_pay1 (View.ld x0 r0_in) (View.ld x1 r0_in)⟩]

/-- The one store covers the buffer. -/
theorem cover0_2 (p0 : Vec F S2048x1024 .bf16) (y : S2048x1024.Idx) :
    ∃ pc ∈ ([⟨r0_out, p0⟩] : List (View.Piece (Elt F) S2048x1024 .bf16)), y ∈ pc.1.set :=
  View.cover_of_tiled [⟨r0_out, p0⟩] S2048x1024.size (by rfl) y

set_option maxHeartbeats 1000000 in
/-- The body on whole buffers, the inputs' at x0 and x1 and the output's at anything, runs to the continuation
    holding the inputs' as they were and the output's at `out0_2 x0 x1`. -/
theorem sound_kernel0 (c : Dev nD) (E : Set ℕ) (i : grid0.Coords) (arg1 : Memref sig .tc .smem S2 .i32) (harg1 : arg1.IsWhole)
    (arg2 : Memref sig .tc .vmem S1x1024x2048 .f32) (harg2 : arg2.IsWhole)
    (arg3 : Memref sig .tc .vmem S1x1024x2048 .f32) (harg3 : arg3.IsWhole)
    (arg4 : Memref sig .tc .vmem S2048x1024 .bf16) (harg4 : arg4.IsWhole)
    (x0 x1 : Vec F S1x1024x2048 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E
          (cc0__prep_body i arg1 harg1 arg2 harg2 arg3 harg3 arg4 harg4) K := by
  simp only [cc0__prep_body_eq_skeleton]; unfold cc0__prep_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Body

end
-- ==== Proof.Body1.lean ====
/-
  The second kernel body as a separation-logic triple, at any float instance.

  The body reads the [1024,2048] activation block, narrows it and writes it over the whole scratch buffer, reads the
  scratch back, reads the combined [2048,2048] weight and multiplies into a zero accumulator, reads the two
  [1,1,2048] bias blocks, adds them, broadcasts the sum over the rows, adds, and writes the result over the whole
  output buffer. Run on whole buffers, it leaves the inputs as they were, the scratch at the narrowed activation
  block and the output buffer at the last store's payload of what it read.
-/
import proofs.«136559_g38783554683117_cont_8to1_b_1222_28_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole [1024,2048] rectangle (the activation block, the scratch, the output). -/
abbrev r1_x : Rect S1024x2048 := Rect.unit (s := S1024x2048) ![0, 0] S1024x2048.size inb_S1024x2048_S1024x2048_0_0
/-- The whole weight rectangle. -/
abbrev r1_w : Rect S2048x2048 := Rect.unit (s := S2048x2048) ![0, 0] S2048x2048.size inb_S2048x2048_S2048x2048_0_0
/-- The whole bias rectangle. -/
abbrev r1_b : Rect S1x1x2048 := Rect.unit (s := S1x1x2048) ![0, 0, 0] S1x1x2048.size inb_S1x1x2048_S1x1x2048_0_0_0

/-- What the body leaves in the scratch: its one store, over the whole buffer, of the narrowed activation load. -/
def scr1 (x0 : Vec F S1024x2048 .f32) : Vec F S1024x2048 .bf16 :=
  View.canon [⟨r1_x, k1_pay1 (View.ld x0 r1_x)⟩]

/-- What the body leaves in its output buffer: its one store, over the whole buffer, of the payload of the scratch
    read back, the weight load and the two bias loads. -/
def out1_4 (x0 : Vec F S1024x2048 .f32) (ws : Vec F S2048x2048 .bf16) (b0 b1 : Vec F S1x1x2048 .f32) :
    Vec F S1024x2048 .f32 :=
  View.canon [⟨r1_x, k1_pay2 (View.ld (scr1 x0) r1_x) (View.ld ws r1_w) (View.ld b0 r1_b) (View.ld b1 r1_b)⟩]

/-- One whole store covers a [1024,2048] buffer, at either element type. -/
theorem cover1 {e : EltTy} (p0 : Vec F S1024x2048 e) (y : S1024x2048.Idx) :
    ∃ pc ∈ ([⟨r1_x, p0⟩] : List (View.Piece (Elt F) S1024x2048 e)), y ∈ pc.1.set :=
  View.cover_of_tiled [⟨r1_x, p0⟩] S1024x2048.size (by rfl) y

set_option maxHeartbeats 1000000 in
/-- The body on whole buffers, the inputs' at x0, ws, b0, b1 and the output's and the scratch's at anything, runs to
    the continuation holding the inputs' as they were, the output's at `out1_4 x0 ws b0 b1` and the scratch's at
    `scr1 x0`: the load of the scratch after its whole store reads the stored value. -/
theorem sound_kernel1 (c : Dev nD) (E : Set ℕ) (i : grid1.Coords) (arg1 : Memref sig .tc .smem S2 .i32) (harg1 : arg1.IsWhole)
    (arg2 : Memref sig .tc .vmem S1024x2048 .f32) (harg2 : arg2.IsWhole)
    (arg3 : Memref sig .tc .vmem S2048x2048 .bf16) (harg3 : arg3.IsWhole)
    (arg4 : Memref sig .tc .vmem S1x1x2048 .f32) (harg4 : arg4.IsWhole)
    (arg5 : Memref sig .tc .vmem S1x1x2048 .f32) (harg5 : arg5.IsWhole)
    (arg6 : Memref sig .tc .vmem S1024x2048 .f32) (harg6 : arg6.IsWhole)
    (arg7 : Memref sig .tc .vmem S1024x2048 .bf16) (harg7 : arg7.IsWhole)
    (x0 : Vec F S1024x2048 .f32) (ws : Vec F S2048x2048 .bf16) (b0 b1 : Vec F S1x1x2048 .f32) (K : PUnit → sProp 𝕄) :
    iprop(owns (c : Thread nD τ) arg2 fullShare x0 ∗ owns (c : Thread nD τ) arg3 fullShare ws
        ∗ owns (c : Thread nD τ) arg4 fullShare b0 ∗ owns (c : Thread nD τ) arg5 fullShare b1
        ∗ (∃ d, owns (c : Thread nD τ) arg6 fullShare d) ∗ (∃ s, owns (c : Thread nD τ) arg7 fullShare s)
        ∗ (iprop(owns (c : Thread nD τ) arg2 fullShare x0 ∗ owns (c : Thread nD τ) arg3 fullShare ws
            ∗ owns (c : Thread nD τ) arg4 fullShare b0 ∗ owns (c : Thread nD τ) arg5 fullShare b1
            ∗ owns (c : Thread nD τ) arg6 fullShare (out1_4 x0 ws b0 b1)
            ∗ owns (c : Thread nD τ) arg7 fullShare (scr1 x0)) -∗ K ⟨⟩))
      ⊢ wp frame (wpE (defs₀ (F := F)) Variants.none c none) E
          (cc1__mm_body i arg1 harg1 arg2 harg2 arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1 _)).trans ?_
    unfold out1_4 scr1 sound_kernel1.sl.v5 sound_kernel1.sl.H5_1
    rw [View.readCov_eq_canon_ld _ _ _ (cover1 _)]
    rfl
  iexists _; isplitr
  swap; · iexact H5
  ipureintro
  unfold sound_kernel1.sl.H5_1
  exact View.read_writes_eq_canon _ _ _ (cover1 _)

end Cert.KernelIdeal.Body

end
-- ==== Proof.BodyK0.lean ====
/-
  The first kernel body as a separation-logic triple, at any float instance.

  The body reads two [1,1024,2048] blocks, adds them, narrows the sum and writes its transpose over the whole
  [2048,1024] output buffer. Run on whole buffers holding x0 and x1, it leaves the inputs as they were and the
  output buffer at the one store's payload of the two loads.
-/
import proofs.«136559_g38783554683117_cont_8to1_b_1222_28_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole input rectangle. -/
abbrev r0_in : Rect S1x1024x2048 := Rect.unit (s := S1x1024x2048) ![0, 0, 0] S1x1024x2048.size inb_S1x1024x2048_S1x1024x2048_0_0_0
/-- The whole output rectangle. -/
abbrev r0_out : Rect S2048x1024 := Rect.unit (s := S2048x1024) ![0, 0] S2048x1024.size inb_S2048x1024_S2048x1024_0_0

/-- What the body leaves in its output buffer: its one store, over the whole buffer, of the payload of the two
    loads. -/
def out0_2 (x0 x1 : Vec F S1x1024x2048 .f32) : Vec F S2048x1024 .bf16 :=
  View.canon [⟨r0_out, k0_pay1 (View.ld x0 r0_in) (View.ld x1 r0_in)⟩]

/-- The one store covers the buffer. -/
theorem cover0_2 (p0 : Vec F S2048x1024 .bf16) (y : S2048x1024.Idx) :
    ∃ pc ∈ ([⟨r0_out, p0⟩] : List (View.Piece (Elt F) S2048x1024 .bf16)), y ∈ pc.1.set :=
  View.cover_of_tiled [⟨r0_out, p0⟩] S2048x1024.size (by rfl) y

set_option maxHeartbeats 1000000 in
/-- The body on whole buffers, the inputs' at x0 and x1 and the output's at anything, runs to the continuation
    holding the inputs' as they were and the output's at `out0_2 x0 x1`. -/
theorem sound_kernel0 (c : Dev nD) (E : Set ℕ) (i : grid0.Coords) (arg1 : Memref sig .tc .smem S2 .i32) (harg1 : arg1.IsWhole)
    (arg2 : Memref sig .tc .vmem S1x1024x2048 .f32) (harg2 : arg2.IsWhole)
    (arg3 : Memref sig .tc .vmem S1x1024x2048 .f32) (harg3 : arg3.IsWhole)
    (arg4 : Memref sig .tc .vmem S2048x1024 .bf16) (harg4 : arg4.IsWhole)
    (x0 x1 : Vec F S1x1024x2048 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E
          (cc0__prep_body i arg1 harg1 arg2 harg2 arg3 harg3 arg4 harg4) K := by
  simp only [cc0__prep_body_eq_skeleton]; unfold cc0__prep_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Body

end
-- ==== Proof.BodyK1.lean ====
/-
  The second kernel body as a separation-logic triple, at any float instance.

  The body reads the [1024,2048] activation block, narrows it and writes it over the whole scratch buffer, reads the
  scratch back, reads the combined [2048,2048] weight and multiplies into a zero accumulator, reads the two
  [1,1,2048] bias blocks, adds them, broadcasts the sum over the rows, adds, and writes the result over the whole
  output buffer. Run on whole buffers, it leaves the inputs as they were, the scratch at the narrowed activation
  block and the output buffer at the last store's payload of what it read.
-/
import proofs.«136559_g38783554683117_cont_8to1_b_1222_28_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole [1024,2048] rectangle (the activation block, the scratch, the output). -/
abbrev r1_x : Rect S1024x2048 := Rect.unit (s := S1024x2048) ![0, 0] S1024x2048.size inb_S1024x2048_S1024x2048_0_0
/-- The whole weight rectangle. -/
abbrev r1_w : Rect S2048x2048 := Rect.unit (s := S2048x2048) ![0, 0] S2048x2048.size inb_S2048x2048_S2048x2048_0_0
/-- The whole bias rectangle. -/
abbrev r1_b : Rect S1x1x2048 := Rect.unit (s := S1x1x2048) ![0, 0, 0] S1x1x2048.size inb_S1x1x2048_S1x1x2048_0_0_0

/-- What the body leaves in the scratch: its one store, over the whole buffer, of the narrowed activation load. -/
def scr1 (x0 : Vec F S1024x2048 .f32) : Vec F S1024x2048 .bf16 :=
  View.canon [⟨r1_x, k1_pay1 (View.ld x0 r1_x)⟩]

/-- What the body leaves in its output buffer: its one store, over the whole buffer, of the payload of the scratch
    read back, the weight load and the two bias loads. -/
def out1_4 (x0 : Vec F S1024x2048 .f32) (ws : Vec F S2048x2048 .bf16) (b0 b1 : Vec F S1x1x2048 .f32) :
    Vec F S1024x2048 .f32 :=
  View.canon [⟨r1_x, k1_pay2 (View.ld (scr1 x0) r1_x) (View.ld ws r1_w) (View.ld b0 r1_b) (View.ld b1 r1_b)⟩]

/-- One whole store covers a [1024,2048] buffer, at either element type. -/
theorem cover1 {e : EltTy} (p0 : Vec F S1024x2048 e) (y : S1024x2048.Idx) :
    ∃ pc ∈ ([⟨r1_x, p0⟩] : List (View.Piece (Elt F) S1024x2048 e)), y ∈ pc.1.set :=
  View.cover_of_tiled [⟨r1_x, p0⟩] S1024x2048.size (by rfl) y

set_option maxHeartbeats 1000000 in
/-- The body on whole buffers, the inputs' at x0, ws, b0, b1 and the output's and the scratch's at anything, runs to
    the continuation holding the inputs' as they were, the output's at `out1_4 x0 ws b0 b1` and the scratch's at
    `scr1 x0`: the load of the scratch after its whole store reads the stored value. -/
theorem sound_kernel1 (c : Dev nD) (E : Set ℕ) (i : grid1.Coords) (arg1 : Memref sig .tc .smem S2 .i32) (harg1 : arg1.IsWhole)
    (arg2 : Memref sig .tc .vmem S1024x2048 .f32) (harg2 : arg2.IsWhole)
    (arg3 : Memref sig .tc .vmem S2048x2048 .bf16) (harg3 : arg3.IsWhole)
    (arg4 : Memref sig .tc .vmem S1x1x2048 .f32) (harg4 : arg4.IsWhole)
    (arg5 : Memref sig .tc .vmem S1x1x2048 .f32) (harg5 : arg5.IsWhole)
    (arg6 : Memref sig .tc .vmem S1024x2048 .f32) (harg6 : arg6.IsWhole)
    (arg7 : Memref sig .tc .vmem S1024x2048 .bf16) (harg7 : arg7.IsWhole)
    (x0 : Vec F S1024x2048 .f32) (ws : Vec F S2048x2048 .bf16) (b0 b1 : Vec F S1x1x2048 .f32) (K : PUnit → sProp 𝕄) :
    iprop(owns (c : Thread nD τ) arg2 fullShare x0 ∗ owns (c : Thread nD τ) arg3 fullShare ws
        ∗ owns (c : Thread nD τ) arg4 fullShare b0 ∗ owns (c : Thread nD τ) arg5 fullShare b1
        ∗ (∃ d, owns (c : Thread nD τ) arg6 fullShare d) ∗ (∃ s, owns (c : Thread nD τ) arg7 fullShare s)
        ∗ (iprop(owns (c : Thread nD τ) arg2 fullShare x0 ∗ owns (c : Thread nD τ) arg3 fullShare ws
            ∗ owns (c : Thread nD τ) arg4 fullShare b0 ∗ owns (c : Thread nD τ) arg5 fullShare b1
            ∗ owns (c : Thread nD τ) arg6 fullShare (out1_4 x0 ws b0 b1)
            ∗ owns (c : Thread nD τ) arg7 fullShare (scr1 x0)) -∗ K ⟨⟩))
      ⊢ wp frame (wpE (defs₀ (F := F)) Variants.none c none) E
          (cc1__mm_body i arg1 harg1 arg2 harg2 arg3 harg3 arg4 harg4 arg5 harg5 arg6 harg6 arg7 harg7) K := by
  simp only [cc1__mm_body_eq_skeleton]; unfold cc1__mm_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1 _)).trans ?_
    unfold out1_4 scr1 sound_kernel1.sl.v5 sound_kernel1.sl.H5_1
    rw [View.readCov_eq_canon_ld _ _ _ (cover1 _)]
    rfl
  iexists _; isplitr
  swap; · iexact H5
  ipureintro
  unfold sound_kernel1.sl.H5_1
  exact View.read_writes_eq_canon _ _ _ (cover1 _)

end Cert.Kernel.Body

end
-- ==== Proof.PreIds.lean ====
/-
  The precondition, read back for the two expert numbers.

  The printed predicate is the conjunction of three finiteness tests and of
      all_k ( 0 ≤ ids[k]  ∧  ids[k] < 16 ),   both comparisons signed, on 32-bit words.
  When it is 1, each of the two words w has 0 ≤ w.toInt < 16. A 32-bit word whose signed reading is
  nonnegative has its unsigned reading equal to the signed one, so w.toNat < 16 and w is the word of
  the number w.toNat: the two words name two experts e0, e1 : Fin 16.

  Stated for any float instance: the integer part of the predicate does not look at the floats.
-/
import proofs.«136559_g38783554683117_cont_8to1_b_1222_28_alg».proof.Pre_finite_inputs
import proofs.«136559_g38783554683117_cont_8to1_b_1222_28_alg».proof.Proof.Spec
import Idealize.ShloMosaic.Lib.ReduceAll
import Idealize.ShloMosaic.Lib.ValueIdx

noncomputable section

namespace RMoE.Pre

open Idealize.ShloMosaic Idealize.ShloMosaic.ValueIdx

/-- The scalar shape has one index. -/
instance : Subsingleton Cert.Pre_finite_inputs.S_.Idx := ⟨fun a b => funext fun d => d.elim0⟩

/-- The unsigned reading of the word of a number below 16 is that number. -/
theorem toNat_ofNat_fin16 (e : Fin 16) : (BitVec.ofNat 32 e.val).toNat = e.val := by
  have := e.isLt
  rw [BitVec.toNat_ofNat]
  omega

/-- The signed reading of the word of a number below 16 is that number. -/
theorem toInt_ofNat_fin16 (e : Fin 16) : (BitVec.ofNat 32 e.val).toInt = (e.val : Int) := by
  have h := e.isLt
  have e1 := BitVec.toInt_eq_toNat_cond (BitVec.ofNat 32 e.val)
  rw [toNat_ofNat_fin16] at e1
  rw [e1]
  split <;> omega

/-- A 32-bit word in [0, 16) signed is the word of a number below 16. -/
theorem word_of_range (w : BitVec 32) (h0 : IntOp.cmpi .sge w (0#32) = 1#1) (h16 : IntOp.cmpi .slt w (16#32) = 1#1) :
    ∃ e : Fin 16, w = BitVec.ofNat 32 e.val := by
  rw [IntOp.cmpi_sge] at h0
  rw [IntOp.cmpi_slt] at h16
  have z : (0#32 : BitVec 32).toInt = 0 := by decide
  have s : (16#32 : BitVec 32).toInt = 16 := by decide
  rw [z] at h0
  rw [s] at h16
  have c := BitVec.toInt_eq_toNat_cond w
  have lt := w.isLt
  have hn : w.toNat < 16 := by
    split at c <;> omega
  refine ⟨⟨w.toNat, hn⟩, ?_⟩
  apply BitVec.eq_of_toNat_eq
  rw [BitVec.toNat_ofNat]
  show w.toNat = w.toNat % 2 ^ 32
  omega

variable [Cert.Pre_finite_inputs.Facts]

/-- The precondition at one id word: 0 ≤ ids[k] and ids[k] < 16, signed. -/
theorem lane_of_pre {F : FTy → Type} [FloatOps F] (a0 : FVec F Cert.Pre_finite_inputs.S16384x2048 .f32)
    (a1 : FVec F Cert.Pre_finite_inputs.S16x2048x2048 .f32) (a2 : FVec F Cert.Pre_finite_inputs.S16x2048 .f32)
    (ids : IVec Cert.Pre_finite_inputs.S2 32)
    (h : Cert.Pre_finite_inputs.fn (F := F) a0 a1 a2 ids = (fun _ => 1#1)) (k : Fin 2) :
    IntOp.cmpi .sge (ids (ix1 k)) (0#32) = 1#1 ∧ IntOp.cmpi .slt (ids (ix1 k)) (16#32) = 1#1 := by
  have e := congrFun h ix0
  dsimp only [Cert.Pre_finite_inputs.fn, Cert.Pre_finite_inputs.fn_part1] at e
  obtain ⟨-, hall⟩ := IntOp.andi_eq_one.1 e
  have hk := Host.reduce_andi_all _ _ _ _ _ hall (ix1 k)
  exact IntOp.andi_eq_one.1 hk

/-- THE PRECONDITION DECODED: the two id words are two expert numbers below 16. -/
theorem ids_of_pre {F : FTy → Type} [FloatOps F] (a0 : FVec F Cert.Pre_finite_inputs.S16384x2048 .f32)
    (a1 : FVec F Cert.Pre_finite_inputs.S16x2048x2048 .f32) (a2 : FVec F Cert.Pre_finite_inputs.S16x2048 .f32)
    (ids : IVec Cert.Pre_finite_inputs.S2 32)
    (h : Cert.Pre_finite_inputs.fn (F := F) a0 a1 a2 ids = (fun _ => 1#1)) :
    ∃ e0 e1 : Fin 16, RMoE.IdsAre ids e0 e1 := by
  obtain ⟨a0', b0'⟩ := lane_of_pre a0 a1 a2 ids h 0
  obtain ⟨a1', b1'⟩ := lane_of_pre a0 a1 a2 ids h 1
  obtain ⟨e0, h0⟩ := word_of_range _ a0' b0'
  obtain ⟨e1, h1⟩ := word_of_range _ a1' b1'
  exact ⟨e0, e1, h0, h1⟩

end RMoE.Pre

end
-- ==== Proof.TablesKI.lean ====
/-
  The index maps that read the two expert numbers, in closed form.

  The launches prefetch one table, the two id words. Each map that reads the table loads one word
  (word 0 or word 1) and returns it, read unsigned, as the block number along the expert axis. When the
  words are the numbers e0, e1 below 16, the maps are
      weights, first launch:   (e0, i, 0) and (e1, i, 0) at grid point i (i < 2),
      biases, second launch:   (e0, 0, 0) and (e1, 0, 0) at every grid point,
  and every such block lies inside its array: e + 1 ≤ 16 along the expert axis, (i + 1)·1024 ≤ 2048 along
  the rows of a weight matrix, and the last axis is taken whole. The transfers are of 32-bit elements, so
  their ends are word-exact. The table's contents stay a variable throughout.
-/
import proofs.«136559_g38783554683117_cont_8to1_b_1222_28_alg».proof.KernelIdeal
import proofs.«136559_g38783554683117_cont_8to1_b_1222_28_alg».proof.Proof.Gen.KernelIdeal
import proofs.«136559_g38783554683117_cont_8to1_b_1222_28_alg».proof.Proof.Spec
import proofs.«136559_g38783554683117_cont_8to1_b_1222_28_alg».proof.Proof.PreIds

noncomputable section

namespace Cert.KernelIdeal.Tables

open Cert.KernelIdeal Cert.KernelIdeal.Gen
open Idealize.ShloMosaic Idealize.SL.Sem

variable {F : FTy → Type} [FloatOps F]

/-- The one index of a unit rectangle at offset k of the two-word table is index k. -/
theorem idx_eq (k : Fin 2) (off : Fin 1 → Nat) (hoff : off 0 = k.val) (inb : ∀ a, off a + S1.size a ≤ S2.size a)
    (h1 : 0 < S1.numel) : (Rect.unit (s := S2) off S1.size inb).emb (Shape.Idx.first h1) = ValueIdx.ix1 k := by
  funext a
  apply Fin.ext
  match a with
  | ⟨0, _⟩ =>
    show off 0 + 1 * 0 = k.val
    rw [hoff, Nat.mul_zero, Nat.add_zero]

/-- A grid coordinate below 2 ^ 32 survives the round trip through a 32-bit word. -/
theorem toNat_ofNat_lt (n : Nat) (h : n < 2 ^ 32) : (BitVec.ofNat 32 n).toNat = n := by
  rw [BitVec.toNat_ofNat]; exact Nat.mod_eq_of_lt h

section first

variable (pf : pre0.Contents (Elt F)) (e0 e1 : Fin 16) (h : RMoE.IdsAre (pf 0) e0 e1)
include h

/-- The word the first launch's map 0 loads is e0. -/
theorem at0 : pf.at 0 (Rect.unit (s := S2) ![0] S1.size inb_S2_S1_0) numel1_S1 = BitVec.ofNat 32 e0.val :=
  (congrArg (pf 0) (idx_eq 0 ![0] rfl _ _)).trans h.1

/-- The word the first launch's map 1 loads is e1. -/
theorem at1 : pf.at 0 (Rect.unit (s := S2) ![1] S1.size inb_S2_S1_1) numel1_S1 = BitVec.ofNat 32 e1.val :=
  (congrArg (pf 0) (idx_eq 1 ![1] rfl _ _)).trans h.2

/-- First launch, window 0: block (e0, i, 0) of the weights. -/
theorem t00 (i : grid0.Coords) : cc0_transform_0 inb_S2_S1_0 numel1_S1 pf i = ![e0.val, (i 0).val, 0] := by
  have e : cc0_transform_0 inb_S2_S1_0 numel1_S1 pf i
      = ![(pf.at 0 (Rect.unit (s := S2) ![0] S1.size inb_S2_S1_0) numel1_S1).toNat, (BitVec.ofNat 32 (i 0).val).toNat, (0#32 : BitVec 32).toNat] := rfl
  have hi : (i 0).val < 2 := (i 0).isLt
  rw [e, at0 pf e0 e1 h, RMoE.Pre.toNat_ofNat_fin16, toNat_ofNat_lt _ (by omega)]
  rfl

/-- First launch, window 1: block (e1, i, 0) of the weights. -/
theorem t01 (i : grid0.Coords) : cc0_transform_1 inb_S2_S1_1 numel1_S1 pf i = ![e1.val, (i 0).val, 0] := by
  have e : cc0_transform_1 inb_S2_S1_1 numel1_S1 pf i
      = ![(pf.at 0 (Rect.unit (s := S2) ![1] S1.size inb_S2_S1_1) numel1_S1).toNat, (BitVec.ofNat 32 (i 0).val).toNat, (0#32 : BitVec 32).toNat] := rfl
  have hi : (i 0).val < 2 := (i 0).isLt
  rw [e, at1 pf e0 e1 h, RMoE.Pre.toNat_ofNat_fin16, toNat_ofNat_lt _ (by omega)]
  rfl

/-- The first launch's table-indexed blocks lie inside the weights, and its transfers are of whole words. -/
theorem ok0_of_ids : ok0 (F := F) pf := by
  have h0 := e0.isLt
  have h1 := e1.isLt
  refine ⟨fun i => ⟨fun a => ?_, Or.inl rfl⟩, fun i => ⟨fun a => ?_, Or.inl rfl⟩⟩
  · rw [t00 pf e0 e1 h i]
    have hi : (i 0).val < 2 := (i 0).isLt
    fin_cases a <;> simp [S1x1024x2048, S16x2048x2048] <;> omega
  · rw [t01 pf e0 e1 h i]
    have hi : (i 0).val < 2 := (i 0).isLt
    fin_cases a <;> simp [S1x1024x2048, S16x2048x2048] <;> omega

end first

section second

variable (pf : pre1.Contents (Elt F)) (e0 e1 : Fin 16) (h : RMoE.IdsAre (pf 0) e0 e1)
include h

/-- The word the second launch's map 2 loads is e0. -/
theorem at0' : pf.at 0 (Rect.unit (s := S2) ![0] S1.size inb_S2_S1_0) numel1_S1 = BitVec.ofNat 32 e0.val :=
  (congrArg (pf 0) (idx_eq 0 ![0] rfl _ _)).trans h.1

/-- The word the second launch's map 3 loads is e1. -/
theorem at1' : pf.at 0 (Rect.unit (s := S2) ![1] S1.size inb_S2_S1_1) numel1_S1 = BitVec.ofNat 32 e1.val :=
  (congrArg (pf 0) (idx_eq 1 ![1] rfl _ _)).trans h.2

/-- Second launch, window 2: block (e0, 0, 0) of the biases. -/
theorem t12 (i : grid1.Coords) : cc1_transform_2 inb_S2_S1_0 numel1_S1 pf i = ![e0.val, 0, 0] := by
  have e : cc1_transform_2 inb_S2_S1_0 numel1_S1 pf i
      = ![(pf.at 0 (Rect.unit (s := S2) ![0] S1.size inb_S2_S1_0) numel1_S1).toNat, (0#32 : BitVec 32).toNat, (0#32 : BitVec 32).toNat] := rfl
  rw [e, at0' pf e0 e1 h, RMoE.Pre.toNat_ofNat_fin16]
  rfl

/-- Second launch, window 3: block (e1, 0, 0) of the biases. -/
theorem t13 (i : grid1.Coords) : cc1_transform_3 inb_S2_S1_1 numel1_S1 pf i = ![e1.val, 0, 0] := by
  have e : cc1_transform_3 inb_S2_S1_1 numel1_S1 pf i
      = ![(pf.at 0 (Rect.unit (s := S2) ![1] S1.size inb_S2_S1_1) numel1_S1).toNat, (0#32 : BitVec 32).toNat, (0#32 : BitVec 32).toNat] := rfl
  rw [e, at1' pf e0 e1 h, RMoE.Pre.toNat_ofNat_fin16]
  rfl

/-- The second launch's table-indexed blocks lie inside the biases, and its transfers are of whole words. -/
theorem ok1_of_ids : ok1 (F := F) pf := by
  have h0 := e0.isLt
  have h1 := e1.isLt
  refine ⟨fun i => ⟨fun a => ?_, Or.inl rfl⟩, fun i => ⟨fun a => ?_, Or.inl rfl⟩⟩
  · rw [t12 pf e0 e1 h i]
    fin_cases a <;> simp [S1x1x2048, S16x1x2048] <;> omega
  · rw [t13 pf e0 e1 h i]
    fin_cases a <;> simp [S1x1x2048, S16x1x2048] <;> omega

end second

end Cert.KernelIdeal.Tables

end
-- ==== Proof.RunKI0.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.KernelIdeal.Launch
import proofs.«136559_g38783554683117_cont_8to1_b_1222_28_alg».proof.Proof.Gen.KernelIdeal.Skeleton
import proofs.«136559_g38783554683117_cont_8to1_b_1222_28_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The bodies' runs, as hypotheses -/

/-- The first body, handed its two input blocks at x0, x1 and its output buffer at anything, leaves the inputs
    as they were and the output buffer at `o0 x0 x1`. -/
def Sound0 (o0 : Vec F S1x1024x2048 .f32 → Vec F S1x1024x2048 .f32 → Vec F S2048x1024 .bf16) : Prop :=
  ∀ (c : Dev nD) (E : Set ℕ) (i : grid0.Coords) (arg1 : Memref sig .tc .smem S2 .i32) (harg1 : arg1.IsWhole)
    (arg2 : Memref sig .tc .vmem S1x1024x2048 .f32) (harg2 : arg2.IsWhole) (arg3 : Memref sig .tc .vmem S1x1024x2048 .f32) (harg3 : arg3.IsWhole)
    (arg4 : Memref sig .tc .vmem S2048x1024 .bf16) (harg4 : arg4.IsWhole) (x0 x1 : Vec F S1x1024x2048 .f32) (K : PUnit → sProp 𝕄),
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (o0 x0 x1)) -∗ K ⟨⟩))
      ⊢ wp frame (wpE (defs₀ (F := F)) Variants.none c none) E (cc0__prep_body i arg1 harg1 arg2 harg2 arg3 harg3 arg4 harg4) K

/-- The second body, handed its four input blocks, its output buffer and its scratch at anything, leaves the
    inputs as they were, the output buffer at `o1 x0 ws b0 b1` and the scratch at `s1 x0`. -/
def Sound1 (o1 : Vec F S1024x2048 .f32 → Vec F S2048x2048 .bf16 → Vec F S1x1x2048 .f32 → Vec F S1x1x2048 .f32 → Vec F S1024x2048 .f32)
    (s1 : Vec F S1024x2048 .f32 → Vec F S1024x2048 .bf16) : Prop :=
  ∀ (c : Dev nD) (E : Set ℕ) (i : grid1.Coords) (arg1 : Memref sig .tc .smem S2 .i32) (harg1 : arg1.IsWhole)
    (arg2 : Memref sig .tc .vmem S1024x2048 .f32) (harg2 : arg2.IsWhole) (arg3 : Memref sig .tc .vmem S2048x2048 .bf16) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S1024x2048 .f32) (harg6 : arg6.IsWhole) (arg7 : Memref sig .tc .vmem S1024x2048 .bf16) (harg7 : arg7.IsWhole)
    (x0 : Vec F S1024x2048 .f32) (ws : Vec F S2048x2048 .bf16) (b0 b1 : Vec F S1x1x2048 .f32) (K : PUnit → sProp 𝕄),
    iprop(owns (c : Thread nD τ) arg2 fullShare x0 ∗ owns (c : Thread nD τ) arg3 fullShare ws ∗ owns (c : Thread nD τ) arg4 fullShare b0
        ∗ owns (c : Thread nD τ) arg5 fullShare b1 ∗ (∃ d, owns (c : Thread nD τ) arg6 fullShare d) ∗ (∃ s, owns (c : Thread nD τ) arg7 fullShare s)
        ∗ (iprop(owns (c : Thread nD τ) arg2 fullShare x0 ∗ owns (c : Thread nD τ) arg3 fullShare ws ∗ owns (c : Thread nD τ) arg4 fullShare b0
            ∗ owns (c : Thread nD τ) arg5 fullShare b1 ∗ owns (c : Thread nD τ) arg6 fullShare (o1 x0 ws b0 b1) ∗ owns (c : Thread nD τ) arg7 fullShare (s1 x0)) -∗ K ⟨⟩))
      ⊢ wp frame (wpE (defs₀ (F := F)) Variants.none c none) E (cc1__mm_body i arg1 harg1 arg2 harg2 arg3 harg3 arg4 harg4 arg5 harg5 arg6 harg6 arg7 harg7) K

section Regions

variable (V : (c : Dev nD) → (b : Ref sig .tc) → Buf (Elt F) ((c : Thread nD τ).loc b))

/-! # Region 0 at entry contents `V` and admissible table contents `a` -/

/-- Window `w`'s block at point `t`, read off its array as the region finds it. -/
def iblk0 (a : (pcfg0 (F := F)).Adm) (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

theorem before0_0_of (a : (pcfg0 (F := F)).Adm) {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of (a : (pcfg0 (F := F)).Adm) {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

variable (o0 : Vec F S1x1024x2048 .f32 → Vec F S1x1024x2048 .f32 → Vec F S2048x1024 .bf16)

/-- Region 0's proof data: the arrays as found; the inputs' buffers at their blocks and the output's at the
    body's result of them; the invariant the scoped rest, the generator register and the id table whole; the two
    windows on the weight array each hold half of its read share; nothing owed. -/
def dat0 (a : (pcfg0 (F := F)).Adm) (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => o0 (iblk0 V a c 0 t) (iblk0 V a c 1 t)
  Φ _ := iprop(Pipeline.ΦA spec0 c ∗ Pipeline.prefHeld pre0 c (fun _ => fullShare) a.1)
  q w := match w with
    | ⟨0, _⟩ => fullShare.left
    | ⟨1, _⟩ => fullShare.right
    | ⟨_ + 2, _⟩ => fullShare
  owed _ := 0

theorem A_eq0 (a : (pcfg0 (F := F)).Adm) (c : Dev nD) (w : Fin (cfg0 a).W) : (dat0 V o0 a c).A w = V c (Pipeline.arrRef spec0 w) := by
  dsimp only [dat0]

theorem after0_0 (a : (pcfg0 (F := F)).Adm) (c : Dev nD) (t : Fin (cfg0 a).N) : (dat0 V o0 a c).after 0 t = iblk0 V a c 0 t := by dsimp only [dat0]; try rfl
theorem after0_1 (a : (pcfg0 (F := F)).Adm) (c : Dev nD) (t : Fin (cfg0 a).N) : (dat0 V o0 a c).after 1 t = iblk0 V a c 1 t := by dsimp only [dat0]; try rfl
theorem after0_2 (a : (pcfg0 (F := F)).Adm) (c : Dev nD) (t : Fin (cfg0 a).N) :
    (dat0 V o0 a c).after 2 t = o0 (iblk0 V a c 0 t) (iblk0 V a c 1 t) := by dsimp only [dat0]; try rfl

theorem before0_0 (a : (pcfg0 (F := F)).Adm) (c : Dev nD) (t : Fin (cfg0 a).N) (d) : (dat0 V o0 a c).before 0 t d = iblk0 V a c 0 t :=
  before0_0_of V a (dat0 V o0 a c) (A_eq0 V o0 a c 0) (after0_0 V o0 a c) t d
theorem before0_1 (a : (pcfg0 (F := F)).Adm) (c : Dev nD) (t : Fin (cfg0 a).N) (d) : (dat0 V o0 a c).before 1 t d = iblk0 V a c 1 t :=
  before0_1_of V a (dat0 V o0 a c) (A_eq0 V o0 a c 1) (after0_1 V o0 a c) t d

/-- Each window's current staging memref at point `t`, and the body as the pipeline calls it there. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev bodyAt0 (a : (pcfg0 (F := F)).Adm) (t : Fin (cfg0 a).N) : Prog (TpuEff nD τ sig (Elt F) Λ₀ .tc) PUnit :=
  cc0__prep_body (grid0.coords t) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

def bodyPre0 (a : (pcfg0 (F := F)).Adm) (c : Dev nD) (t : Fin (cfg0 a).N) : sProp 𝕄 :=
  iprop((dat0 V o0 a c).Φ t.castSucc ∗ (dat0 V o0 a c).owesAt () t.castSucc
    ∗ (∃ d, owns (c : Thread nD τ) (st0_0 a t) fullShare ((dat0 V o0 a c).before 0 t d))
    ∗ (∃ d, owns (c : Thread nD τ) (st0_1 a t) fullShare ((dat0 V o0 a c).before 1 t d))
    ∗ (∃ d, owns (c : Thread nD τ) (st0_2 a t) fullShare ((dat0 V o0 a c).before 2 t d)))

def bodyPost0 (a : (pcfg0 (F := F)).Adm) (c : Dev nD) (t : Fin (cfg0 a).N) : sProp 𝕄 :=
  iprop((dat0 V o0 a c).Φ t.succ ∗ (dat0 V o0 a c).owesAt () t.succ
    ∗ owns (c : Thread nD τ) (st0_0 a t) fullShare ((dat0 V o0 a c).after 0 t)
    ∗ owns (c : Thread nD τ) (st0_1 a t) fullShare ((dat0 V o0 a c).after 1 t)
    ∗ owns (c : Thread nD τ) (st0_2 a t) fullShare ((dat0 V o0 a c).after 2 t))

theorem sound_body0 (h0 : Sound0 (F := F) o0) (a : (pcfg0 (F := F)).Adm) (c : Dev nD) (t : Fin (cfg0 a).N) :
    bodyPre0 V o0 a c t ⊢ wp frame (wpE (defs₀ (F := F)) Variants.none c none) Set.univ (bodyAt0 a t) (fun _ => bodyPost0 V o0 a c t) := by
  unfold bodyPre0 bodyPost0 bodyAt0
  simp only [before0_0, before0_1]
  rw [show (dat0 V o0 a c).Φ t.succ = (dat0 V o0 a c).Φ t.castSucc from rfl,
    show (dat0 V o0 a c).owesAt () t.succ = (dat0 V o0 a c).owesAt () t.castSucc from rfl,
    after0_0, after0_1, after0_2]
  iintro ⟨HΦ, Ho, ⟨%d0, H0⟩, ⟨%d1, H1⟩, ⟨%d2, H2⟩⟩
  iapply (h0 c Set.univ _ _ _ _ _ _ _ _ _ (iblk0 V a c 0 t) (iblk0 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (h0 : Sound0 (F := F) o0) (a : (pcfg0 (F := F)).Adm) (c : Dev nD) :
    BodyObligation (dat0 (F := F) V o0 a c) (defs₀ (F := F)) Variants.none () Set.univ := fun t => by
  rw [bigSep_W0, bigSep_W0]
  exact sound_body0 V o0 h0 a c t

end Regions

end Cert.KernelIdeal.Run

end
-- ==== Proof.RunKI1.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.KernelIdeal.Launch
import proofs.«136559_g38783554683117_cont_8to1_b_1222_28_alg».proof.Proof.Gen.KernelIdeal.Skeleton
import proofs.«136559_g38783554683117_cont_8to1_b_1222_28_alg».proof.Proof.Gen.KernelIdeal.Regions
import proofs.«136559_g38783554683117_cont_8to1_b_1222_28_alg».proof.Proof.RunKI0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions1

variable (V : (c : Dev nD) → (b : Ref sig .tc) → Buf (Elt F) ((c : Thread nD τ).loc b))

/-! # Region 1 at entry contents `V` and admissible table contents `a` -/

def iblk1 (a : (pcfg1 (F := F)).Adm) (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

theorem before1_0_of (a : (pcfg1 (F := F)).Adm) {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (a : (pcfg1 (F := F)).Adm) {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (a : (pcfg1 (F := F)).Adm) {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (a : (pcfg1 (F := F)).Adm) {c : Dev nD} (dat : Dat τ (Elt F) Unit ℕ (UR sig nD τ) ℕ (cfg1 a) c) (hA : dat.A 3 = V c (Pipeline.arrRef spec1 3))
    (hafter : ∀ t, dat.after 3 t = iblk1 V a c 3 t) (t : Fin (cfg1 a).N) (d) : dat.before 3 t d = iblk1 V a c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

variable (o1 : Vec F S1024x2048 .f32 → Vec F S2048x2048 .bf16 → Vec F S1x1x2048 .f32 → Vec F S1x1x2048 .f32 → Vec F S1024x2048 .f32)

/-- Region 1's proof data: as region 0's; the two windows on the reshaped bias each hold half of its read share. -/
def dat1 (a : (pcfg1 (F := F)).Adm) (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => o1 (iblk1 V a c 0 t) (iblk1 V a c 1 t) (iblk1 V a c 2 t) (iblk1 V a c 3 t)
  Φ _ := iprop(Pipeline.ΦA spec1 c ∗ Pipeline.prefHeld pre1 c (fun _ => fullShare) a.1)
  q w := match w with
    | ⟨0, _⟩ => fullShare
    | ⟨1, _⟩ => fullShare
    | ⟨2, _⟩ => fullShare.left
    | ⟨3, _⟩ => fullShare.right
    | ⟨_ + 4, _⟩ => fullShare
  owed _ := 0

theorem A_eq1 (a : (pcfg1 (F := F)).Adm) (c : Dev nD) (w : Fin (cfg1 a).W) : (dat1 V o1 a c).A w = V c (Pipeline.arrRef spec1 w) := by
  dsimp only [dat1]

theorem after1_0 (a : (pcfg1 (F := F)).Adm) (c : Dev nD) (t : Fin (cfg1 a).N) : (dat1 V o1 a c).after 0 t = iblk1 V a c 0 t := by dsimp only [dat1]; try rfl
theorem after1_1 (a : (pcfg1 (F := F)).Adm) (c : Dev nD) (t : Fin (cfg1 a).N) : (dat1 V o1 a c).after 1 t = iblk1 V a c 1 t := by dsimp only [dat1]; try rfl
theorem after1_2 (a : (pcfg1 (F := F)).Adm) (c : Dev nD) (t : Fin (cfg1 a).N) : (dat1 V o1 a c).after 2 t = iblk1 V a c 2 t := by dsimp only [dat1]; try rfl
theorem after1_3 (a : (pcfg1 (F := F)).Adm) (c : Dev nD) (t : Fin (cfg1 a).N) : (dat1 V o1 a c).after 3 t = iblk1 V a c 3 t := by dsimp only [dat1]; try rfl
theorem after1_4 (a : (pcfg1 (F := F)).Adm) (c : Dev nD) (t : Fin (cfg1 a).N) :
    (dat1 V o1 a c).after 4 t = o1 (iblk1 V a c 0 t) (iblk1 V a c 1 t) (iblk1 V a c 2 t) (iblk1 V a c 3 t) := by dsimp only [dat1]; try rfl

theorem before1_0 (a : (pcfg1 (F := F)).Adm) (c : Dev nD) (t : Fin (cfg1 a).N) (d) : (dat1 V o1 a c).before 0 t d = iblk1 V a c 0 t :=
  before1_0_of V a (dat1 V o1 a c) (A_eq1 V o1 a c 0) (after1_0 V o1 a c) t d
theorem before1_1 (a : (pcfg1 (F := F)).Adm) (c : Dev nD) (t : Fin (cfg1 a).N) (d) : (dat1 V o1 a c).before 1 t d = iblk1 V a c 1 t :=
  before1_1_of V a (dat1 V o1 a c) (A_eq1 V o1 a c 1) (after1_1 V o1 a c) t d
theorem before1_2 (a : (pcfg1 (F := F)).Adm) (c : Dev nD) (t : Fin (cfg1 a).N) (d) : (dat1 V o1 a c).before 2 t d = iblk1 V a c 2 t :=
  before1_2_of V a (dat1 V o1 a c) (A_eq1 V o1 a c 2) (after1_2 V o1 a c) t d
theorem before1_3 (a : (pcfg1 (F := F)).Adm) (c : Dev nD) (t : Fin (cfg1 a).N) (d) : (dat1 V o1 a c).before 3 t d = iblk1 V a c 3 t :=
  before1_3_of V a (dat1 V o1 a c) (A_eq1 V o1 a c 3) (after1_3 V o1 a c) t d

abbrev st1_0 (a : (pcfg1 (F := F)).Adm) (t : Fin (cfg1 a).N) := ((cfg1 a).win 0).stage ((cfg1 a).slots t 0)
abbrev st1_1 (a : (pcfg1 (F := F)).Adm) (t : Fin (cfg1 a).N) := ((cfg1 a).win 1).stage ((cfg1 a).slots t 1)
abbrev st1_2 (a : (pcfg1 (F := F)).Adm) (t : Fin (cfg1 a).N) := ((cfg1 a).win 2).stage ((cfg1 a).slots t 2)
abbrev st1_3 (a : (pcfg1 (F := F)).Adm) (t : Fin (cfg1 a).N) := ((cfg1 a).win 3).stage ((cfg1 a).slots t 3)
abbrev st1_4 (a : (pcfg1 (F := F)).Adm) (t : Fin (cfg1 a).N) := ((cfg1 a).win 4).stage ((cfg1 a).slots t 4)
abbrev bodyAt1 (a : (pcfg1 (F := F)).Adm) (t : Fin (cfg1 a).N) : Prog (TpuEff nD τ sig (Elt F) Λ₀ .tc) PUnit :=
  cc1__mm_body (grid1.coords t) (Memref.whole main_arg3) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (Memref.whole cc1_scratch0) (Memref.isWhole_whole _)

def bodyPre1 (a : (pcfg1 (F := F)).Adm) (c : Dev nD) (t : Fin (cfg1 a).N) : sProp 𝕄 :=
  iprop((dat1 V o1 a c).Φ t.castSucc ∗ (dat1 V o1 a c).owesAt () t.castSucc
    ∗ (∃ d, owns (c : Thread nD τ) (st1_0 a t) fullShare ((dat1 V o1 a c).before 0 t d))
    ∗ (∃ d, owns (c : Thread nD τ) (st1_1 a t) fullShare ((dat1 V o1 a c).before 1 t d))
    ∗ (∃ d, owns (c : Thread nD τ) (st1_2 a t) fullShare ((dat1 V o1 a c).before 2 t d))
    ∗ (∃ d, owns (c : Thread nD τ) (st1_3 a t) fullShare ((dat1 V o1 a c).before 3 t d))
    ∗ (∃ d, owns (c : Thread nD τ) (st1_4 a t) fullShare ((dat1 V o1 a c).before 4 t d)))

def bodyPost1 (a : (pcfg1 (F := F)).Adm) (c : Dev nD) (t : Fin (cfg1 a).N) : sProp 𝕄 :=
  iprop((dat1 V o1 a c).Φ t.succ ∗ (dat1 V o1 a c).owesAt () t.succ
    ∗ owns (c : Thread nD τ) (st1_0 a t) fullShare ((dat1 V o1 a c).after 0 t)
    ∗ owns (c : Thread nD τ) (st1_1 a t) fullShare ((dat1 V o1 a c).after 1 t)
    ∗ owns (c : Thread nD τ) (st1_2 a t) fullShare ((dat1 V o1 a c).after 2 t)
    ∗ owns (c : Thread nD τ) (st1_3 a t) fullShare ((dat1 V o1 a c).after 3 t)
    ∗ owns (c : Thread nD τ) (st1_4 a t) fullShare ((dat1 V o1 a c).after 4 t))

/-- The scratch buffer, whole at some contents, as the body's memref owns it. -/
theorem scratch_owns (c : Dev nD) :
    (iprop(∃ f : Buf (Elt F) ((c : Thread nD τ).loc cc1_scratch0), ((c : Thread nD τ).loc cc1_scratch0) ↦{fullShare} f) : sProp 𝕄)
      = iprop(∃ X, owns (c : Thread nD τ) (Memref.whole cc1_scratch0 : Memref sig .tc .vmem S1024x2048 .bf16) fullShare X) :=
  (Memref.IsWhole.exists_owns_eq (c := (c : Thread nD τ)) (Memref.isWhole_whole cc1_scratch0) fullShare).symm

theorem sound_body1 (s1 : Vec F S1024x2048 .f32 → Vec F S1024x2048 .bf16) (h1 : Sound1 (F := F) o1 s1) (a : (pcfg1 (F := F)).Adm) (c : Dev nD) (t : Fin (cfg1 a).N) :
    bodyPre1 V o1 a c t ⊢ wp frame (wpE (defs₀ (F := F)) Variants.none c none) Set.univ (bodyAt1 a t) (fun _ => bodyPost1 V o1 a c t) := by
  unfold bodyPre1 bodyPost1 bodyAt1
  simp only [before1_0, before1_1, before1_2, before1_3]
  rw [show (dat1 V o1 a c).Φ t.succ = (dat1 V o1 a c).Φ t.castSucc from rfl,
    show (dat1 V o1 a c).owesAt () t.succ = (dat1 V o1 a c).owesAt () t.castSucc from rfl,
    after1_0, after1_1, after1_2, after1_3, after1_4]
  rw [show (dat1 V o1 a c).Φ t.castSucc = iprop(Pipeline.ΦA spec1 c ∗ Pipeline.prefHeld pre1 c (fun _ => fullShare) a.1) from rfl]
  unfold Pipeline.ΦA
  rw [scopedRest1_eq, scratch_owns]
  iintro ⟨⟨⟨⟨Hs0, Hs1, Hs2, Hs3, Hs4, Hs5, ⟨%sx, Hscr⟩⟩, Hp⟩, HT⟩, Ho, ⟨%d0, H0⟩, ⟨%d1, H1⟩, ⟨%d2, H2⟩, ⟨%d3, H3⟩, ⟨%d4, H4⟩⟩
  iapply (h1 c Set.univ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  isplitl [Hscr]; · iexists _; iexact Hscr
  iintro ⟨H0, H1, H2, H3, H4, Hscr⟩
  isplitl [Hs0 Hs1 Hs2 Hs3 Hs4 Hs5 Hscr Hp HT]
  · isplitr [HT]
    · isplitr [Hp]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexists _; iexact Hscr
      iexact Hp
    iexact HT
  isplitl [Ho]; · iexact Ho
  isplitl [H0]; · iexact H0
  isplitl [H1]; · iexact H1
  isplitl [H2]; · iexact H2
  isplitl [H3]; · iexact H3
  iexact H4

theorem body_obligation1 (s1 : Vec F S1024x2048 .f32 → Vec F S1024x2048 .bf16) (h1 : Sound1 (F := F) o1 s1) (a : (pcfg1 (F := F)).Adm) (c : Dev nD) :
    BodyObligation (dat1 (F := F) V o1 a c) (defs₀ (F := F)) Variants.none () Set.univ := fun t => by
  rw [bigSep_W1, bigSep_W1]
  exact sound_body1 V o1 s1 h1 a c t

end Regions1

end Cert.KernelIdeal.Run

end
-- ==== Proof.RunKI2.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.KernelIdeal.Launch
import proofs.«136559_g38783554683117_cont_8to1_b_1222_28_alg».proof.Proof.Gen.KernelIdeal.Skeleton
import proofs.«136559_g38783554683117_cont_8to1_b_1222_28_alg».proof.Proof.Gen.KernelIdeal.Regions
import proofs.«136559_g38783554683117_cont_8to1_b_1222_28_alg».proof.Proof.RunKI0
import proofs.«136559_g38783554683117_cont_8to1_b_1222_28_alg».proof.Proof.RunKI1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: the buffers' contents at each boundary, the regions as segments -/

section Run

variable (m : (ℓ : Loc nD τ sig) → Buf (Elt F) ℓ) (ρ : Dev nD → PrngReg)
variable (o0 : Vec F S1x1024x2048 .f32 → Vec F S1x1024x2048 .f32 → Vec F S2048x1024 .bf16)
variable (o1 : Vec F S1024x2048 .f32 → Vec F S2048x2048 .bf16 → Vec F S1x1x2048 .f32 → Vec F S1x1x2048 .f32 → Vec F S1024x2048 .f32)

/-- The id table's contents, read off the launch memory (the program runs on one device). -/
def tbl0 : pre0.Contents (Elt F) := fun k => m (((0 : Dev nD) : Thread nD τ).loc (pre0.ref k))
def tbl1 : pre1.Contents (Elt F) := fun k => m (((0 : Dev nD) : Thread nD τ).loc (pre1.ref k))

/-- Both pipelines' side conditions of the table: every table-indexed block lies inside its array. -/
abbrev Ok : Prop := ok0 (F := F) (tbl0 m) ∧ ok1 (F := F) (tbl1 m)

/-- The table's contents as admissible contents of each pipeline. -/
def adm (hO : Ok m) : (p : Fin 2) → (pcfgs (F := F) p).Adm
  | ⟨0, _⟩ => ⟨tbl0 m, hO.1⟩
  | ⟨1, _⟩ => ⟨tbl1 m, hO.2⟩

/-- Region 0's entry contents: the launch memory after the bias reshape. -/
abbrev E1 (c : Dev nD) (b : Ref sig .tc) : Buf (Elt F) ((c : Thread nD τ).loc b) := Gen.V1 m c b

/-- What region 0 leaves in the combined-weight array. -/
def X2 (hO : Ok m) (c : Dev nD) : Buf (Elt F) ((c : Thread nD τ).loc main_call0_v1) :=
  (dat0 (E1 m) o0 (adm m hO 0) c).arrAt 2 (cfg0 (adm m hO 0)).N

/-- The buffers after region 0. -/
def W2 (hO : Ok m) (c : Dev nD) : Valuation τ sig (Elt F) :=
  Function.update (Gen.V1 m c) (Proc.devRef .tc main_call0_v1) (X2 m o0 hO c)
abbrev E2 (hO : Ok m) (c : Dev nD) (b : Ref sig .tc) : Buf (Elt F) ((c : Thread nD τ).loc b) := W2 m o0 hO c b

/-- What region 1 leaves in the result array. -/
def X3 (hO : Ok m) (c : Dev nD) : Buf (Elt F) ((c : Thread nD τ).loc main_v0) :=
  (dat1 (E2 m o0 hO) o1 (adm m hO 1) c).arrAt 4 (cfg1 (adm m hO 1)).N

/-- The buffers after region 1. -/
def W3 (hO : Ok m) (c : Dev nD) : Valuation τ sig (Elt F) :=
  Function.update (W2 m o0 hO c) (Proc.devRef .tc main_v0) (X3 m o0 o1 hO c)

theorem W2_self (hO : Ok m) (c : Dev nD) : W2 m o0 hO c (Proc.devRef .tc main_call0_v1) = X2 m o0 hO c := by
  unfold W2; exact Function.update_self ..
theorem W2_of_ne (hO : Ok m) (c : Dev nD) (r : Ref sig .tc) (h : r ≠ main_call0_v1) : W2 m o0 hO c (Proc.devRef .tc r) = Gen.V1 m c (Proc.devRef .tc r) := by
  unfold W2; exact Function.update_of_ne (StableHlo.devRef_ne_of_ne h) ..
theorem W3_self (hO : Ok m) (c : Dev nD) : W3 m o0 o1 hO c (Proc.devRef .tc main_v0) = X3 m o0 o1 hO c := by
  unfold W3; exact Function.update_self ..
theorem W3_of_ne (hO : Ok m) (c : Dev nD) (r : Ref sig .tc) (h : r ≠ main_v0) : W3 m o0 o1 hO c (Proc.devRef .tc r) = W2 m o0 hO c (Proc.devRef .tc r) := by
  unfold W3; exact Function.update_of_ne (StableHlo.devRef_ne_of_ne h) ..

/-- Every pipeline's proof data at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => dat0 (E1 m) o0 (adm m hO 0) c
  | ⟨1, _⟩ => fun c => dat1 (E2 m o0 hO) o1 (adm m hO 1) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- On the one device the table holds the contents read off device 0. -/
theorem tbl0_eq (c : Dev nD) : (fun k => E1 m c (pre0.ref k)) = tbl0 m := by
  obtain rfl : c = 0 := Subsingleton.elim _ _
  funext k
  obtain rfl : k = 0 := Subsingleton.elim _ _
  exact Gen.V1_of m 0 main_arg3 (by decide)
theorem tbl1_eq (hO : Ok m) (c : Dev nD) : (fun k => E2 m o0 hO c (pre1.ref k)) = tbl1 m := by
  obtain rfl : c = 0 := Subsingleton.elim _ _
  funext k
  obtain rfl : k = 0 := Subsingleton.elim _ _
  exact (W2_of_ne m o0 hO 0 main_arg3 (by decide)).trans (Gen.V1_of m 0 main_arg3 (by decide))

end Run

end Cert.KernelIdeal.Run

end
-- ==== Proof.OkOfPre.lean ====
/-
  From the precondition to the two expert numbers, and from them to the table conditions of the two pipelines.

  The precondition bounds each id word in [0, 16) signed, so the two words are the words of two numbers e0, e1
  below 16. The two pipelines index blocks of the weight and bias arrays by those words; with both below 16 every
  such block lies inside its array.
-/
import proofs.«136559_g38783554683117_cont_8to1_b_1222_28_alg».proof.Defs
import proofs.«136559_g38783554683117_cont_8to1_b_1222_28_alg».proof.Proof.Gen.Pre_finite_inputs
import proofs.«136559_g38783554683117_cont_8to1_b_1222_28_alg».proof.Proof.Spec
import proofs.«136559_g38783554683117_cont_8to1_b_1222_28_alg».proof.Proof.PreIds
import proofs.«136559_g38783554683117_cont_8to1_b_1222_28_alg».proof.Proof.TablesKI
import proofs.«136559_g38783554683117_cont_8to1_b_1222_28_alg».proof.Proof.RunKI2

noncomputable section

namespace Cert.KernelIdeal.Asm

open Cert.KernelIdeal Cert.KernelIdeal.Gen
open Idealize.ShloMosaic Idealize.ShloMosaic.TcCoe Idealize.SL.Sem

/-- With the id words naming two experts below 16, both pipelines' table conditions hold. -/
theorem ok_of_ids {F : FTy → Type} [FloatOps F] (m : (ℓ : Loc nD τ sig) → Buf (Elt F) ℓ) (e0 e1 : Fin 16)
    (h : RMoE.IdsAre (m (((0 : Dev nD) : Thread nD τ).loc main_arg3)) e0 e1) : Run.Ok m :=
  ⟨Tables.ok0_of_ids (Run.tbl0 m) e0 e1 h, Tables.ok1_of_ids (Run.tbl1 m) e0 e1 h⟩

/-- The precondition names two experts below 16, the same on every device. -/
theorem ids_of_Pre (m : (ℓ : Loc nD τ sig) → Buf (Elt Ideal) ℓ) (h : Cert.Pre_KernelIdeal m) :
    ∃ e0 e1 : Fin 16, ∀ c : Dev nD, RMoE.IdsAre (m ((c.tc : Thread nD τ).loc main_arg3)) e0 e1 := by
  obtain ⟨e0, e1, hh⟩ := RMoE.Pre.ids_of_pre _ _ _ _ (h 0)
  refine ⟨e0, e1, fun c => ?_⟩
  obtain rfl : c = 0 := Subsingleton.elim _ _
  exact hh

end Cert.KernelIdeal.Asm

end
-- ==== Proof.TablesK.lean ====
/-
  The index maps that read the two expert numbers, in closed form.

  The launches prefetch one table, the two id words. Each map that reads the table loads one word
  (word 0 or word 1) and returns it, read unsigned, as the block number along the expert axis. When the
  words are the numbers e0, e1 below 16, the maps are
      weights, first launch:   (e0, i, 0) and (e1, i, 0) at grid point i (i < 2),
      biases, second launch:   (e0, 0, 0) and (e1, 0, 0) at every grid point,
  and every such block lies inside its array: e + 1 ≤ 16 along the expert axis, (i + 1)·1024 ≤ 2048 along
  the rows of a weight matrix, and the last axis is taken whole. The transfers are of 32-bit elements, so
  their ends are word-exact. The table's contents stay a variable throughout.
-/
import proofs.«136559_g38783554683117_cont_8to1_b_1222_28_alg».proof.Kernel
import proofs.«136559_g38783554683117_cont_8to1_b_1222_28_alg».proof.Proof.Gen.Kernel
import proofs.«136559_g38783554683117_cont_8to1_b_1222_28_alg».proof.Proof.Spec
import proofs.«136559_g38783554683117_cont_8to1_b_1222_28_alg».proof.Proof.PreIds

noncomputable section

namespace Cert.Kernel.Tables

open Cert.Kernel Cert.Kernel.Gen
open Idealize.ShloMosaic Idealize.SL.Sem

variable {F : FTy → Type} [FloatOps F]

/-- The one index of a unit rectangle at offset k of the two-word table is index k. -/
theorem idx_eq (k : Fin 2) (off : Fin 1 → Nat) (hoff : off 0 = k.val) (inb : ∀ a, off a + S1.size a ≤ S2.size a)
    (h1 : 0 < S1.numel) : (Rect.unit (s := S2) off S1.size inb).emb (Shape.Idx.first h1) = ValueIdx.ix1 k := by
  funext a
  apply Fin.ext
  match a with
  | ⟨0, _⟩ =>
    show off 0 + 1 * 0 = k.val
    rw [hoff, Nat.mul_zero, Nat.add_zero]

/-- A grid coordinate below 2 ^ 32 survives the round trip through a 32-bit word. -/
theorem toNat_ofNat_lt (n : Nat) (h : n < 2 ^ 32) : (BitVec.ofNat 32 n).toNat = n := by
  rw [BitVec.toNat_ofNat]; exact Nat.mod_eq_of_lt h

section first

variable (pf : pre0.Contents (Elt F)) (e0 e1 : Fin 16) (h : RMoE.IdsAre (pf 0) e0 e1)
include h

/-- The word the first launch's map 0 loads is e0. -/
theorem at0 : pf.at 0 (Rect.unit (s := S2) ![0] S1.size inb_S2_S1_0) numel1_S1 = BitVec.ofNat 32 e0.val :=
  (congrArg (pf 0) (idx_eq 0 ![0] rfl _ _)).trans h.1

/-- The word the first launch's map 1 loads is e1. -/
theorem at1 : pf.at 0 (Rect.unit (s := S2) ![1] S1.size inb_S2_S1_1) numel1_S1 = BitVec.ofNat 32 e1.val :=
  (congrArg (pf 0) (idx_eq 1 ![1] rfl _ _)).trans h.2

/-- First launch, window 0: block (e0, i, 0) of the weights. -/
theorem t00 (i : grid0.Coords) : cc0_transform_0 inb_S2_S1_0 numel1_S1 pf i = ![e0.val, (i 0).val, 0] := by
  have e : cc0_transform_0 inb_S2_S1_0 numel1_S1 pf i
      = ![(pf.at 0 (Rect.unit (s := S2) ![0] S1.size inb_S2_S1_0) numel1_S1).toNat, (BitVec.ofNat 32 (i 0).val).toNat, (0#32 : BitVec 32).toNat] := rfl
  have hi : (i 0).val < 2 := (i 0).isLt
  rw [e, at0 pf e0 e1 h, RMoE.Pre.toNat_ofNat_fin16, toNat_ofNat_lt _ (by omega)]
  rfl

/-- First launch, window 1: block (e1, i, 0) of the weights. -/
theorem t01 (i : grid0.Coords) : cc0_transform_1 inb_S2_S1_1 numel1_S1 pf i = ![e1.val, (i 0).val, 0] := by
  have e : cc0_transform_1 inb_S2_S1_1 numel1_S1 pf i
      = ![(pf.at 0 (Rect.unit (s := S2) ![1] S1.size inb_S2_S1_1) numel1_S1).toNat, (BitVec.ofNat 32 (i 0).val).toNat, (0#32 : BitVec 32).toNat] := rfl
  have hi : (i 0).val < 2 := (i 0).isLt
  rw [e, at1 pf e0 e1 h, RMoE.Pre.toNat_ofNat_fin16, toNat_ofNat_lt _ (by omega)]
  rfl

/-- The first launch's table-indexed blocks lie inside the weights, and its transfers are of whole words. -/
theorem ok0_of_ids : ok0 (F := F) pf := by
  have h0 := e0.isLt
  have h1 := e1.isLt
  refine ⟨fun i => ⟨fun a => ?_, Or.inl rfl⟩, fun i => ⟨fun a => ?_, Or.inl rfl⟩⟩
  · rw [t00 pf e0 e1 h i]
    have hi : (i 0).val < 2 := (i 0).isLt
    fin_cases a <;> simp [S1x1024x2048, S16x2048x2048] <;> omega
  · rw [t01 pf e0 e1 h i]
    have hi : (i 0).val < 2 := (i 0).isLt
    fin_cases a <;> simp [S1x1024x2048, S16x2048x2048] <;> omega

end first

section second

variable (pf : pre1.Contents (Elt F)) (e0 e1 : Fin 16) (h : RMoE.IdsAre (pf 0) e0 e1)
include h

/-- The word the second launch's map 2 loads is e0. -/
theorem at0' : pf.at 0 (Rect.unit (s := S2) ![0] S1.size inb_S2_S1_0) numel1_S1 = BitVec.ofNat 32 e0.val :=
  (congrArg (pf 0) (idx_eq 0 ![0] rfl _ _)).trans h.1

/-- The word the second launch's map 3 loads is e1. -/
theorem at1' : pf.at 0 (Rect.unit (s := S2) ![1] S1.size inb_S2_S1_1) numel1_S1 = BitVec.ofNat 32 e1.val :=
  (congrArg (pf 0) (idx_eq 1 ![1] rfl _ _)).trans h.2

/-- Second launch, window 2: block (e0, 0, 0) of the biases. -/
theorem t12 (i : grid1.Coords) : cc1_transform_2 inb_S2_S1_0 numel1_S1 pf i = ![e0.val, 0, 0] := by
  have e : cc1_transform_2 inb_S2_S1_0 numel1_S1 pf i
      = ![(pf.at 0 (Rect.unit (s := S2) ![0] S1.size inb_S2_S1_0) numel1_S1).toNat, (0#32 : BitVec 32).toNat, (0#32 : BitVec 32).toNat] := rfl
  rw [e, at0' pf e0 e1 h, RMoE.Pre.toNat_ofNat_fin16]
  rfl

/-- Second launch, window 3: block (e1, 0, 0) of the biases. -/
theorem t13 (i : grid1.Coords) : cc1_transform_3 inb_S2_S1_1 numel1_S1 pf i = ![e1.val, 0, 0] := by
  have e : cc1_transform_3 inb_S2_S1_1 numel1_S1 pf i
      = ![(pf.at 0 (Rect.unit (s := S2) ![1] S1.size inb_S2_S1_1) numel1_S1).toNat, (0#32 : BitVec 32).toNat, (0#32 : BitVec 32).toNat] := rfl
  rw [e, at1' pf e0 e1 h, RMoE.Pre.toNat_ofNat_fin16]
  rfl

/-- The second launch's table-indexed blocks lie inside the biases, and its transfers are of whole words. -/
theorem ok1_of_ids : ok1 (F := F) pf := by
  have h0 := e0.isLt
  have h1 := e1.isLt
  refine ⟨fun i => ⟨fun a => ?_, Or.inl rfl⟩, fun i => ⟨fun a => ?_, Or.inl rfl⟩⟩
  · rw [t12 pf e0 e1 h i]
    fin_cases a <;> simp [S1x1x2048, S16x1x2048] <;> omega
  · rw [t13 pf e0 e1 h i]
    fin_cases a <;> simp [S1x1x2048, S16x1x2048] <;> omega

end second

end Cert.Kernel.Tables

end
-- ==== Proof.RunK0.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.Kernel.Launch
import proofs.«136559_g38783554683117_cont_8to1_b_1222_28_alg».proof.Proof.Gen.Kernel.Skeleton
import proofs.«136559_g38783554683117_cont_8to1_b_1222_28_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The bodies' runs, as hypotheses -/

/-- The first body, handed its two input blocks at x0, x1 and its output buffer at anything, leaves the inputs
    as they were and the output buffer at `o0 x0 x1`. -/
def Sound0 (o0 : Vec F S1x1024x2048 .f32 → Vec F S1x1024x2048 .f32 → Vec F S2048x1024 .bf16) : Prop :=
  ∀ (c : Dev nD) (E : Set ℕ) (i : grid0.Coords) (arg1 : Memref sig .tc .smem S2 .i32) (harg1 : arg1.IsWhole)
    (arg2 : Memref sig .tc .vmem S1x1024x2048 .f32) (harg2 : arg2.IsWhole) (arg3 : Memref sig .tc .vmem S1x1024x2048 .f32) (harg3 : arg3.IsWhole)
    (arg4 : Memref sig .tc .vmem S2048x1024 .bf16) (harg4 : arg4.IsWhole) (x0 x1 : Vec F S1x1024x2048 .f32) (K : PUnit → sProp 𝕄),
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (o0 x0 x1)) -∗ K ⟨⟩))
      ⊢ wp frame (wpE (defs₀ (F := F)) Variants.none c none) E (cc0__prep_body i arg1 harg1 arg2 harg2 arg3 harg3 arg4 harg4) K

/-- The second body, handed its four input blocks, its output buffer and its scratch at anything, leaves the
    inputs as they were, the output buffer at `o1 x0 ws b0 b1` and the scratch at `s1 x0`. -/
def Sound1 (o1 : Vec F S1024x2048 .f32 → Vec F S2048x2048 .bf16 → Vec F S1x1x2048 .f32 → Vec F S1x1x2048 .f32 → Vec F S1024x2048 .f32)
    (s1 : Vec F S1024x2048 .f32 → Vec F S1024x2048 .bf16) : Prop :=
  ∀ (c : Dev nD) (E : Set ℕ) (i : grid1.Coords) (arg1 : Memref sig .tc .smem S2 .i32) (harg1 : arg1.IsWhole)
    (arg2 : Memref sig .tc .vmem S1024x2048 .f32) (harg2 : arg2.IsWhole) (arg3 : Memref sig .tc .vmem S2048x2048 .bf16) (harg3 : arg3.IsWhole)
    (arg4 : Memref sig .tc .vmem S1x1x2048 .f32) (harg4 : arg4.IsWhole) (arg5 : Memref sig .tc .vmem S1x1x2048 .f32) (harg5 : arg5.IsWhole)
    (arg6 : Memref sig .tc .vmem S1024x2048 .f32) (harg6 : arg6.IsWhole) (arg7 : Memref sig .tc .vmem S1024x2048 .bf16) (harg7 : arg7.IsWhole)
    (x0 : Vec F S1024x2048 .f32) (ws : Vec F S2048x2048 .bf16) (b0 b1 : Vec F S1x1x2048 .f32) (K : PUnit → sProp 𝕄),
    iprop(owns (c : Thread nD τ) arg2 fullShare x0 ∗ owns (c : Thread nD τ) arg3 fullShare ws ∗ owns (c : Thread nD τ) arg4 fullShare b0
        ∗ owns (c : Thread nD τ) arg5 fullShare b1 ∗ (∃ d, owns (c : Thread nD τ) arg6 fullShare d) ∗ (∃ s, owns (c : Thread nD τ) arg7 fullShare s)
        ∗ (iprop(owns (c : Thread nD τ) arg2 fullShare x0 ∗ owns (c : Thread nD τ) arg3 fullShare ws ∗ owns (c : Thread nD τ) arg4 fullShare b0
            ∗ owns (c : Thread nD τ) arg5 fullShare b1 ∗ owns (c : Thread nD τ) arg6 fullShare (o1 x0 ws b0 b1) ∗ owns (c : Thread nD τ) arg7 fullShare (s1 x0)) -∗ K ⟨⟩))
      ⊢ wp frame (wpE (defs₀ (F := F)) Variants.none c none) E (cc1__mm_body i arg1 harg1 arg2 harg2 arg3 harg3 arg4 harg4 arg5 harg5 arg6 harg6 arg7 harg7) K

section Regions

variable (V : (c : Dev nD) → (b : Ref sig .tc) → Buf (Elt F) ((c : Thread nD τ).loc b))

/-! # Region 0 at entry contents `V` and admissible table contents `a` -/

/-- Window `w`'s block at point `t`, read off its array as the region finds it. -/
def iblk0 (a : (pcfg0 (F := F)).Adm) (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

theorem before0_0_of (a : (pcfg0 (F := F)).Adm) {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of (a : (pcfg0 (F := F)).Adm) {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

variable (o0 : Vec F S1x1024x2048 .f32 → Vec F S1x1024x2048 .f32 → Vec F S2048x1024 .bf16)

/-- Region 0's proof data: the arrays as found; the inputs' buffers at their blocks and the output's at the
    body's result of them; the invariant the scoped rest, the generator register and the id table whole; the two
    windows on the weight array each hold half of its read share; nothing owed. -/
def dat0 (a : (pcfg0 (F := F)).Adm) (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => o0 (iblk0 V a c 0 t) (iblk0 V a c 1 t)
  Φ _ := iprop(Pipeline.ΦA spec0 c ∗ Pipeline.prefHeld pre0 c (fun _ => fullShare) a.1)
  q w := match w with
    | ⟨0, _⟩ => fullShare.left
    | ⟨1, _⟩ => fullShare.right
    | ⟨_ + 2, _⟩ => fullShare
  owed _ := 0

theorem A_eq0 (a : (pcfg0 (F := F)).Adm) (c : Dev nD) (w : Fin (cfg0 a).W) : (dat0 V o0 a c).A w = V c (Pipeline.arrRef spec0 w) := by
  dsimp only [dat0]

theorem after0_0 (a : (pcfg0 (F := F)).Adm) (c : Dev nD) (t : Fin (cfg0 a).N) : (dat0 V o0 a c).after 0 t = iblk0 V a c 0 t := by dsimp only [dat0]; try rfl
theorem after0_1 (a : (pcfg0 (F := F)).Adm) (c : Dev nD) (t : Fin (cfg0 a).N) : (dat0 V o0 a c).after 1 t = iblk0 V a c 1 t := by dsimp only [dat0]; try rfl
theorem after0_2 (a : (pcfg0 (F := F)).Adm) (c : Dev nD) (t : Fin (cfg0 a).N) :
    (dat0 V o0 a c).after 2 t = o0 (iblk0 V a c 0 t) (iblk0 V a c 1 t) := by dsimp only [dat0]; try rfl

theorem before0_0 (a : (pcfg0 (F := F)).Adm) (c : Dev nD) (t : Fin (cfg0 a).N) (d) : (dat0 V o0 a c).before 0 t d = iblk0 V a c 0 t :=
  before0_0_of V a (dat0 V o0 a c) (A_eq0 V o0 a c 0) (after0_0 V o0 a c) t d
theorem before0_1 (a : (pcfg0 (F := F)).Adm) (c : Dev nD) (t : Fin (cfg0 a).N) (d) : (dat0 V o0 a c).before 1 t d = iblk0 V a c 1 t :=
  before0_1_of V a (dat0 V o0 a c) (A_eq0 V o0 a c 1) (after0_1 V o0 a c) t d

/-- Each window's current staging memref at point `t`, and the body as the pipeline calls it there. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev bodyAt0 (a : (pcfg0 (F := F)).Adm) (t : Fin (cfg0 a).N) : Prog (TpuEff nD τ sig (Elt F) Λ₀ .tc) PUnit :=
  cc0__prep_body (grid0.coords t) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

def bodyPre0 (a : (pcfg0 (F := F)).Adm) (c : Dev nD) (t : Fin (cfg0 a).N) : sProp 𝕄 :=
  iprop((dat0 V o0 a c).Φ t.castSucc ∗ (dat0 V o0 a c).owesAt () t.castSucc
    ∗ (∃ d, owns (c : Thread nD τ) (st0_0 a t) fullShare ((dat0 V o0 a c).before 0 t d))
    ∗ (∃ d, owns (c : Thread nD τ) (st0_1 a t) fullShare ((dat0 V o0 a c).before 1 t d))
    ∗ (∃ d, owns (c : Thread nD τ) (st0_2 a t) fullShare ((dat0 V o0 a c).before 2 t d)))

def bodyPost0 (a : (pcfg0 (F := F)).Adm) (c : Dev nD) (t : Fin (cfg0 a).N) : sProp 𝕄 :=
  iprop((dat0 V o0 a c).Φ t.succ ∗ (dat0 V o0 a c).owesAt () t.succ
    ∗ owns (c : Thread nD τ) (st0_0 a t) fullShare ((dat0 V o0 a c).after 0 t)
    ∗ owns (c : Thread nD τ) (st0_1 a t) fullShare ((dat0 V o0 a c).after 1 t)
    ∗ owns (c : Thread nD τ) (st0_2 a t) fullShare ((dat0 V o0 a c).after 2 t))

theorem sound_body0 (h0 : Sound0 (F := F) o0) (a : (pcfg0 (F := F)).Adm) (c : Dev nD) (t : Fin (cfg0 a).N) :
    bodyPre0 V o0 a c t ⊢ wp frame (wpE (defs₀ (F := F)) Variants.none c none) Set.univ (bodyAt0 a t) (fun _ => bodyPost0 V o0 a c t) := by
  unfold bodyPre0 bodyPost0 bodyAt0
  simp only [before0_0, before0_1]
  rw [show (dat0 V o0 a c).Φ t.succ = (dat0 V o0 a c).Φ t.castSucc from rfl,
    show (dat0 V o0 a c).owesAt () t.succ = (dat0 V o0 a c).owesAt () t.castSucc from rfl,
    after0_0, after0_1, after0_2]
  iintro ⟨HΦ, Ho, ⟨%d0, H0⟩, ⟨%d1, H1⟩, ⟨%d2, H2⟩⟩
  iapply (h0 c Set.univ _ _ _ _ _ _ _ _ _ (iblk0 V a c 0 t) (iblk0 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (h0 : Sound0 (F := F) o0) (a : (pcfg0 (F := F)).Adm) (c : Dev nD) :
    BodyObligation (dat0 (F := F) V o0 a c) (defs₀ (F := F)) Variants.none () Set.univ := fun t => by
  rw [bigSep_W0, bigSep_W0]
  exact sound_body0 V o0 h0 a c t

end Regions

end Cert.Kernel.Run

end
-- ==== Proof.RunK1.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.Kernel.Launch
import proofs.«136559_g38783554683117_cont_8to1_b_1222_28_alg».proof.Proof.Gen.Kernel.Skeleton
import proofs.«136559_g38783554683117_cont_8to1_b_1222_28_alg».proof.Proof.Gen.Kernel.Regions
import proofs.«136559_g38783554683117_cont_8to1_b_1222_28_alg».proof.Proof.RunK0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions1

variable (V : (c : Dev nD) → (b : Ref sig .tc) → Buf (Elt F) ((c : Thread nD τ).loc b))

/-! # Region 1 at entry contents `V` and admissible table contents `a` -/

def iblk1 (a : (pcfg1 (F := F)).Adm) (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

theorem before1_0_of (a : (pcfg1 (F := F)).Adm) {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (a : (pcfg1 (F := F)).Adm) {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (a : (pcfg1 (F := F)).Adm) {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (a : (pcfg1 (F := F)).Adm) {c : Dev nD} (dat : Dat τ (Elt F) Unit ℕ (UR sig nD τ) ℕ (cfg1 a) c) (hA : dat.A 3 = V c (Pipeline.arrRef spec1 3))
    (hafter : ∀ t, dat.after 3 t = iblk1 V a c 3 t) (t : Fin (cfg1 a).N) (d) : dat.before 3 t d = iblk1 V a c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

variable (o1 : Vec F S1024x2048 .f32 → Vec F S2048x2048 .bf16 → Vec F S1x1x2048 .f32 → Vec F S1x1x2048 .f32 → Vec F S1024x2048 .f32)

/-- Region 1's proof data: as region 0's; the two windows on the reshaped bias each hold half of its read share. -/
def dat1 (a : (pcfg1 (F := F)).Adm) (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => o1 (iblk1 V a c 0 t) (iblk1 V a c 1 t) (iblk1 V a c 2 t) (iblk1 V a c 3 t)
  Φ _ := iprop(Pipeline.ΦA spec1 c ∗ Pipeline.prefHeld pre1 c (fun _ => fullShare) a.1)
  q w := match w with
    | ⟨0, _⟩ => fullShare
    | ⟨1, _⟩ => fullShare
    | ⟨2, _⟩ => fullShare.left
    | ⟨3, _⟩ => fullShare.right
    | ⟨_ + 4, _⟩ => fullShare
  owed _ := 0

theorem A_eq1 (a : (pcfg1 (F := F)).Adm) (c : Dev nD) (w : Fin (cfg1 a).W) : (dat1 V o1 a c).A w = V c (Pipeline.arrRef spec1 w) := by
  dsimp only [dat1]

theorem after1_0 (a : (pcfg1 (F := F)).Adm) (c : Dev nD) (t : Fin (cfg1 a).N) : (dat1 V o1 a c).after 0 t = iblk1 V a c 0 t := by dsimp only [dat1]; try rfl
theorem after1_1 (a : (pcfg1 (F := F)).Adm) (c : Dev nD) (t : Fin (cfg1 a).N) : (dat1 V o1 a c).after 1 t = iblk1 V a c 1 t := by dsimp only [dat1]; try rfl
theorem after1_2 (a : (pcfg1 (F := F)).Adm) (c : Dev nD) (t : Fin (cfg1 a).N) : (dat1 V o1 a c).after 2 t = iblk1 V a c 2 t := by dsimp only [dat1]; try rfl
theorem after1_3 (a : (pcfg1 (F := F)).Adm) (c : Dev nD) (t : Fin (cfg1 a).N) : (dat1 V o1 a c).after 3 t = iblk1 V a c 3 t := by dsimp only [dat1]; try rfl
theorem after1_4 (a : (pcfg1 (F := F)).Adm) (c : Dev nD) (t : Fin (cfg1 a).N) :
    (dat1 V o1 a c).after 4 t = o1 (iblk1 V a c 0 t) (iblk1 V a c 1 t) (iblk1 V a c 2 t) (iblk1 V a c 3 t) := by dsimp only [dat1]; try rfl

theorem before1_0 (a : (pcfg1 (F := F)).Adm) (c : Dev nD) (t : Fin (cfg1 a).N) (d) : (dat1 V o1 a c).before 0 t d = iblk1 V a c 0 t :=
  before1_0_of V a (dat1 V o1 a c) (A_eq1 V o1 a c 0) (after1_0 V o1 a c) t d
theorem before1_1 (a : (pcfg1 (F := F)).Adm) (c : Dev nD) (t : Fin (cfg1 a).N) (d) : (dat1 V o1 a c).before 1 t d = iblk1 V a c 1 t :=
  before1_1_of V a (dat1 V o1 a c) (A_eq1 V o1 a c 1) (after1_1 V o1 a c) t d
theorem before1_2 (a : (pcfg1 (F := F)).Adm) (c : Dev nD) (t : Fin (cfg1 a).N) (d) : (dat1 V o1 a c).before 2 t d = iblk1 V a c 2 t :=
  before1_2_of V a (dat1 V o1 a c) (A_eq1 V o1 a c 2) (after1_2 V o1 a c) t d
theorem before1_3 (a : (pcfg1 (F := F)).Adm) (c : Dev nD) (t : Fin (cfg1 a).N) (d) : (dat1 V o1 a c).before 3 t d = iblk1 V a c 3 t :=
  before1_3_of V a (dat1 V o1 a c) (A_eq1 V o1 a c 3) (after1_3 V o1 a c) t d

abbrev st1_0 (a : (pcfg1 (F := F)).Adm) (t : Fin (cfg1 a).N) := ((cfg1 a).win 0).stage ((cfg1 a).slots t 0)
abbrev st1_1 (a : (pcfg1 (F := F)).Adm) (t : Fin (cfg1 a).N) := ((cfg1 a).win 1).stage ((cfg1 a).slots t 1)
abbrev st1_2 (a : (pcfg1 (F := F)).Adm) (t : Fin (cfg1 a).N) := ((cfg1 a).win 2).stage ((cfg1 a).slots t 2)
abbrev st1_3 (a : (pcfg1 (F := F)).Adm) (t : Fin (cfg1 a).N) := ((cfg1 a).win 3).stage ((cfg1 a).slots t 3)
abbrev st1_4 (a : (pcfg1 (F := F)).Adm) (t : Fin (cfg1 a).N) := ((cfg1 a).win 4).stage ((cfg1 a).slots t 4)
abbrev bodyAt1 (a : (pcfg1 (F := F)).Adm) (t : Fin (cfg1 a).N) : Prog (TpuEff nD τ sig (Elt F) Λ₀ .tc) PUnit :=
  cc1__mm_body (grid1.coords t) (Memref.whole main_arg3) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (Memref.whole cc1_scratch0) (Memref.isWhole_whole _)

def bodyPre1 (a : (pcfg1 (F := F)).Adm) (c : Dev nD) (t : Fin (cfg1 a).N) : sProp 𝕄 :=
  iprop((dat1 V o1 a c).Φ t.castSucc ∗ (dat1 V o1 a c).owesAt () t.castSucc
    ∗ (∃ d, owns (c : Thread nD τ) (st1_0 a t) fullShare ((dat1 V o1 a c).before 0 t d))
    ∗ (∃ d, owns (c : Thread nD τ) (st1_1 a t) fullShare ((dat1 V o1 a c).before 1 t d))
    ∗ (∃ d, owns (c : Thread nD τ) (st1_2 a t) fullShare ((dat1 V o1 a c).before 2 t d))
    ∗ (∃ d, owns (c : Thread nD τ) (st1_3 a t) fullShare ((dat1 V o1 a c).before 3 t d))
    ∗ (∃ d, owns (c : Thread nD τ) (st1_4 a t) fullShare ((dat1 V o1 a c).before 4 t d)))

def bodyPost1 (a : (pcfg1 (F := F)).Adm) (c : Dev nD) (t : Fin (cfg1 a).N) : sProp 𝕄 :=
  iprop((dat1 V o1 a c).Φ t.succ ∗ (dat1 V o1 a c).owesAt () t.succ
    ∗ owns (c : Thread nD τ) (st1_0 a t) fullShare ((dat1 V o1 a c).after 0 t)
    ∗ owns (c : Thread nD τ) (st1_1 a t) fullShare ((dat1 V o1 a c).after 1 t)
    ∗ owns (c : Thread nD τ) (st1_2 a t) fullShare ((dat1 V o1 a c).after 2 t)
    ∗ owns (c : Thread nD τ) (st1_3 a t) fullShare ((dat1 V o1 a c).after 3 t)
    ∗ owns (c : Thread nD τ) (st1_4 a t) fullShare ((dat1 V o1 a c).after 4 t))

/-- The scratch buffer, whole at some contents, as the body's memref owns it. -/
theorem scratch_owns (c : Dev nD) :
    (iprop(∃ f : Buf (Elt F) ((c : Thread nD τ).loc cc1_scratch0), ((c : Thread nD τ).loc cc1_scratch0) ↦{fullShare} f) : sProp 𝕄)
      = iprop(∃ X, owns (c : Thread nD τ) (Memref.whole cc1_scratch0 : Memref sig .tc .vmem S1024x2048 .bf16) fullShare X) :=
  (Memref.IsWhole.exists_owns_eq (c := (c : Thread nD τ)) (Memref.isWhole_whole cc1_scratch0) fullShare).symm

theorem sound_body1 (s1 : Vec F S1024x2048 .f32 → Vec F S1024x2048 .bf16) (h1 : Sound1 (F := F) o1 s1) (a : (pcfg1 (F := F)).Adm) (c : Dev nD) (t : Fin (cfg1 a).N) :
    bodyPre1 V o1 a c t ⊢ wp frame (wpE (defs₀ (F := F)) Variants.none c none) Set.univ (bodyAt1 a t) (fun _ => bodyPost1 V o1 a c t) := by
  unfold bodyPre1 bodyPost1 bodyAt1
  simp only [before1_0, before1_1, before1_2, before1_3]
  rw [show (dat1 V o1 a c).Φ t.succ = (dat1 V o1 a c).Φ t.castSucc from rfl,
    show (dat1 V o1 a c).owesAt () t.succ = (dat1 V o1 a c).owesAt () t.castSucc from rfl,
    after1_0, after1_1, after1_2, after1_3, after1_4]
  rw [show (dat1 V o1 a c).Φ t.castSucc = iprop(Pipeline.ΦA spec1 c ∗ Pipeline.prefHeld pre1 c (fun _ => fullShare) a.1) from rfl]
  unfold Pipeline.ΦA
  rw [scopedRest1_eq, scratch_owns]
  iintro ⟨⟨⟨⟨Hs0, Hs1, Hs2, Hs3, Hs4, Hs5, ⟨%sx, Hscr⟩⟩, Hp⟩, HT⟩, Ho, ⟨%d0, H0⟩, ⟨%d1, H1⟩, ⟨%d2, H2⟩, ⟨%d3, H3⟩, ⟨%d4, H4⟩⟩
  iapply (h1 c Set.univ _ _ _ _ _ _ _ _ _ _ _ _ _ _ _ (iblk1 V a c 0 t) (iblk1 V a c 1 t) (iblk1 V a c 2 t) (iblk1 V a c 3 t) _)
  isplitl [H0]; · iexact H0
  isplitl [H1]; · iexact H1
  isplitl [H2]; · iexact H2
  isplitl [H3]; · iexact H3
  isplitl [H4]; · iexists _; iexact H4
  isplitl [Hscr]; · iexists _; iexact Hscr
  iintro ⟨H0, H1, H2, H3, H4, Hscr⟩
  isplitl [Hs0 Hs1 Hs2 Hs3 Hs4 Hs5 Hscr Hp HT]
  · isplitr [HT]
    · isplitr [Hp]
      · isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        iexists _; iexact Hscr
      iexact Hp
    iexact HT
  isplitl [Ho]; · iexact Ho
  isplitl [H0]; · iexact H0
  isplitl [H1]; · iexact H1
  isplitl [H2]; · iexact H2
  isplitl [H3]; · iexact H3
  iexact H4

theorem body_obligation1 (s1 : Vec F S1024x2048 .f32 → Vec F S1024x2048 .bf16) (h1 : Sound1 (F := F) o1 s1) (a : (pcfg1 (F := F)).Adm) (c : Dev nD) :
    BodyObligation (dat1 (F := F) V o1 a c) (defs₀ (F := F)) Variants.none () Set.univ := fun t => by
  rw [bigSep_W1, bigSep_W1]
  exact sound_body1 V o1 s1 h1 a c t

end Regions1

end Cert.Kernel.Run

end
-- ==== Proof.RunK2.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.Kernel.Launch
import proofs.«136559_g38783554683117_cont_8to1_b_1222_28_alg».proof.Proof.Gen.Kernel.Skeleton
import proofs.«136559_g38783554683117_cont_8to1_b_1222_28_alg».proof.Proof.Gen.Kernel.Regions
import proofs.«136559_g38783554683117_cont_8to1_b_1222_28_alg».proof.Proof.RunK0
import proofs.«136559_g38783554683117_cont_8to1_b_1222_28_alg».proof.Proof.RunK1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: the buffers' contents at each boundary, the regions as segments -/

section Run

variable (m : (ℓ : Loc nD τ sig) → Buf (Elt F) ℓ) (ρ : Dev nD → PrngReg)
variable (o0 : Vec F S1x1024x2048 .f32 → Vec F S1x1024x2048 .f32 → Vec F S2048x1024 .bf16)
variable (o1 : Vec F S1024x2048 .f32 → Vec F S2048x2048 .bf16 → Vec F S1x1x2048 .f32 → Vec F S1x1x2048 .f32 → Vec F S1024x2048 .f32)

/-- The id table's contents, read off the launch memory (the program runs on one device). -/
def tbl0 : pre0.Contents (Elt F) := fun k => m (((0 : Dev nD) : Thread nD τ).loc (pre0.ref k))
def tbl1 : pre1.Contents (Elt F) := fun k => m (((0 : Dev nD) : Thread nD τ).loc (pre1.ref k))

/-- Both pipelines' side conditions of the table: every table-indexed block lies inside its array. -/
abbrev Ok : Prop := ok0 (F := F) (tbl0 m) ∧ ok1 (F := F) (tbl1 m)

/-- The table's contents as admissible contents of each pipeline. -/
def adm (hO : Ok m) : (p : Fin 2) → (pcfgs (F := F) p).Adm
  | ⟨0, _⟩ => ⟨tbl0 m, hO.1⟩
  | ⟨1, _⟩ => ⟨tbl1 m, hO.2⟩

/-- Region 0's entry contents: the launch memory after the bias reshape. -/
abbrev E1 (c : Dev nD) (b : Ref sig .tc) : Buf (Elt F) ((c : Thread nD τ).loc b) := Gen.V1 m c b

/-- What region 0 leaves in the combined-weight array. -/
def X2 (hO : Ok m) (c : Dev nD) : Buf (Elt F) ((c : Thread nD τ).loc main_call0_v1) :=
  (dat0 (E1 m) o0 (adm m hO 0) c).arrAt 2 (cfg0 (adm m hO 0)).N

/-- The buffers after region 0. -/
def W2 (hO : Ok m) (c : Dev nD) : Valuation τ sig (Elt F) :=
  Function.update (Gen.V1 m c) (Proc.devRef .tc main_call0_v1) (X2 m o0 hO c)
abbrev E2 (hO : Ok m) (c : Dev nD) (b : Ref sig .tc) : Buf (Elt F) ((c : Thread nD τ).loc b) := W2 m o0 hO c b

/-- What region 1 leaves in the result array. -/
def X3 (hO : Ok m) (c : Dev nD) : Buf (Elt F) ((c : Thread nD τ).loc main_v0) :=
  (dat1 (E2 m o0 hO) o1 (adm m hO 1) c).arrAt 4 (cfg1 (adm m hO 1)).N

/-- The buffers after region 1. -/
def W3 (hO : Ok m) (c : Dev nD) : Valuation τ sig (Elt F) :=
  Function.update (W2 m o0 hO c) (Proc.devRef .tc main_v0) (X3 m o0 o1 hO c)

theorem W2_self (hO : Ok m) (c : Dev nD) : W2 m o0 hO c (Proc.devRef .tc main_call0_v1) = X2 m o0 hO c := by
  unfold W2; exact Function.update_self ..
theorem W2_of_ne (hO : Ok m) (c : Dev nD) (r : Ref sig .tc) (h : r ≠ main_call0_v1) : W2 m o0 hO c (Proc.devRef .tc r) = Gen.V1 m c (Proc.devRef .tc r) := by
  unfold W2; exact Function.update_of_ne (StableHlo.devRef_ne_of_ne h) ..
theorem W3_self (hO : Ok m) (c : Dev nD) : W3 m o0 o1 hO c (Proc.devRef .tc main_v0) = X3 m o0 o1 hO c := by
  unfold W3; exact Function.update_self ..
theorem W3_of_ne (hO : Ok m) (c : Dev nD) (r : Ref sig .tc) (h : r ≠ main_v0) : W3 m o0 o1 hO c (Proc.devRef .tc r) = W2 m o0 hO c (Proc.devRef .tc r) := by
  unfold W3; exact Function.update_of_ne (StableHlo.devRef_ne_of_ne h) ..

/-- Every pipeline's proof data at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => dat0 (E1 m) o0 (adm m hO 0) c
  | ⟨1, _⟩ => fun c => dat1 (E2 m o0 hO) o1 (adm m hO 1) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- On the one device the table holds the contents read off device 0. -/
theorem tbl0_eq (c : Dev nD) : (fun k => E1 m c (pre0.ref k)) = tbl0 m := by
  obtain rfl : c = 0 := Subsingleton.elim _ _
  funext k
  obtain rfl : k = 0 := Subsingleton.elim _ _
  exact Gen.V1_of m 0 main_arg3 (by decide)
theorem tbl1_eq (hO : Ok m) (c : Dev nD) : (fun k => E2 m o0 hO c (pre1.ref k)) = tbl1 m := by
  obtain rfl : c = 0 := Subsingleton.elim _ _
  funext k
  obtain rfl : k = 0 := Subsingleton.elim _ _
  exact (W2_of_ne m o0 hO 0 main_arg3 (by decide)).trans (Gen.V1_of m 0 main_arg3 (by decide))

end Run

end Cert.Kernel.Run

end
-- ==== Proof.OkOfPreK.lean ====
/-
  From the precondition to the two expert numbers, and from them to the table conditions of the two pipelines.

  The precondition bounds each id word in [0, 16) signed, so the two words are the words of two numbers e0, e1
  below 16. The two pipelines index blocks of the weight and bias arrays by those words; with both below 16 every
  such block lies inside its array.
-/
import proofs.«136559_g38783554683117_cont_8to1_b_1222_28_alg».proof.Defs
import proofs.«136559_g38783554683117_cont_8to1_b_1222_28_alg».proof.Proof.Gen.Pre_finite_inputs
import proofs.«136559_g38783554683117_cont_8to1_b_1222_28_alg».proof.Proof.Spec
import proofs.«136559_g38783554683117_cont_8to1_b_1222_28_alg».proof.Proof.PreIds
import proofs.«136559_g38783554683117_cont_8to1_b_1222_28_alg».proof.Proof.TablesK
import proofs.«136559_g38783554683117_cont_8to1_b_1222_28_alg».proof.Proof.RunK2

noncomputable section

namespace Cert.Kernel.Asm

open Cert.Kernel Cert.Kernel.Gen
open Idealize.ShloMosaic Idealize.ShloMosaic.TcCoe Idealize.SL.Sem

/-- With the id words naming two experts below 16, both pipelines' table conditions hold. -/
theorem ok_of_ids {F : FTy → Type} [FloatOps F] (m : (ℓ : Loc nD τ sig) → Buf (Elt F) ℓ) (e0 e1 : Fin 16)
    (h : RMoE.IdsAre (m (((0 : Dev nD) : Thread nD τ).loc main_arg3)) e0 e1) : Run.Ok m :=
  ⟨Tables.ok0_of_ids (Run.tbl0 m) e0 e1 h, Tables.ok1_of_ids (Run.tbl1 m) e0 e1 h⟩

/-- The precondition names two experts below 16, the same on every device. -/
theorem ids_of_Pre (m : (ℓ : Loc nD τ sig) → Buf (Elt Bits) ℓ) (h : Cert.Pre_Kernel m) :
    ∃ e0 e1 : Fin 16, ∀ c : Dev nD, RMoE.IdsAre (m ((c.tc : Thread nD τ).loc main_arg3)) e0 e1 := by
  obtain ⟨e0, e1, hh⟩ := RMoE.Pre.ids_of_pre _ _ _ _ (h 0)
  refine ⟨e0, e1, fun c => ?_⟩
  obtain rfl : c = 0 := Subsingleton.elim _ _
  exact hh

end Cert.Kernel.Asm

end
-- ==== Proof.RunKI3.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.KernelIdeal.Launch
import proofs.«136559_g38783554683117_cont_8to1_b_1222_28_alg».proof.Proof.Gen.KernelIdeal.Skeleton
import proofs.«136559_g38783554683117_cont_8to1_b_1222_28_alg».proof.Proof.Gen.KernelIdeal.Regions
import proofs.«136559_g38783554683117_cont_8to1_b_1222_28_alg».proof.Proof.RunKI0
import proofs.«136559_g38783554683117_cont_8to1_b_1222_28_alg».proof.Proof.RunKI1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Shared

variable (V : (c : Dev nD) → (b : Ref sig .tc) → Buf (Elt F) ((c : Thread nD τ).loc b))
variable (o0 : Vec F S1x1024x2048 .f32 → Vec F S1x1024x2048 .f32 → Vec F S2048x1024 .bf16)
variable (o1 : Vec F S1024x2048 .f32 → Vec F S2048x2048 .bf16 → Vec F S1x1x2048 .f32 → Vec F S1x1x2048 .f32 → Vec F S1024x2048 .f32)

/-- Region 0's arrays, window by window: the weight array at the two halves of its share, the output whole. -/
theorem arrays0_eq (a : (pcfg0 (F := F)).Adm) (c : Dev nD)
    (F0 : (w : Fin (cfg0 a).W) → Buf (Elt F) (((cfg0 a).win w).arr.view.loc (c : Thread nD τ))) :
    ((dat0 V o0 a c).arrays F0 : sProp 𝕄)
      = iprop((((c : Thread nD τ).loc main_arg1) ↦{fullShare.left} F0 0) ∗ (((c : Thread nD τ).loc main_arg1) ↦{fullShare.right} F0 1)
          ∗ (((c : Thread nD τ).loc main_call0_v1) ↦{fullShare} F0 2)) := by
  unfold Dat.arrays
  rw [bigSep_W0]
  simp only [Dat.share, View.set_whole, Bool.false_eq_true, if_false, if_true]
  rfl

/-- Region 1's arrays, window by window: the reshaped bias at the two halves of its share, the others whole. -/
theorem arrays1_eq (a : (pcfg1 (F := F)).Adm) (c : Dev nD)
    (F1 : (w : Fin (cfg1 a).W) → Buf (Elt F) (((cfg1 a).win w).arr.view.loc (c : Thread nD τ))) :
    ((dat1 V o1 a c).arrays F1 : sProp 𝕄)
      = iprop((((c : Thread nD τ).loc main_arg0) ↦{fullShare} F1 0) ∗ (((c : Thread nD τ).loc main_call0_v1) ↦{fullShare} F1 1)
          ∗ (((c : Thread nD τ).loc main_call0_v0) ↦{fullShare.left} F1 2) ∗ (((c : Thread nD τ).loc main_call0_v0) ↦{fullShare.right} F1 3)
          ∗ (((c : Thread nD τ).loc main_v0) ↦{fullShare} F1 4)) := by
  unfold Dat.arrays
  rw [bigSep_W1]
  simp only [Dat.share, View.set_whole, Bool.false_eq_true, if_false, if_true]
  rfl

theorem image0 : (Finset.univ.image (Pipeline.arrRef spec0) : Finset (Ref sig .tc)) = insert main_arg1 {main_call0_v1} := by decide
theorem image1 : (Finset.univ.image (Pipeline.arrRef spec1) : Finset (Ref sig .tc))
    = insert main_arg0 (insert main_call0_v1 (insert main_call0_v0 {main_v0})) := by decide

/-- The distinct buffers behind region 0's arrays. -/
theorem arrBufs0_eq (c : Dev nD) (U : (b : Ref sig .tc) → Buf (Elt F) ((c : Thread nD τ).loc b)) :
    (Pipeline.arrBufs spec0 c U : sProp 𝕄)
      = iprop((((c : Thread nD τ).loc main_arg1) ↦{fullShare} U main_arg1) ∗ (((c : Thread nD τ).loc main_call0_v1) ↦{fullShare} U main_call0_v1)) := by
  unfold Pipeline.arrBufs
  rw [image0, bigSep_insert (by decide), bigSep_singleton]
  rfl

/-- The distinct buffers behind region 1's arrays. -/
theorem arrBufs1_eq (c : Dev nD) (U : (b : Ref sig .tc) → Buf (Elt F) ((c : Thread nD τ).loc b)) :
    (Pipeline.arrBufs spec1 c U : sProp 𝕄)
      = iprop((((c : Thread nD τ).loc main_arg0) ↦{fullShare} U main_arg0) ∗ (((c : Thread nD τ).loc main_call0_v1) ↦{fullShare} U main_call0_v1)
          ∗ (((c : Thread nD τ).loc main_call0_v0) ↦{fullShare} U main_call0_v0) ∗ (((c : Thread nD τ).loc main_v0) ↦{fullShare} U main_v0)) := by
  unfold Pipeline.arrBufs
  rw [image1, bigSep_insert (by decide), bigSep_insert (by decide), bigSep_insert (by decide), bigSep_singleton]
  rfl

/-- A core's unscoped buffers: the buffers behind a pipeline's arrays, the id table, and the rest. -/
theorem bufs_split0 (c : Dev nD) (U : (b : Ref sig .tc) → Buf (Elt F) ((c : Thread nD τ).loc b)) :
    (unscopedBufs c U : sProp 𝕄) = iprop(Pipeline.arrBufs spec0 c U
      ∗ Pipeline.prefHeld pre0 c (fun _ => fullShare) (fun k => U (pre0.ref k)) ∗ Pipeline.unscopedRestP pre0 spec0 c U) := by
  rw [← Pipeline.unscopedRest_split preFacts0 c U]
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl
theorem bufs_split1 (c : Dev nD) (U : (b : Ref sig .tc) → Buf (Elt F) ((c : Thread nD τ).loc b)) :
    (unscopedBufs c U : sProp 𝕄) = iprop(Pipeline.arrBufs spec1 c U
      ∗ Pipeline.prefHeld pre1 c (fun _ => fullShare) (fun k => U (pre1.ref k)) ∗ Pipeline.unscopedRestP pre1 spec1 c U) := by
  rw [← Pipeline.unscopedRest_split preFacts1 c U]
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The rest depends only on the contents off the arrays. -/
theorem restP_congr {gr W : Nat} (pre : Pipeline.Prefetch sig) (win : Fin W → Pipeline.WinSpec sig gr) (c : Dev nD)
    (U U' : (b : Ref sig .tc) → Buf (Elt F) ((c : Thread nD τ).loc b))
    (h : ∀ b, b ∉ Finset.univ.image (Pipeline.arrRef win) → U' b = U b) :
    (Pipeline.unscopedRestP pre win c U' : sProp 𝕄) = Pipeline.unscopedRestP pre win c U := by
  unfold Pipeline.unscopedRestP
  exact bigSep_congr fun b hb => by rw [h b (Finset.mem_sdiff.mp (Finset.mem_sdiff.mp hb).1).2]

/-- ENTRY of region 0: the weight array's full share split between its two windows. -/
theorem entry0 (a : (pcfg0 (F := F)).Adm) (c : Dev nD) :
    (Pipeline.arrBufs spec0 c (V c) : sProp 𝕄) ⊢ (dat0 V o0 a c).arrays ((dat0 V o0 a c).arrAt · 0) := by
  rw [arrays0_eq, arrBufs0_eq]
  iintro ⟨Hw, Hv⟩
  ihave Hs := (pointsTo_share (PosShare.mem_left_op_right fullShare)).1 $$ Hw
  icases Hs with ⟨Hl, Hr⟩
  isplitl [Hl]; · iexact Hl
  isplitl [Hr]; · iexact Hr
  iexact Hv

/-- EXIT of region 0: the two halves joined; the output array at what the write-backs leave. -/
theorem exit0 (a : (pcfg0 (F := F)).Adm) (c : Dev nD) :
    ((dat0 V o0 a c).arrays ((dat0 V o0 a c).arrAt · (cfg0 a).N) : sProp 𝕄)
      ⊢ iprop((((c : Thread nD τ).loc main_arg1) ↦{fullShare} V c main_arg1)
          ∗ (((c : Thread nD τ).loc main_call0_v1) ↦{fullShare} (dat0 V o0 a c).arrAt 2 (cfg0 a).N)) := by
  rw [arrays0_eq]
  have e0 : (dat0 V o0 a c).arrAt 0 (cfg0 a).N = V c main_arg1 := ((dat0 V o0 a c).arrAt_in 0 rfl _).trans (A_eq0 V o0 a c 0)
  have e1 : (dat0 V o0 a c).arrAt 1 (cfg0 a).N = V c main_arg1 := ((dat0 V o0 a c).arrAt_in 1 rfl _).trans (A_eq0 V o0 a c 1)
  simp only [e0, e1]
  iintro ⟨Hl, Hr, Hv⟩
  isplitl [Hl Hr]
  · iapply (pointsTo_share (PosShare.mem_left_op_right fullShare)).2
    isplitl [Hl]; · iexact Hl
    iexact Hr
  iexact Hv

/-- ENTRY of region 1: the reshaped bias's full share split between its two windows. -/
theorem entry1 (a : (pcfg1 (F := F)).Adm) (c : Dev nD) :
    (Pipeline.arrBufs spec1 c (V c) : sProp 𝕄) ⊢ (dat1 V o1 a c).arrays ((dat1 V o1 a c).arrAt · 0) := by
  rw [arrays1_eq, arrBufs1_eq]
  iintro ⟨Hx, Hw, Hb, Hv⟩
  ihave Hs := (pointsTo_share (PosShare.mem_left_op_right fullShare)).1 $$ Hb
  icases Hs with ⟨Hl, Hr⟩
  isplitl [Hx]; · iexact Hx
  isplitl [Hw]; · iexact Hw
  isplitl [Hl]; · iexact Hl
  isplitl [Hr]; · iexact Hr
  iexact Hv

/-- EXIT of region 1. -/
theorem exit1 (a : (pcfg1 (F := F)).Adm) (c : Dev nD) :
    ((dat1 V o1 a c).arrays ((dat1 V o1 a c).arrAt · (cfg1 a).N) : sProp 𝕄)
      ⊢ iprop((((c : Thread nD τ).loc main_arg0) ↦{fullShare} V c main_arg0) ∗ (((c : Thread nD τ).loc main_call0_v1) ↦{fullShare} V c main_call0_v1)
          ∗ (((c : Thread nD τ).loc main_call0_v0) ↦{fullShare} V c main_call0_v0)
          ∗ (((c : Thread nD τ).loc main_v0) ↦{fullShare} (dat1 V o1 a c).arrAt 4 (cfg1 a).N)) := by
  rw [arrays1_eq]
  have e0 : (dat1 V o1 a c).arrAt 0 (cfg1 a).N = V c main_arg0 := ((dat1 V o1 a c).arrAt_in 0 rfl _).trans (A_eq1 V o1 a c 0)
  have e1 : (dat1 V o1 a c).arrAt 1 (cfg1 a).N = V c main_call0_v1 := ((dat1 V o1 a c).arrAt_in 1 rfl _).trans (A_eq1 V o1 a c 1)
  have e2 : (dat1 V o1 a c).arrAt 2 (cfg1 a).N = V c main_call0_v0 := ((dat1 V o1 a c).arrAt_in 2 rfl _).trans (A_eq1 V o1 a c 2)
  have e3 : (dat1 V o1 a c).arrAt 3 (cfg1 a).N = V c main_call0_v0 := ((dat1 V o1 a c).arrAt_in 3 rfl _).trans (A_eq1 V o1 a c 3)
  simp only [e0, e1, e2, e3]
  iintro ⟨Hx, Hw, Hl, Hr, Hv⟩
  isplitl [Hx]; · iexact Hx
  isplitl [Hw]; · iexact Hw
  isplitl [Hl Hr]
  · iapply (pointsTo_share (PosShare.mem_left_op_right fullShare)).2
    isplitl [Hl]; · iexact Hl
    iexact Hr
  iexact Hv

end Shared

end Cert.KernelIdeal.Run

end
-- ==== Proof.RunKI4.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.KernelIdeal.Launch
import proofs.«136559_g38783554683117_cont_8to1_b_1222_28_alg».proof.Proof.Gen.KernelIdeal.Skeleton
import proofs.«136559_g38783554683117_cont_8to1_b_1222_28_alg».proof.Proof.Gen.KernelIdeal.Regions
import proofs.«136559_g38783554683117_cont_8to1_b_1222_28_alg».proof.Proof.RunKI0
import proofs.«136559_g38783554683117_cont_8to1_b_1222_28_alg».proof.Proof.RunKI1
import proofs.«136559_g38783554683117_cont_8to1_b_1222_28_alg».proof.Proof.RunKI2
import proofs.«136559_g38783554683117_cont_8to1_b_1222_28_alg».proof.Proof.RunKI3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Launch

variable (m : (ℓ : Loc nD τ sig) → Buf (Elt F) ℓ) (ρ : Dev nD → PrngReg)
variable (o0 : Vec F S1x1024x2048 .f32 → Vec F S1x1024x2048 .f32 → Vec F S2048x1024 .bf16)
variable (o1 : Vec F S1024x2048 .f32 → Vec F S2048x2048 .bf16 → Vec F S1x1x2048 .f32 → Vec F S1x1x2048 .f32 → Vec F S1024x2048 .f32)
variable (s1 : Vec F S1024x2048 .f32 → Vec F S1024x2048 .bf16)

/-- After region 0 the table still holds the contents read off device 0. -/
theorem tbl0_eq2 (hO : Ok m) (c : Dev nD) : (fun k => E2 m o0 hO c (pre0.ref k)) = tbl0 m := by
  obtain rfl : c = 0 := Subsingleton.elim _ _
  funext k
  obtain rfl : k = 0 := Subsingleton.elim _ _
  exact (W2_of_ne m o0 hO 0 main_arg3 (by decide)).trans (Gen.V1_of m 0 main_arg3 (by decide))
/-- And after region 1. -/
theorem tbl1_eq3 (hO : Ok m) (c : Dev nD) : (fun k => (W3 m o0 o1 hO c (Proc.devRef .tc (pre1.ref k)) : Buf (Elt F) ((c : Thread nD τ).loc (pre1.ref k)))) = tbl1 m := by
  obtain rfl : c = 0 := Subsingleton.elim _ _
  funext k
  obtain rfl : k = 0 := Subsingleton.elim _ _
  exact (W3_of_ne m o0 o1 hO 0 main_arg3 (by decide)).trans ((W2_of_ne m o0 hO 0 main_arg3 (by decide)).trans (Gen.V1_of m 0 main_arg3 (by decide)))

/-- Region 0's entry: the unscoped buffers after the reshape are its arrays, the id table and the rest. -/
theorem hentry0 (hO : Ok m) (c : Dev nD) :
    (StableHlo.held (c : Thread nD τ) (Pipeline.ucRefs τ sig) (Gen.V1 m c) : sProp 𝕄)
      ⊢ iprop((dat0 (E1 m) o0 (adm m hO 0) c).arrays ((dat0 (E1 m) o0 (adm m hO 0) c).arrAt · 0)
          ∗ Pipeline.prefHeld pre0 c (fun _ => fullShare) (tbl0 m) ∗ Pipeline.unscopedRestP pre0 spec0 c (E1 m c)) := by
  rw [← Pipeline.unscopedBufs_held c (Gen.V1 m c), bufs_split0, tbl0_eq]
  exact sep_mono (entry0 (E1 m) o0 (adm m hO 0) c) .rfl

/-- Region 0's exit: its arrays as left, the id table and the rest are the unscoped buffers at the next contents. -/
theorem hexit0 (hO : Ok m) (c : Dev nD) :
    iprop((dat0 (E1 m) o0 (adm m hO 0) c).arrays ((dat0 (E1 m) o0 (adm m hO 0) c).arrAt · (cfg0 (adm m hO 0)).N)
          ∗ Pipeline.prefHeld pre0 c (fun _ => fullShare) (tbl0 m) ∗ Pipeline.unscopedRestP pre0 spec0 c (E1 m c))
      ⊢ (StableHlo.held (c : Thread nD τ) (Pipeline.ucRefs τ sig) (W2 m o0 hO c) : sProp 𝕄) := by
  rw [← Pipeline.unscopedBufs_held c (W2 m o0 hO c), bufs_split0, arrBufs0_eq, tbl0_eq2,
    restP_congr pre0 spec0 c (E1 m c) (fun b => W2 m o0 hO c (Proc.devRef .tc b))
      (fun b hb => W2_of_ne m o0 hO c b (fun e => hb (by subst e; decide))),
    W2_of_ne m o0 hO c main_arg1 (by decide), W2_self]
  exact sep_mono (exit0 (E1 m) o0 (adm m hO 0) c) .rfl

theorem hentry1 (hO : Ok m) (c : Dev nD) :
    (StableHlo.held (c : Thread nD τ) (Pipeline.ucRefs τ sig) (W2 m o0 hO c) : sProp 𝕄)
      ⊢ iprop((dat1 (E2 m o0 hO) o1 (adm m hO 1) c).arrays ((dat1 (E2 m o0 hO) o1 (adm m hO 1) c).arrAt · 0)
          ∗ Pipeline.prefHeld pre1 c (fun _ => fullShare) (tbl1 m) ∗ Pipeline.unscopedRestP pre1 spec1 c (E2 m o0 hO c)) := by
  rw [← Pipeline.unscopedBufs_held c (W2 m o0 hO c), bufs_split1, tbl1_eq]
  exact sep_mono (entry1 (E2 m o0 hO) o1 (adm m hO 1) c) .rfl

theorem hexit1 (hO : Ok m) (c : Dev nD) :
    iprop((dat1 (E2 m o0 hO) o1 (adm m hO 1) c).arrays ((dat1 (E2 m o0 hO) o1 (adm m hO 1) c).arrAt · (cfg1 (adm m hO 1)).N)
          ∗ Pipeline.prefHeld pre1 c (fun _ => fullShare) (tbl1 m) ∗ Pipeline.unscopedRestP pre1 spec1 c (E2 m o0 hO c))
      ⊢ (StableHlo.held (c : Thread nD τ) (Pipeline.ucRefs τ sig) (W3 m o0 o1 hO c) : sProp 𝕄) := by
  rw [← Pipeline.unscopedBufs_held c (W3 m o0 o1 hO c), bufs_split1, arrBufs1_eq, tbl1_eq3,
    restP_congr pre1 spec1 c (E2 m o0 hO c) (fun b => W3 m o0 o1 hO c (Proc.devRef .tc b))
      (fun b hb => W3_of_ne m o0 o1 hO c b (fun e => hb (by subst e; decide))),
    W3_of_ne m o0 o1 hO c main_arg0 (by decide), W3_of_ne m o0 o1 hO c main_call0_v1 (by decide),
    W3_of_ne m o0 o1 hO c main_call0_v0 (by decide), W3_self]
  exact sep_mono (exit1 (E2 m o0 hO) o1 (adm m hO 1) c) .rfl

/-- The last thread state without the `owes`. -/
abbrev Tₙ (hO : Ok m) (c : Dev nD) : sProp 𝕄 :=
  iprop(StableHlo.held (c : Thread nD τ) (Pipeline.ucRefs τ sig) (W3 m o0 o1 hO c) ∗ ∃ r, prngReg c r)

set_option backward.isDefEq.respectTransparency.types false in
/-- Region 0 as a segment: entered from the buffers after the reshape, left at the buffers with the combined weight
    written. The id table enters the invariant whole and comes back; the weight array's share is split between its
    two windows at entry and joined at exit. -/
def reg0 (h0 : Sound0 (F := F) o0) (hO : Ok m) : Pipeline.RegionSeg (pcfgs (F := F)) (adm m hO) (pdats m o0 o1 hO) () defs₀ 𝒱₀ L lv 0 where
  win := winFacts₀0
  block_pos := block_pos0
  stage_whole := stage_whole0
  K := PEmpty
  osem k := k.elim
  ho := Pipeline.OwnSemFacts.none _
  hbody c := (body_obligation0 (E1 m) o0 h0 (adm m hO 0) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m o0 hO c) ∗ R c)
  X c := iprop(∃ r, prngReg c r)
  Y c := iprop((∃ r, prngReg c r) ∗ Pipeline.prefHeld pre0 c (fun _ => fullShare) (tbl0 m))
  Z c := Pipeline.unscopedRestP pre0 spec0 c (E1 m c)
  hentry c := by
    rw [Pipeline.ownSems0_none]
    iintro ⟨⟨Hub, Hp, HO⟩, -, -⟩
    ihave H := (hentry0 m o0 hO c) $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o0 o1 hO 0 c).Φ 0 = iprop(Pipeline.ΦA spec0 c ∗ Pipeline.prefHeld pre0 c (fun _ => fullShare) (tbl0 m)) from rfl]; unfold Pipeline.ΦA
    iintro ⟨Hp, HT, Hr⟩
    isplitr [HT]
    · isplitl [Hr]; · iexact Hr
      iexact Hp
    iexact HT
  hout c := by
    rw [Pipeline.ownSems0_none, show (pdats m o0 o1 hO 0 c).Φ (Fin.last _) = iprop(Pipeline.ΦA spec0 c ∗ Pipeline.prefHeld pre0 c (fun _ => fullShare) (tbl0 m)) from rfl]; unfold Pipeline.ΦA
    iintro ⟨⟨Hr, Hp⟩, HT⟩
    isplitl [Hp HT]
    · isplitl [Hp]; · iexact Hp
      iexact HT
    isplitr; · iempintro
    iexact Hr
  hexit c := by
    iintro ⟨Ha, HO, ⟨Hp, HT⟩, Hrest⟩
    imodintro
    isplitl [Ha HT Hrest]
    · iapply (hexit0 m o0 hO c)
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

set_option backward.isDefEq.respectTransparency.types false in
/-- Region 1 as a segment: entered from the buffers region 0 left, left at the buffers with the result written. -/
def reg1 (h1 : Sound1 (F := F) o1 s1) (hO : Ok m) : Pipeline.RegionSeg (pcfgs (F := F)) (adm m hO) (pdats m o0 o1 hO) () defs₀ 𝒱₀ L lv 1 where
  win := winFacts₀1
  block_pos := block_pos1
  stage_whole := stage_whole1
  K := PEmpty
  osem k := k.elim
  ho := Pipeline.OwnSemFacts.none _
  hbody c := (body_obligation1 (E2 m o0 hO) o1 s1 h1 (adm m hO 1) c).loose
  hwaits := Pipeline.hwaits_of_owed_zero _ _ _ _ L lv 1 fun _ _ => rfl
  pre c := iprop(StableHlo.held (c : Thread nD τ) (Pipeline.ucRefs τ sig) (W2 m o0 hO c) ∗ R c)
  post c := iprop(Tₙ m o0 o1 hO c ∗ ∃ W, owes (c : Thread nD τ) (0 : CellTallies nD τ sig Unit) W)
  X c := iprop(∃ r, prngReg c r)
  Y c := iprop((∃ r, prngReg c r) ∗ Pipeline.prefHeld pre1 c (fun _ => fullShare) (tbl1 m))
  Z c := Pipeline.unscopedRestP pre1 spec1 c (E2 m o0 hO c)
  hentry c := by
    rw [Pipeline.ownSems0_none]
    iintro ⟨⟨Hub, Hp, HO⟩, -, -⟩
    ihave H := (hentry1 m o0 o1 hO c) $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o0 o1 hO 1 c).Φ 0 = iprop(Pipeline.ΦA spec1 c ∗ Pipeline.prefHeld pre1 c (fun _ => fullShare) (tbl1 m)) from rfl]; unfold Pipeline.ΦA
    iintro ⟨Hp, HT, Hr⟩
    isplitr [HT]
    · isplitl [Hr]; · iexact Hr
      iexact Hp
    iexact HT
  hout c := by
    rw [Pipeline.ownSems0_none, show (pdats m o0 o1 hO 1 c).Φ (Fin.last _) = iprop(Pipeline.ΦA spec1 c ∗ Pipeline.prefHeld pre1 c (fun _ => fullShare) (tbl1 m)) from rfl]; unfold Pipeline.ΦA
    iintro ⟨⟨Hr, Hp⟩, HT⟩
    isplitl [Hp HT]
    · isplitl [Hp]; · iexact Hp
      iexact HT
    isplitr; · iempintro
    iexact Hr
  hexit c := by
    iintro ⟨Ha, HO, ⟨Hp, HT⟩, Hrest⟩
    imodintro
    isplitl [Ha HT Hrest Hp]
    · isplitl [Ha HT Hrest]
      · iapply (hexit1 m o0 o1 hO c)
        isplitl [Ha]; · iexact Ha
        isplitl [HT]; · iexact HT
        iexact Hrest
      iexact Hp
    unfold Pipeline.Dat.owesAt Pipeline.owesWithin
    icases HO with ⟨%W, -, HO⟩; iexists W; iexact HO

/-- The reshape as a host segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R

/-- @main's three segments in order. -/
abbrev segs (h0 : Sound0 (F := F) o0) (h1 : Sound1 (F := F) o1 s1) (hO : Ok m) :
    List (Pipeline.Seg (pcfgs (F := F)) (adm m hO) (pdats m o0 o1 hO) () defs₀ 𝒱₀ L lv) :=
  [ .host (hseg0 m), .region (reg0 m o0 o1 h0 hO), .region (reg1 m o0 o1 s1 h1 hO) ]

theorem main_run (h0 : Sound0 (F := F) o0) (h1 : Sound1 (F := F) o1 s1) (hO : Ok m) (c : Dev nD) :
    main (F := F) c = Pipeline.Seg.run (segs m o0 o1 s1 h0 h1 hO) := (main_chain c).trans (by chain_rfl)

set_option backward.isDefEq.respectTransparency.types false in
/-- THE RUN. Under the table's side conditions and given the two bodies' runs, every weakly fair execution of
    the program terminates, nothing faulting; the result array ends at what region 1's write-backs leave and every
    argument array ends as launched. -/
theorem run (h0 : Sound0 (F := F) o0) (h1 : Sound1 (F := F) o1 s1) (hO : Ok m) :
    θ_run defs (onTc (τ := τ) (main (F := F))) ⟨m, fun _ => 0, ρ⟩ (fun r => ∀ c : Dev nD,
      r.2.mem ((c.tc : Thread nD τ).loc main_v0) = X3 m o0 o1 hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m hO) (pdats m o0 o1 hO) () (cellOf_inj (adm m hO)) emb₁ defs₀ 𝒱₀ L lv m ρ main
    (segs m o0 o1 s1 h0 h1 hO)
    (fun c Q => by rw [main_run m o0 o1 s1 h0 h1 hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m o0 o1 hO)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m o0 o1 hO c b)
    (hfin := fun c s' => by
      iintro ⟨⟨Hh, -⟩, HSI⟩
      unfold StableHlo.held
      imodintro
      iapply (pointsTo_read_all (Pipeline.ucRefs τ sig) (fun b => (((c : Thread nD τ)).1, b)) (W3 m o0 o1 hO c) s')
      isplitl [Hh] <;> iassumption)
    (hQ := fun s h c =>
      ⟨(h c _ (mem_uc main_v0 (by decide))).trans (W3_self m o0 o1 hO c),
       (h c _ (mem_uc main_arg0 (by decide))).trans ((W3_of_ne m o0 o1 hO c main_arg0 (by decide)).trans ((W2_of_ne m o0 hO c main_arg0 (by decide)).trans (Gen.V1_of m c main_arg0 (by decide)))),
       (h c _ (mem_uc main_arg1 (by decide))).trans ((W3_of_ne m o0 o1 hO c main_arg1 (by decide)).trans ((W2_of_ne m o0 hO c main_arg1 (by decide)).trans (Gen.V1_of m c main_arg1 (by decide)))),
       (h c _ (mem_uc main_arg2 (by decide))).trans ((W3_of_ne m o0 o1 hO c main_arg2 (by decide)).trans ((W2_of_ne m o0 hO c main_arg2 (by decide)).trans (Gen.V1_of m c main_arg2 (by decide)))),
       (h c _ (mem_uc main_arg3 (by decide))).trans ((W3_of_ne m o0 o1 hO c main_arg3 (by decide)).trans ((W2_of_ne m o0 hO c main_arg3 (by decide)).trans (Gen.V1_of m c main_arg3 (by decide))))⟩)

end Launch

end Cert.KernelIdeal.Run

end
-- ==== Proof.RunK3.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.Kernel.Launch
import proofs.«136559_g38783554683117_cont_8to1_b_1222_28_alg».proof.Proof.Gen.Kernel.Skeleton
import proofs.«136559_g38783554683117_cont_8to1_b_1222_28_alg».proof.Proof.Gen.Kernel.Regions
import proofs.«136559_g38783554683117_cont_8to1_b_1222_28_alg».proof.Proof.RunK0
import proofs.«136559_g38783554683117_cont_8to1_b_1222_28_alg».proof.Proof.RunK1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Shared

variable (V : (c : Dev nD) → (b : Ref sig .tc) → Buf (Elt F) ((c : Thread nD τ).loc b))
variable (o0 : Vec F S1x1024x2048 .f32 → Vec F S1x1024x2048 .f32 → Vec F S2048x1024 .bf16)
variable (o1 : Vec F S1024x2048 .f32 → Vec F S2048x2048 .bf16 → Vec F S1x1x2048 .f32 → Vec F S1x1x2048 .f32 → Vec F S1024x2048 .f32)

/-- Region 0's arrays, window by window: the weight array at the two halves of its share, the output whole. -/
theorem arrays0_eq (a : (pcfg0 (F := F)).Adm) (c : Dev nD)
    (F0 : (w : Fin (cfg0 a).W) → Buf (Elt F) (((cfg0 a).win w).arr.view.loc (c : Thread nD τ))) :
    ((dat0 V o0 a c).arrays F0 : sProp 𝕄)
      = iprop((((c : Thread nD τ).loc main_arg1) ↦{fullShare.left} F0 0) ∗ (((c : Thread nD τ).loc main_arg1) ↦{fullShare.right} F0 1)
          ∗ (((c : Thread nD τ).loc main_call0_v1) ↦{fullShare} F0 2)) := by
  unfold Dat.arrays
  rw [bigSep_W0]
  simp only [Dat.share, View.set_whole, Bool.false_eq_true, if_false, if_true]
  rfl

/-- Region 1's arrays, window by window: the reshaped bias at the two halves of its share, the others whole. -/
theorem arrays1_eq (a : (pcfg1 (F := F)).Adm) (c : Dev nD)
    (F1 : (w : Fin (cfg1 a).W) → Buf (Elt F) (((cfg1 a).win w).arr.view.loc (c : Thread nD τ))) :
    ((dat1 V o1 a c).arrays F1 : sProp 𝕄)
      = iprop((((c : Thread nD τ).loc main_arg0) ↦{fullShare} F1 0) ∗ (((c : Thread nD τ).loc main_call0_v1) ↦{fullShare} F1 1)
          ∗ (((c : Thread nD τ).loc main_call0_v0) ↦{fullShare.left} F1 2) ∗ (((c : Thread nD τ).loc main_call0_v0) ↦{fullShare.right} F1 3)
          ∗ (((c : Thread nD τ).loc main_v0) ↦{fullShare} F1 4)) := by
  unfold Dat.arrays
  rw [bigSep_W1]
  simp only [Dat.share, View.set_whole, Bool.false_eq_true, if_false, if_true]
  rfl

theorem image0 : (Finset.univ.image (Pipeline.arrRef spec0) : Finset (Ref sig .tc)) = insert main_arg1 {main_call0_v1} := by decide
theorem image1 : (Finset.univ.image (Pipeline.arrRef spec1) : Finset (Ref sig .tc))
    = insert main_arg0 (insert main_call0_v1 (insert main_call0_v0 {main_v0})) := by decide

/-- The distinct buffers behind region 0's arrays. -/
theorem arrBufs0_eq (c : Dev nD) (U : (b : Ref sig .tc) → Buf (Elt F) ((c : Thread nD τ).loc b)) :
    (Pipeline.arrBufs spec0 c U : sProp 𝕄)
      = iprop((((c : Thread nD τ).loc main_arg1) ↦{fullShare} U main_arg1) ∗ (((c : Thread nD τ).loc main_call0_v1) ↦{fullShare} U main_call0_v1)) := by
  unfold Pipeline.arrBufs
  rw [image0, bigSep_insert (by decide), bigSep_singleton]
  rfl

/-- The distinct buffers behind region 1's arrays. -/
theorem arrBufs1_eq (c : Dev nD) (U : (b : Ref sig .tc) → Buf (Elt F) ((c : Thread nD τ).loc b)) :
    (Pipeline.arrBufs spec1 c U : sProp 𝕄)
      = iprop((((c : Thread nD τ).loc main_arg0) ↦{fullShare} U main_arg0) ∗ (((c : Thread nD τ).loc main_call0_v1) ↦{fullShare} U main_call0_v1)
          ∗ (((c : Thread nD τ).loc main_call0_v0) ↦{fullShare} U main_call0_v0) ∗ (((c : Thread nD τ).loc main_v0) ↦{fullShare} U main_v0)) := by
  unfold Pipeline.arrBufs
  rw [image1, bigSep_insert (by decide), bigSep_insert (by decide), bigSep_insert (by decide), bigSep_singleton]
  rfl

/-- A core's unscoped buffers: the buffers behind a pipeline's arrays, the id table, and the rest. -/
theorem bufs_split0 (c : Dev nD) (U : (b : Ref sig .tc) → Buf (Elt F) ((c : Thread nD τ).loc b)) :
    (unscopedBufs c U : sProp 𝕄) = iprop(Pipeline.arrBufs spec0 c U
      ∗ Pipeline.prefHeld pre0 c (fun _ => fullShare) (fun k => U (pre0.ref k)) ∗ Pipeline.unscopedRestP pre0 spec0 c U) := by
  rw [← Pipeline.unscopedRest_split preFacts0 c U]
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl
theorem bufs_split1 (c : Dev nD) (U : (b : Ref sig .tc) → Buf (Elt F) ((c : Thread nD τ).loc b)) :
    (unscopedBufs c U : sProp 𝕄) = iprop(Pipeline.arrBufs spec1 c U
      ∗ Pipeline.prefHeld pre1 c (fun _ => fullShare) (fun k => U (pre1.ref k)) ∗ Pipeline.unscopedRestP pre1 spec1 c U) := by
  rw [← Pipeline.unscopedRest_split preFacts1 c U]
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The rest depends only on the contents off the arrays. -/
theorem restP_congr {gr W : Nat} (pre : Pipeline.Prefetch sig) (win : Fin W → Pipeline.WinSpec sig gr) (c : Dev nD)
    (U U' : (b : Ref sig .tc) → Buf (Elt F) ((c : Thread nD τ).loc b))
    (h : ∀ b, b ∉ Finset.univ.image (Pipeline.arrRef win) → U' b = U b) :
    (Pipeline.unscopedRestP pre win c U' : sProp 𝕄) = Pipeline.unscopedRestP pre win c U := by
  unfold Pipeline.unscopedRestP
  exact bigSep_congr fun b hb => by rw [h b (Finset.mem_sdiff.mp (Finset.mem_sdiff.mp hb).1).2]

/-- ENTRY of region 0: the weight array's full share split between its two windows. -/
theorem entry0 (a : (pcfg0 (F := F)).Adm) (c : Dev nD) :
    (Pipeline.arrBufs spec0 c (V c) : sProp 𝕄) ⊢ (dat0 V o0 a c).arrays ((dat0 V o0 a c).arrAt · 0) := by
  rw [arrays0_eq, arrBufs0_eq]
  iintro ⟨Hw, Hv⟩
  ihave Hs := (pointsTo_share (PosShare.mem_left_op_right fullShare)).1 $$ Hw
  icases Hs with ⟨Hl, Hr⟩
  isplitl [Hl]; · iexact Hl
  isplitl [Hr]; · iexact Hr
  iexact Hv

/-- EXIT of region 0: the two halves joined; the output array at what the write-backs leave. -/
theorem exit0 (a : (pcfg0 (F := F)).Adm) (c : Dev nD) :
    ((dat0 V o0 a c).arrays ((dat0 V o0 a c).arrAt · (cfg0 a).N) : sProp 𝕄)
      ⊢ iprop((((c : Thread nD τ).loc main_arg1) ↦{fullShare} V c main_arg1)
          ∗ (((c : Thread nD τ).loc main_call0_v1) ↦{fullShare} (dat0 V o0 a c).arrAt 2 (cfg0 a).N)) := by
  rw [arrays0_eq]
  have e0 : (dat0 V o0 a c).arrAt 0 (cfg0 a).N = V c main_arg1 := ((dat0 V o0 a c).arrAt_in 0 rfl _).trans (A_eq0 V o0 a c 0)
  have e1 : (dat0 V o0 a c).arrAt 1 (cfg0 a).N = V c main_arg1 := ((dat0 V o0 a c).arrAt_in 1 rfl _).trans (A_eq0 V o0 a c 1)
  simp only [e0, e1]
  iintro ⟨Hl, Hr, Hv⟩
  isplitl [Hl Hr]
  · iapply (pointsTo_share (PosShare.mem_left_op_right fullShare)).2
    isplitl [Hl]; · iexact Hl
    iexact Hr
  iexact Hv

/-- ENTRY of region 1: the reshaped bias's full share split between its two windows. -/
theorem entry1 (a : (pcfg1 (F := F)).Adm) (c : Dev nD) :
    (Pipeline.arrBufs spec1 c (V c) : sProp 𝕄) ⊢ (dat1 V o1 a c).arrays ((dat1 V o1 a c).arrAt · 0) := by
  rw [arrays1_eq, arrBufs1_eq]
  iintro ⟨Hx, Hw, Hb, Hv⟩
  ihave Hs := (pointsTo_share (PosShare.mem_left_op_right fullShare)).1 $$ Hb
  icases Hs with ⟨Hl, Hr⟩
  isplitl [Hx]; · iexact Hx
  isplitl [Hw]; · iexact Hw
  isplitl [Hl]; · iexact Hl
  isplitl [Hr]; · iexact Hr
  iexact Hv

/-- EXIT of region 1. -/
theorem exit1 (a : (pcfg1 (F := F)).Adm) (c : Dev nD) :
    ((dat1 V o1 a c).arrays ((dat1 V o1 a c).arrAt · (cfg1 a).N) : sProp 𝕄)
      ⊢ iprop((((c : Thread nD τ).loc main_arg0) ↦{fullShare} V c main_arg0) ∗ (((c : Thread nD τ).loc main_call0_v1) ↦{fullShare} V c main_call0_v1)
          ∗ (((c : Thread nD τ).loc main_call0_v0) ↦{fullShare} V c main_call0_v0)
          ∗ (((c : Thread nD τ).loc main_v0) ↦{fullShare} (dat1 V o1 a c).arrAt 4 (cfg1 a).N)) := by
  rw [arrays1_eq]
  have e0 : (dat1 V o1 a c).arrAt 0 (cfg1 a).N = V c main_arg0 := ((dat1 V o1 a c).arrAt_in 0 rfl _).trans (A_eq1 V o1 a c 0)
  have e1 : (dat1 V o1 a c).arrAt 1 (cfg1 a).N = V c main_call0_v1 := ((dat1 V o1 a c).arrAt_in 1 rfl _).trans (A_eq1 V o1 a c 1)
  have e2 : (dat1 V o1 a c).arrAt 2 (cfg1 a).N = V c main_call0_v0 := ((dat1 V o1 a c).arrAt_in 2 rfl _).trans (A_eq1 V o1 a c 2)
  have e3 : (dat1 V o1 a c).arrAt 3 (cfg1 a).N = V c main_call0_v0 := ((dat1 V o1 a c).arrAt_in 3 rfl _).trans (A_eq1 V o1 a c 3)
  simp only [e0, e1, e2, e3]
  iintro ⟨Hx, Hw, Hl, Hr, Hv⟩
  isplitl [Hx]; · iexact Hx
  isplitl [Hw]; · iexact Hw
  isplitl [Hl Hr]
  · iapply (pointsTo_share (PosShare.mem_left_op_right fullShare)).2
    isplitl [Hl]; · iexact Hl
    iexact Hr
  iexact Hv

end Shared

end Cert.Kernel.Run

end
-- ==== Proof.RunK4.lean ====
/-
  The kernel program's run through its two pipelined regions.

  The program reshapes the bias, then runs two pipelined kernels. The first walks the two column halves of the
  combined weight: at point j it is handed rows [1024 j, 1024 j + 1024) of expert e0's and of expert e1's weight
  matrix — the block index along the expert axis is the id word itself, read from the two-word table — and
  writes columns [1024 j, 1024 j + 1024) of the transposed sum. The second walks sixteen row blocks of x with
  the whole combined weight and the two experts' bias rows resident, and writes the same row block of the
  result. One array stands behind two input windows in each region (the weights; the reshaped bias), so each
  of the two windows holds half of that array's read share.

  Everything is stated for an arbitrary float instance and for arbitrary result functions of the two bodies
  (what each body stores as a function of what it loads), given each body's run as a hypothesis.
-/
import proofs.«136559_g38783554683117_cont_8to1_b_1222_28_alg».proof.Proof.Gen.Kernel.Launch
import proofs.«136559_g38783554683117_cont_8to1_b_1222_28_alg».proof.Proof.Gen.Kernel.Skeleton
import proofs.«136559_g38783554683117_cont_8to1_b_1222_28_alg».proof.Proof.Gen.Kernel.Regions
import proofs.«136559_g38783554683117_cont_8to1_b_1222_28_alg».proof.Proof.RunK0
import proofs.«136559_g38783554683117_cont_8to1_b_1222_28_alg».proof.Proof.RunK1
import proofs.«136559_g38783554683117_cont_8to1_b_1222_28_alg».proof.Proof.RunK2
import proofs.«136559_g38783554683117_cont_8to1_b_1222_28_alg».proof.Proof.RunK3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Launch

variable (m : (ℓ : Loc nD τ sig) → Buf (Elt F) ℓ) (ρ : Dev nD → PrngReg)
variable (o0 : Vec F S1x1024x2048 .f32 → Vec F S1x1024x2048 .f32 → Vec F S2048x1024 .bf16)
variable (o1 : Vec F S1024x2048 .f32 → Vec F S2048x2048 .bf16 → Vec F S1x1x2048 .f32 → Vec F S1x1x2048 .f32 → Vec F S1024x2048 .f32)
variable (s1 : Vec F S1024x2048 .f32 → Vec F S1024x2048 .bf16)

/-- After region 0 the table still holds the contents read off device 0. -/
theorem tbl0_eq2 (hO : Ok m) (c : Dev nD) : (fun k => E2 m o0 hO c (pre0.ref k)) = tbl0 m := by
  obtain rfl : c = 0 := Subsingleton.elim _ _
  funext k
  obtain rfl : k = 0 := Subsingleton.elim _ _
  exact (W2_of_ne m o0 hO 0 main_arg3 (by decide)).trans (Gen.V1_of m 0 main_arg3 (by decide))
/-- And after region 1. -/
theorem tbl1_eq3 (hO : Ok m) (c : Dev nD) : (fun k => (W3 m o0 o1 hO c (Proc.devRef .tc (pre1.ref k)) : Buf (Elt F) ((c : Thread nD τ).loc (pre1.ref k)))) = tbl1 m := by
  obtain rfl : c = 0 := Subsingleton.elim _ _
  funext k
  obtain rfl : k = 0 := Subsingleton.elim _ _
  exact (W3_of_ne m o0 o1 hO 0 main_arg3 (by decide)).trans ((W2_of_ne m o0 hO 0 main_arg3 (by decide)).trans (Gen.V1_of m 0 main_arg3 (by decide)))

/-- Region 0's entry: the unscoped buffers after the reshape are its arrays, the id table and the rest. -/
theorem hentry0 (hO : Ok m) (c : Dev nD) :
    (StableHlo.held (c : Thread nD τ) (Pipeline.ucRefs τ sig) (Gen.V1 m c) : sProp 𝕄)
      ⊢ iprop((dat0 (E1 m) o0 (adm m hO 0) c).arrays ((dat0 (E1 m) o0 (adm m hO 0) c).arrAt · 0)
          ∗ Pipeline.prefHeld pre0 c (fun _ => fullShare) (tbl0 m) ∗ Pipeline.unscopedRestP pre0 spec0 c (E1 m c)) := by
  rw [← Pipeline.unscopedBufs_held c (Gen.V1 m c), bufs_split0, tbl0_eq]
  exact sep_mono (entry0 (E1 m) o0 (adm m hO 0) c) .rfl

/-- Region 0's exit: its arrays as left, the id table and the rest are the unscoped buffers at the next contents. -/
theorem hexit0 (hO : Ok m) (c : Dev nD) :
    iprop((dat0 (E1 m) o0 (adm m hO 0) c).arrays ((dat0 (E1 m) o0 (adm m hO 0) c).arrAt · (cfg0 (adm m hO 0)).N)
          ∗ Pipeline.prefHeld pre0 c (fun _ => fullShare) (tbl0 m) ∗ Pipeline.unscopedRestP pre0 spec0 c (E1 m c))
      ⊢ (StableHlo.held (c : Thread nD τ) (Pipeline.ucRefs τ sig) (W2 m o0 hO c) : sProp 𝕄) := by
  rw [← Pipeline.unscopedBufs_held c (W2 m o0 hO c), bufs_split0, arrBufs0_eq, tbl0_eq2,
    restP_congr pre0 spec0 c (E1 m c) (fun b => W2 m o0 hO c (Proc.devRef .tc b))
      (fun b hb => W2_of_ne m o0 hO c b (fun e => hb (by subst e; decide))),
    W2_of_ne m o0 hO c main_arg1 (by decide), W2_self]
  exact sep_mono (exit0 (E1 m) o0 (adm m hO 0) c) .rfl

theorem hentry1 (hO : Ok m) (c : Dev nD) :
    (StableHlo.held (c : Thread nD τ) (Pipeline.ucRefs τ sig) (W2 m o0 hO c) : sProp 𝕄)
      ⊢ iprop((dat1 (E2 m o0 hO) o1 (adm m hO 1) c).arrays ((dat1 (E2 m o0 hO) o1 (adm m hO 1) c).arrAt · 0)
          ∗ Pipeline.prefHeld pre1 c (fun _ => fullShare) (tbl1 m) ∗ Pipeline.unscopedRestP pre1 spec1 c (E2 m o0 hO c)) := by
  rw [← Pipeline.unscopedBufs_held c (W2 m o0 hO c), bufs_split1, tbl1_eq]
  exact sep_mono (entry1 (E2 m o0 hO) o1 (adm m hO 1) c) .rfl

theorem hexit1 (hO : Ok m) (c : Dev nD) :
    iprop((dat1 (E2 m o0 hO) o1 (adm m hO 1) c).arrays ((dat1 (E2 m o0 hO) o1 (adm m hO 1) c).arrAt · (cfg1 (adm m hO 1)).N)
          ∗ Pipeline.prefHeld pre1 c (fun _ => fullShare) (tbl1 m) ∗ Pipeline.unscopedRestP pre1 spec1 c (E2 m o0 hO c))
      ⊢ (StableHlo.held (c : Thread nD τ) (Pipeline.ucRefs τ sig) (W3 m o0 o1 hO c) : sProp 𝕄) := by
  rw [← Pipeline.unscopedBufs_held c (W3 m o0 o1 hO c), bufs_split1, arrBufs1_eq, tbl1_eq3,
    restP_congr pre1 spec1 c (E2 m o0 hO c) (fun b => W3 m o0 o1 hO c (Proc.devRef .tc b))
      (fun b hb => W3_of_ne m o0 o1 hO c b (fun e => hb (by subst e; decide))),
    W3_of_ne m o0 o1 hO c main_arg0 (by decide), W3_of_ne m o0 o1 hO c main_call0_v1 (by decide),
    W3_of_ne m o0 o1 hO c main_call0_v0 (by decide), W3_self]
  exact sep_mono (exit1 (E2 m o0 hO) o1 (adm m hO 1) c) .rfl

/-- The last thread state without the `owes`. -/
abbrev Tₙ (hO : Ok m) (c : Dev nD) : sProp 𝕄 :=
  iprop(StableHlo.held (c : Thread nD τ) (Pipeline.ucRefs τ sig) (W3 m o0 o1 hO c) ∗ ∃ r, prngReg c r)

set_option backward.isDefEq.respectTransparency.types false in
/-- Region 0 as a segment: entered from the buffers after the reshape, left at the buffers with the combined weight
    written. The id table enters the invariant whole and comes back; the weight array's share is split between its
    two windows at entry and joined at exit. -/
def reg0 (h0 : Sound0 (F := F) o0) (hO : Ok m) : Pipeline.RegionSeg (pcfgs (F := F)) (adm m hO) (pdats m o0 o1 hO) () defs₀ 𝒱₀ L lv 0 where
  win := winFacts₀0
  block_pos := block_pos0
  stage_whole := stage_whole0
  K := PEmpty
  osem k := k.elim
  ho := Pipeline.OwnSemFacts.none _
  hbody c := (body_obligation0 (E1 m) o0 h0 (adm m hO 0) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m o0 hO c) ∗ R c)
  X c := iprop(∃ r, prngReg c r)
  Y c := iprop((∃ r, prngReg c r) ∗ Pipeline.prefHeld pre0 c (fun _ => fullShare) (tbl0 m))
  Z c := Pipeline.unscopedRestP pre0 spec0 c (E1 m c)
  hentry c := by
    rw [Pipeline.ownSems0_none]
    iintro ⟨⟨Hub, Hp, HO⟩, -, -⟩
    ihave H := (hentry0 m o0 hO c) $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o0 o1 hO 0 c).Φ 0 = iprop(Pipeline.ΦA spec0 c ∗ Pipeline.prefHeld pre0 c (fun _ => fullShare) (tbl0 m)) from rfl]; unfold Pipeline.ΦA
    iintro ⟨Hp, HT, Hr⟩
    isplitr [HT]
    · isplitl [Hr]; · iexact Hr
      iexact Hp
    iexact HT
  hout c := by
    rw [Pipeline.ownSems0_none, show (pdats m o0 o1 hO 0 c).Φ (Fin.last _) = iprop(Pipeline.ΦA spec0 c ∗ Pipeline.prefHeld pre0 c (fun _ => fullShare) (tbl0 m)) from rfl]; unfold Pipeline.ΦA
    iintro ⟨⟨Hr, Hp⟩, HT⟩
    isplitl [Hp HT]
    · isplitl [Hp]; · iexact Hp
      iexact HT
    isplitr; · iempintro
    iexact Hr
  hexit c := by
    iintro ⟨Ha, HO, ⟨Hp, HT⟩, Hrest⟩
    imodintro
    isplitl [Ha HT Hrest]
    · iapply (hexit0 m o0 hO c)
      isplitl [Ha]; · iexact Ha
      isplitl [HT]; · iexact HT
      iexact Hrest
    isplitl [Hp]; · iexact Hp
    unfold Pipeline.Dat.owesAt Pipeline.owesWithin
    icases HO with ⟨%W, -, HO⟩; iexists W; iexact HO

set_option backward.isDefEq.respectTransparency.types false in
/-- Region 1 as a segment: entered from the buffers region 0 left, left at the buffers with the result written. -/
def reg1 (h1 : Sound1 (F := F) o1 s1) (hO : Ok m) : Pipeline.RegionSeg (pcfgs (F := F)) (adm m hO) (pdats m o0 o1 hO) () defs₀ 𝒱₀ L lv 1 where
  win := winFacts₀1
  block_pos := block_pos1
  stage_whole := stage_whole1
  K := PEmpty
  osem k := k.elim
  ho := Pipeline.OwnSemFacts.none _
  hbody c := (body_obligation1 (E2 m o0 hO) o1 s1 h1 (adm m hO 1) c).loose
  hwaits := Pipeline.hwaits_of_owed_zero _ _ _ _ L lv 1 fun _ _ => rfl
  pre c := iprop(StableHlo.held (c : Thread nD τ) (Pipeline.ucRefs τ sig) (W2 m o0 hO c) ∗ R c)
  post c := iprop(Tₙ m o0 o1 hO c ∗ ∃ W, owes (c : Thread nD τ) (0 : CellTallies nD τ sig Unit) W)
  X c := iprop(∃ r, prngReg c r)
  Y c := iprop((∃ r, prngReg c r) ∗ Pipeline.prefHeld pre1 c (fun _ => fullShare) (tbl1 m))
  Z c := Pipeline.unscopedRestP pre1 spec1 c (E2 m o0 hO c)
  hentry c := by
    rw [Pipeline.ownSems0_none]
    iintro ⟨⟨Hub, Hp, HO⟩, -, -⟩
    ihave H := (hentry1 m o0 o1 hO c) $$ Hub
    icases H with ⟨Ha, HT, Hrest⟩
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m o0 o1 hO 1 c).Φ 0 = iprop(Pipeline.ΦA spec1 c ∗ Pipeline.prefHeld pre1 c (fun _ => fullShare) (tbl1 m)) from rfl]; unfold Pipeline.ΦA
    iintro ⟨Hp, HT, Hr⟩
    isplitr [HT]
    · isplitl [Hr]; · iexact Hr
      iexact Hp
    iexact HT
  hout c := by
    rw [Pipeline.ownSems0_none, show (pdats m o0 o1 hO 1 c).Φ (Fin.last _) = iprop(Pipeline.ΦA spec1 c ∗ Pipeline.prefHeld pre1 c (fun _ => fullShare) (tbl1 m)) from rfl]; unfold Pipeline.ΦA
    iintro ⟨⟨Hr, Hp⟩, HT⟩
    isplitl [Hp HT]
    · isplitl [Hp]; · iexact Hp
      iexact HT
    isplitr; · iempintro
    iexact Hr
  hexit c := by
    iintro ⟨Ha, HO, ⟨Hp, HT⟩, Hrest⟩
    imodintro
    isplitl [Ha HT Hrest Hp]
    · isplitl [Ha HT Hrest]
      · iapply (hexit1 m o0 o1 hO c)
        isplitl [Ha]; · iexact Ha
        isplitl [HT]; · iexact HT
        iexact Hrest
      iexact Hp
    unfold Pipeline.Dat.owesAt Pipeline.owesWithin
    icases HO with ⟨%W, -, HO⟩; iexists W; iexact HO

/-- The reshape as a host segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R

/-- @main's three segments in order. -/
abbrev segs (h0 : Sound0 (F := F) o0) (h1 : Sound1 (F := F) o1 s1) (hO : Ok m) :
    List (Pipeline.Seg (pcfgs (F := F)) (adm m hO) (pdats m o0 o1 hO) () defs₀ 𝒱₀ L lv) :=
  [ .host (hseg0 m), .region (reg0 m o0 o1 h0 hO), .region (reg1 m o0 o1 s1 h1 hO) ]

theorem main_run (h0 : Sound0 (F := F) o0) (h1 : Sound1 (F := F) o1 s1) (hO : Ok m) (c : Dev nD) :
    main (F := F) c = Pipeline.Seg.run (segs m o0 o1 s1 h0 h1 hO) := (main_chain c).trans (by chain_rfl)

set_option backward.isDefEq.respectTransparency.types false in
/-- THE RUN. Under the table's side conditions and given the two bodies' runs, every weakly fair execution of
    the program terminates, nothing faulting; the result array ends at what region 1's write-backs leave and every
    argument array ends as launched. -/
theorem run (h0 : Sound0 (F := F) o0) (h1 : Sound1 (F := F) o1 s1) (hO : Ok m) :
    θ_run defs (onTc (τ := τ) (main (F := F))) ⟨m, fun _ => 0, ρ⟩ (fun r => ∀ c : Dev nD,
      r.2.mem ((c.tc : Thread nD τ).loc main_v0) = X3 m o0 o1 hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m hO) (pdats m o0 o1 hO) () (cellOf_inj (adm m hO)) emb₁ defs₀ 𝒱₀ L lv m ρ main
    (segs m o0 o1 s1 h0 h1 hO)
    (fun c Q => by rw [main_run m o0 o1 s1 h0 h1 hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m o0 o1 hO)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m o0 o1 hO c b)
    (hfin := fun c s' => by
      iintro ⟨⟨Hh, -⟩, HSI⟩
      unfold StableHlo.held
      imodintro
      iapply (pointsTo_read_all (Pipeline.ucRefs τ sig) (fun b => (((c : Thread nD τ)).1, b)) (W3 m o0 o1 hO c) s')
      isplitl [Hh] <;> iassumption)
    (hQ := fun s h c =>
      ⟨(h c _ (mem_uc main_v0 (by decide))).trans (W3_self m o0 o1 hO c),
       (h c _ (mem_uc main_arg0 (by decide))).trans ((W3_of_ne m o0 o1 hO c main_arg0 (by decide)).trans ((W2_of_ne m o0 hO c main_arg0 (by decide)).trans (Gen.V1_of m c main_arg0 (by decide)))),
       (h c _ (mem_uc main_arg1 (by decide))).trans ((W3_of_ne m o0 o1 hO c main_arg1 (by decide)).trans ((W2_of_ne m o0 hO c main_arg1 (by decide)).trans (Gen.V1_of m c main_arg1 (by decide)))),
       (h c _ (mem_uc main_arg2 (by decide))).trans ((W3_of_ne m o0 o1 hO c main_arg2 (by decide)).trans ((W2_of_ne m o0 hO c main_arg2 (by decide)).trans (Gen.V1_of m c main_arg2 (by decide)))),
       (h c _ (mem_uc main_arg3 (by decide))).trans ((W3_of_ne m o0 o1 hO c main_arg3 (by decide)).trans ((W2_of_ne m o0 hO c main_arg3 (by decide)).trans (Gen.V1_of m c main_arg3 (by decide))))⟩)

end Launch

end Cert.Kernel.Run

end
-- ==== Proof.RefOps.lean ====
/-
  The reference program as one straight line of host operations.

  The program's @main calls two outlined functions, one looking rows of the weight array up and one looking rows of the
  bias array up; each of them calls a third (a select). A call executes the callee's body on the operands, so @main is the
  list of all their operations in order, each over the buffers of its own call: twenty-four for each look-up (the
  select of the normalised index among them) and ten of @main's own.
-/
import proofs.«136559_g38783554683117_cont_8to1_b_1222_28_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifty-eight operations in order, the calls unfolded: the weight look-up's twenty-four over the first call's
    buffers, the bias look-up's twenty-four over the second call's, then @main's own ten. -/
abbrev ops : List (HloOp τ sig (Elt F)) :=
  [ TRef.nullary main_call0.c (constantI S_ 32 0#32),
    TRef.unary main_call0.c main_call0.v0 (broadcastInDim S2 ![] bcast_S_S2),
    TRef.binary (.of main_arg3) main_call0.v0 main_call0.v1 (cmpi .slt),
    TRef.nullary main_call0.c_0 (constantI S_ 32 16#32),
    TRef.unary main_call0.c_0 main_call0.v2 (broadcastInDim S2 ![] bcast_S_S2),
    TRef.binary (.of main_arg3) main_call0.v2 main_call0.v3 addi,
    TRef.ternary main_call0.v1 main_call0.v3 (.of main_arg3) main_call0.call0.v0 select,
    TRef.unary main_call0.call0.v0 main_call0.v5 (broadcastInDim S2x1 ![0] bcast_S2_S2x1_0),
    TRef.nullary main_call0.c_1 (constantI S1 32 15#32),
    TRef.nullary main_call0.c_2 (constantI S_ 32 0#32),
    TRef.unary main_call0.c_2 main_call0.v6 (broadcastInDim S2x1 ![] bcast_S_S2x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2x1 ![0, 1] bcast_S1x1_S2x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2x1_S2_d1 h_S_),
    TRef.binary (.of main_arg1) main_call0.v5 main_call0.v13 (fun x i => Host.gather gather_S16x2048x2048_S2x1_S2x2048x2048_12_0_n_n_0_1_120482048 x i),
    TRef.unary main_call0.v12 main_call0.v14 (broadcastInDim S2x2048x2048 ![0] bcast_S2_S2x2048x2048_0),
    TRef.nullary main_call0.cst (constant S_ .f32 0x7FC00000#32),
    TRef.unary main_call0.cst main_call0.v15 (broadcastInDim S2x2048x2048 ![] bcast_S_S2x2048x2048),
    TRef.ternary main_call0.v14 main_call0.v13 main_call0.v15 main_call0.v16 select,
    TRef.nullary main_call1.c (constantI S_ 32 0#32),
    TRef.unary main_call1.c main_call1.v0 (broadcastInDim S2 ![] bcast_S_S2),
    TRef.binary (.of main_arg3) main_call1.v0 main_call1.v1 (cmpi .slt),
    TRef.nullary main_call1.c_0 (constantI S_ 32 16#32),
    TRef.unary main_call1.c_0 main_call1.v2 (broadcastInDim S2 ![] bcast_S_S2),
    TRef.binary (.of main_arg3) main_call1.v2 main_call1.v3 addi,
    TRef.ternary main_call1.v1 main_call1.v3 (.of main_arg3) main_call1.call0.v0 select,
    TRef.unary main_call1.call0.v0 main_call1.v5 (broadcastInDim S2x1 ![0] bcast_S2_S2x1_0),
    TRef.nullary main_call1.c_1 (constantI S1 32 15#32),
    TRef.nullary main_call1.c_2 (constantI S_ 32 0#32),
    TRef.unary main_call1.c_2 main_call1.v6 (broadcastInDim S2x1 ![] bcast_S_S2x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S2x1 ![0, 1] bcast_S1x1_S2x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2x1_S2_d1 h_S_),
    TRef.binary (.of main_arg2) main_call1.v5 main_call1.v13 (fun x i => Host.gather gather_S16x2048_S2x1_S2x2048_1_0_n_n_0_1_12048 x i),
    TRef.unary main_call1.v12 main_call1.v14 (broadcastInDim S2x2048 ![0] bcast_S2_S2x2048_0),
    TRef.nullary main_call1.cst (constant S_ .f32 0x7FC00000#32),
    TRef.unary main_call1.cst main_call1.v15 (broadcastInDim S2x2048 ![] bcast_S_S2x2048),
    TRef.ternary main_call1.v14 main_call1.v13 main_call1.v15 main_call1.v16 select,
    nullary main_cst (constant S_ .f32 0x00000000#32),
    binary main_v0 main_cst main_v2 ((fun x v => Host.reduceAdd x v reducesTo_S2x2048x2048_S2048x2048_d0 h_S_) : (⟨S2x2048x2048, .f32⟩ : BufTy).Contents (Elt F) → (⟨S_, .f32⟩ : BufTy).Contents (Elt F) → (⟨S2048x2048, .f32⟩ : BufTy).Contents (Elt F)),
    binary main_arg0 main_v2 main_v3 ((fun l r => Host.dotGeneral dot_S16384x2048_S2048x2048_S16384x2048_1_1_0_0_n_n none l r) : (⟨S16384x2048, .f32⟩ : BufTy).Contents (Elt F) → (⟨S2048x2048, .f32⟩ : BufTy).Contents (Elt F) → (⟨S16384x2048, .f32⟩ : BufTy).Contents (Elt F)),
    nullary main_cst_0 (constant S_ .f32 0x00000000#32),
    binary main_v1 main_cst_0 main_v4 ((fun x v => Host.reduceAdd x v reducesTo_S2x2048_S2048_d0 h_S_) : (⟨S2x2048, .f32⟩ : BufTy).Contents (Elt F) → (⟨S_, .f32⟩ : BufTy).Contents (Elt F) → (⟨S2048, .f32⟩ : BufTy).Contents (Elt F)),
    unary main_v4 main_v5 (broadcastInDim S1x2048 ![1] bcast_S2048_S1x2048_1 : (⟨S2048, .f32⟩ : BufTy).Contents (Elt F) → (⟨S1x2048, .f32⟩ : BufTy).Contents (Elt F)),
    unary main_v5 main_v6 (broadcastInDim S16384x2048 ![0, 1] bcast_S1x2048_S16384x2048_0_1 : (⟨S1x2048, .f32⟩ : BufTy).Contents (Elt F) → (⟨S16384x2048, .f32⟩ : BufTy).Contents (Elt F)),
    binary main_v3 main_v6 main_v7 (addf : (⟨S16384x2048, .f32⟩ : BufTy).Contents (Elt F) → (⟨S16384x2048, .f32⟩ : BufTy).Contents (Elt F) → (⟨S16384x2048, .f32⟩ : BufTy).Contents (Elt F)) ]

-- fifty-eight binds re-associated: the rewrite under the chain recurses once per statement
set_option maxRecDepth 4096 in
/-- @main is that straight line: the functions' definitions unfolded at their calls, both sides are one chain of
    steps once sequencing is re-associated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., binary_bufs_sub .., nullary_bufs_sub .., binary_bufs_sub .., unary_bufs_sub ..,
    unary_bufs_sub .., binary_bufs_sub ..⟩

/-- On every device, for any float values, from any memory with zero counters: every weakly fair execution of @main
    terminates, and every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  What the reference computes, as pure functions of its four inputs.

  Each row look-up first normalises the two expert numbers (a negative number gets 16 added), writes them as a column of
  start indices, and computes a mask saying the number is within 0 … 15; it then gathers whole rows at the start indices
  and keeps the gathered row where the mask is set (a fixed not-a-number pattern elsewhere). @main sums the two gathered
  weight matrices, multiplies the activations by the sum, sums the two gathered bias rows, and adds that row to every row
  of the product.
-/
import proofs.«136559_g38783554683117_cont_8to1_b_1222_28_alg».proof.Proof.Gen.ReferenceIdeal
import Idealize.ShloMosaic.PureOps.Ideal

noncomputable section

namespace Cert.ReferenceIdeal.RefTerm

open Cert.ReferenceIdeal Cert.ReferenceIdeal.Gen Idealize.ShloMosaic

/-- The expert numbers normalised: 16 added to a negative one. -/
def normIds (ids : IVec S2 32) : IVec S2 32 :=
  select (cmpi .slt ids (broadcastInDim S2 ![] bcast_S_S2 (constantI S_ 32 0#32)))
    (addi ids (broadcastInDim S2 ![] bcast_S_S2 (constantI S_ 32 16#32))) ids

/-- The normalised numbers as a column of start indices. -/
def idxCol (ids : IVec S2 32) : IVec S2x1 32 :=
  broadcastInDim S2x1 ![0] bcast_S2_S2x1_0 (normIds ids)

/-- The mask: the normalised number is at least 0 and at most 15. -/
def inRange (ids : IVec S2 32) : IVec S2 1 :=
  Host.reduce IntOp.andi
    (andi (cmpi .sge (idxCol ids) (broadcastInDim S2x1 ![] bcast_S_S2x1 (constantI S_ 32 0#32)))
      (cmpi .sle (idxCol ids)
        (broadcastInDim S2x1 ![0, 1] bcast_S1x1_S2x1_0_1 (broadcastInDim S1x1 ![1] bcast_S1_S1x1_1 (constantI S1 32 15#32)))))
    (constantI S_ 1 1#1) reducesTo_S2x1_S2_d1 h_S_

/-- The two looked-up weight matrices. -/
def takeW (W : FVec Ideal S16x2048x2048 .f32) (ids : IVec S2 32) : FVec Ideal S2x2048x2048 .f32 :=
  select (broadcastInDim S2x2048x2048 ![0] bcast_S2_S2x2048x2048_0 (inRange ids))
    (Host.gather gather_S16x2048x2048_S2x1_S2x2048x2048_12_0_n_n_0_1_120482048 W (idxCol ids))
    (broadcastInDim S2x2048x2048 ![] bcast_S_S2x2048x2048 (constant (F := Ideal) S_ .f32 0x7FC00000#32))

/-- The two looked-up bias rows. -/
def takeB (b : FVec Ideal S16x2048 .f32) (ids : IVec S2 32) : FVec Ideal S2x2048 .f32 :=
  select (broadcastInDim S2x2048 ![0] bcast_S2_S2x2048_0 (inRange ids))
    (Host.gather gather_S16x2048_S2x1_S2x2048_1_0_n_n_0_1_12048 b (idxCol ids))
    (broadcastInDim S2x2048 ![] bcast_S_S2x2048 (constant (F := Ideal) S_ .f32 0x7FC00000#32))

/-- The sum of the two looked-up weight matrices. -/
def wsum (W : FVec Ideal S16x2048x2048 .f32) (ids : IVec S2 32) : FVec Ideal S2048x2048 .f32 :=
  Host.reduceAdd (F := Ideal) (takeW W ids) (constant (F := Ideal) S_ .f32 0x00000000#32) reducesTo_S2x2048x2048_S2048x2048_d0 h_S_

/-- The sum of the two looked-up bias rows. -/
def bsum (b : FVec Ideal S16x2048 .f32) (ids : IVec S2 32) : FVec Ideal S2048 .f32 :=
  Host.reduceAdd (F := Ideal) (takeB b ids) (constant (F := Ideal) S_ .f32 0x00000000#32) reducesTo_S2x2048_S2048_d0 h_S_

/-- The reference's result. -/
def refOut (x : FVec Ideal S16384x2048 .f32) (W : FVec Ideal S16x2048x2048 .f32) (b : FVec Ideal S16x2048 .f32)
    (ids : IVec S2 32) : FVec Ideal S16384x2048 .f32 :=
  addf (Host.dotGeneral (F := Ideal) dot_S16384x2048_S2048x2048_S16384x2048_1_1_0_0_n_n none x (wsum W ids))
    (broadcastInDim S16384x2048 ![0, 1] bcast_S1x2048_S16384x2048_0_1
      (broadcastInDim S1x2048 ![1] bcast_S2048_S1x2048_1 (bsum b ids)))

end Cert.ReferenceIdeal.RefTerm

end
-- ==== Proof.RefIdx.lean ====
/-
  The look-ups' index arithmetic when the two expert numbers are within range.

  If word k of the id array is the number e with 0 ≤ e < 16, then the normalised number is e again (it is not negative, so
  nothing is added), the start index at (k, 0) is e, and the mask at k is set (0 ≤ e and e ≤ 15).
-/
import proofs.«136559_g38783554683117_cont_8to1_b_1222_28_alg».proof.Proof.RefTerm
import Idealize.ShloMosaic.Lib.ValueIdx
import Idealize.ShloMosaic.Lib.Pipeline.Value
import Idealize.ShloMosaic.PureOps.Reduce

noncomputable section

namespace Cert.ReferenceIdeal.RefIdx

open Cert.ReferenceIdeal Cert.ReferenceIdeal.Gen Cert.ReferenceIdeal.RefTerm Idealize.ShloMosaic Idealize.ShloMosaic.ValueIdx

/-- A number below 16 is not negative as a signed 32-bit word. -/
theorem not_neg : ∀ e : Fin 16, IntOp.cmpi .slt (BitVec.ofNat 32 e.val) 0#32 = 0#1 := by decide

/-- … it is at least 0 … -/
theorem ge_zero : ∀ e : Fin 16, IntOp.cmpi .sge (BitVec.ofNat 32 e.val) 0#32 = 1#1 := by decide

/-- … and at most 15. -/
theorem le_max : ∀ e : Fin 16, IntOp.cmpi .sle (BitVec.ofNat 32 e.val) 15#32 = 1#1 := by decide

/-- Read as a signed integer and clamped into 0 … 15 it is itself. -/
theorem clamp_eq : ∀ e : Fin 16, min (BitVec.ofNat 32 e.val).toInt.toNat 15 = e.val := by decide

/-- The normalised number at k is e. -/
theorem normIds_apply (ids : IVec S2 32) (k : Fin 2) (e : Fin 16) (h : ids (ix1 k) = BitVec.ofNat 32 e.val) :
    normIds ids (ix1 k) = BitVec.ofNat 32 e.val := by
  show Scalar.select (IntOp.cmpi .slt (ids (ix1 k)) 0#32) (IntOp.addi (ids (ix1 k)) 16#32) (ids (ix1 k)) = _
  rw [h, not_neg, select_zero]

/-- A vector written as a column reads, at (k, 0), the vector at k. -/
theorem col_apply (x : IVec S2 32) (k : Fin 2) (u : Fin 1) :
    broadcastInDim S2x1 ![0] bcast_S2_S2x1_0 x (ix2 k u) = x (ix1 k) :=
  broadcastInDim_apply (![0] : Fin 1 → Fin 2) bcast_S2_S2x1_0 x (ix2 k u) (ix1 k) fun ax => by
    match ax with
    | ⟨0, _⟩ =>
      show k.val = if (2 : Nat) = 1 then 0 else k.val
      rw [if_neg (by decide)]

/-- The column of start indices at (k, 0) is the normalised number at k. -/
theorem idxCol_apply (ids : IVec S2 32) (k : Fin 2) (u : Fin 1) : idxCol ids (ix2 k u) = normIds ids (ix1 k) :=
  col_apply (normIds ids) k u

/-- Over position k of the mask, with u on the reduced (second) axis, lies the column index (k, u). -/
theorem lift_col (h : S2x1.Reduces [1] S2) (k : Fin 2) (u : Fin 1) : h.lift (ix1 k) u = ix2 k u :=
  funext fun c => Fin.ext (by match c with | ⟨0, _⟩ => rfl | ⟨1, _⟩ => rfl)

/-- A conjunction of set bits, started from a set bit, is set. -/
theorem fold_and_one {ι : Type} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf]; rfl

/-- The mask at k is set. -/
theorem inRange_apply (ids : IVec S2 32) (k : Fin 2) (e : Fin 16) (h : ids (ix1 k) = BitVec.ofNat 32 e.val) :
    inRange ids (ix1 k) = 1#1 := by
  have hr : S2x1.Reduces [1] S2 := by decide
  unfold inRange
  refine (Host.reduce_eq_fold_single IntOp.andi _ _ reducesTo_S2x1_S2_d1 hr h_S_ (ix1 k)).trans ?_
  refine fold_and_one (ι := Fin 1) Finset.univ _ fun u => ?_
  show IntOp.andi (IntOp.cmpi .sge (idxCol ids (hr.lift (ix1 k) u)) 0#32)
    (IntOp.cmpi .sle (idxCol ids (hr.lift (ix1 k) u)) 15#32) = 1#1
  rw [lift_col hr k u, idxCol_apply, normIds_apply ids k e h, ge_zero, le_max]
  rfl

end Cert.ReferenceIdeal.RefIdx

end
-- ==== Proof.RefGather.lean ====
/-
  The two row look-ups' gathers, read at one position.

  The weight look-up gathers, from an operand [16, 2048, 2048] and a column [2, 1] of start indices, slices of one whole
  matrix: the operand's first axis is collapsed, its other two are the result's offset axes. Result entry (k, o, d) is the
  operand at the matrix idx[k, 0] — read as a signed integer and clamped into 0 … 15, as a gather clamps every start
  index — and at (o, d). The bias look-up is the same one rank down: entry (k, o) is the operand at row idx[k, 0],
  clamped, and column o.
-/
import proofs.«136559_g38783554683117_cont_8to1_b_1222_28_alg».proof.Proof.Gen.ReferenceIdeal
import Idealize.ShloMosaic.Lib.ValueIdx

noncomputable section

namespace Cert.ReferenceIdeal.RefGather

open Cert.ReferenceIdeal Cert.ReferenceIdeal.Gen Idealize.ShloMosaic Idealize.ShloMosaic.ValueIdx

variable {α : Type}

local notation "DW" => gather_S16x2048x2048_S2x1_S2x2048x2048_12_0_n_n_0_1_120482048
local notation "DB" => gather_S16x2048_S2x1_S2x2048_1_0_n_n_0_1_12048

/-- The weight gather at (k, o, d): the operand at matrix idx[k, 0], clamped, and at (o, d). -/
theorem gatherW_apply {w : Nat} (x : S16x2048x2048.Idx → α) (idx : IVec S2x1 w) (k : Fin 2) (o d : Fin 2048) :
    Host.gather DW x idx (ix3 k o d)
      = x (ix3 (⟨min (idx (ix2 k (0 : Fin 1))).toInt.toNat 15, by omega⟩ : Fin 16) o d) := by
  unfold Host.gather
  congr 1
  funext a
  refine Fin.ext ?_
  match a with
  | ⟨0, _⟩ =>
    show GatherDims.start DW (ix3 k o d) idx 0 + GatherDims.batchCoord DW (ix3 k o d) 0 + GatherDims.offCoord DW (ix3 k o d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap DW from List.mem_singleton.mpr rfl)]
    have hsi : GatherDims.siIdx DW (ix3 k o d) ⟨List.idxOf (0 : Fin 3) (GatherDims.startIndexMap DW),
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show GatherDims.start DW (ix3 k o d) idx 1 + GatherDims.batchCoord DW (ix3 k o d) 1 + GatherDims.offCoord DW (ix3 k o d) 1 = o.val
    have h1 : (1 : Fin 3) ∉ GatherDims.startIndexMap DW := show (1 : Fin 3) ∉ [(0 : Fin 3)] from by decide
    have hk : (1 : Fin 3) ∈ GatherDims.sKept DW :=
      (GatherDims.mem_sKept _ _).mpr ⟨show (1 : Fin 3) ∉ [(0 : Fin 3)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl
  | ⟨2, _⟩ =>
    show GatherDims.start DW (ix3 k o d) idx 2 + GatherDims.batchCoord DW (ix3 k o d) 2 + GatherDims.offCoord DW (ix3 k o d) 2 = d.val
    have h1 : (2 : Fin 3) ∉ GatherDims.startIndexMap DW := show (2 : Fin 3) ∉ [(0 : Fin 3)] from by decide
    have hk : (2 : Fin 3) ∈ GatherDims.sKept DW :=
      (GatherDims.mem_sKept _ _).mpr ⟨show (2 : Fin 3) ∉ [(0 : Fin 3)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The bias gather at (k, o): the operand at row idx[k, 0], clamped, and column o. -/
theorem gatherB_apply {w : Nat} (x : S16x2048.Idx → α) (idx : IVec S2x1 w) (k : Fin 2) (o : Fin 2048) :
    Host.gather DB x idx (ix2 k o)
      = x (ix2 (⟨min (idx (ix2 k (0 : Fin 1))).toInt.toNat 15, by omega⟩ : Fin 16) o) := by
  unfold Host.gather
  congr 1
  funext a
  refine Fin.ext ?_
  match a with
  | ⟨0, _⟩ =>
    show GatherDims.start DB (ix2 k o) idx 0 + GatherDims.batchCoord DB (ix2 k o) 0 + GatherDims.offCoord DB (ix2 k o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap DB from List.mem_singleton.mpr rfl)]
    have hsi : GatherDims.siIdx DB (ix2 k o) ⟨List.idxOf (0 : Fin 2) (GatherDims.startIndexMap DB),
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show GatherDims.start DB (ix2 k o) idx 1 + GatherDims.batchCoord DB (ix2 k o) 1 + GatherDims.offCoord DB (ix2 k o) 1 = o.val
    have h1 : (1 : Fin 2) ∉ GatherDims.startIndexMap DB := show (1 : Fin 2) ∉ [(0 : Fin 2)] from by decide
    have hk : (1 : Fin 2) ∈ GatherDims.sKept DB :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.ReferenceIdeal.RefGather

end
-- ==== Proof.RefDot.lean ====
/-
  The reference's matrix product, read at one position.

  The product contracts the second axis of the activations [16384, 2048] with the second axis of the combined weight
  [2048, 2048] (an out×in matrix), with no batch axis: at the output position (r, o) it is, on the extended reals, the sum
  over d < 2048 of l(r, d) · w(o, d).
-/
import proofs.«136559_g38783554683117_cont_8to1_b_1222_28_alg».proof.Proof.Gen.ReferenceIdeal
import Idealize.ShloMosaic.PureOps.Ideal.Laws
import Idealize.ShloMosaic.Lib.ValueIdx

noncomputable section

open scoped BigOperators

namespace Cert.ReferenceIdeal.RefDot

open Cert.ReferenceIdeal Cert.ReferenceIdeal.Gen Idealize.ShloMosaic Idealize.ShloMosaic.ValueIdx

local notation "DD" => dot_S16384x2048_S2048x2048_S16384x2048_1_1_0_0_n_n

/-- The left operand's row is the output's row. -/
theorem lhs0 (i : S16384x2048.Idx) (q : (DotDims.contr DD).Idx) :
    (DotDims.lhsIdx DD i q 0).val = (i 0).val := by
  unfold DotDims.lhsIdx
  rw [dif_neg (show ¬(0 : Fin 2) ∈ DotDims.lhsBatch DD from List.not_mem_nil),
    dif_pos (show (0 : Fin 2) ∈ DotDims.lhsNonContracting DD from List.mem_singleton.mpr rfl)]
  rfl

/-- The left operand's column is the contraction index. -/
theorem lhs1 (i : S16384x2048.Idx) (q : (DotDims.contr DD).Idx) :
    (DotDims.lhsIdx DD i q 1).val = (q ⟨0, by rw [DotDims.rank_contr DD]; exact Nat.one_pos⟩).val :=
  DotDims.lhsIdx_val_of_single DD rfl i q

/-- The right operand's row is the output's column. -/
theorem rhs0 (i : S16384x2048.Idx) (q : (DotDims.contr DD).Idx) :
    (DotDims.rhsIdx DD i q 0).val = (i 1).val := by
  unfold DotDims.rhsIdx
  rw [dif_neg (show ¬(0 : Fin 2) ∈ DotDims.rhsBatch DD from List.not_mem_nil),
    dif_pos (show (0 : Fin 2) ∈ DotDims.rhsNonContracting DD from List.mem_singleton.mpr rfl)]
  rfl

/-- The right operand's column is the contraction index. -/
theorem rhs1 (i : S16384x2048.Idx) (q : (DotDims.contr DD).Idx) :
    (DotDims.rhsIdx DD i q 1).val = (q ⟨0, by rw [DotDims.rank_contr DD]; exact Nat.one_pos⟩).val :=
  DotDims.rhsIdx_val_of_single DD rfl i q

/-- The contraction's sum, re-indexed by d < 2048. -/
theorem sum_dot (l : FVec Ideal S16384x2048 .f32) (r : FVec Ideal S2048x2048 .f32) (i : Fin 16384) (o : Fin 2048) :
    ∑ k : (DotDims.contr DD).Idx, l (DotDims.lhsIdx DD (ix2 i o) k) * r (DotDims.rhsIdx DD (ix2 i o) k)
      = ∑ k : Fin 2048, l (ix2 i k) * r (ix2 o k) := by
  rw [← Equiv.sum_comp (contrEquiv1 DD 2048 rfl rfl).symm]
  refine Finset.sum_congr rfl fun k _ => ?_
  have hk := contrEquiv1_symm_val DD 2048 rfl rfl k
  have el : DotDims.lhsIdx DD (ix2 i o) ((contrEquiv1 DD 2048 rfl rfl).symm k) = ix2 i k :=
    funext fun a => Fin.ext (by
      match a with
      | ⟨0, _⟩ => exact lhs0 _ _
      | ⟨1, _⟩ => exact (lhs1 _ _).trans hk)
  have er : DotDims.rhsIdx DD (ix2 i o) ((contrEquiv1 DD 2048 rfl rfl).symm k) = ix2 o k :=
    funext fun a => Fin.ext (by
      match a with
      | ⟨0, _⟩ => exact rhs0 _ _
      | ⟨1, _⟩ => exact (rhs1 _ _).trans hk)
  exact congr (congrArg HMul.hMul (congrArg l el)) (congrArg r er)

/-- The product at (r, o). -/
theorem dot_apply (l : FVec Ideal S16384x2048 .f32) (r : FVec Ideal S2048x2048 .f32) (i : Fin 16384) (o : Fin 2048) :
    Host.dotGeneral (F := Ideal) DD none l r (ix2 i o) = ∑ k : Fin 2048, l (ix2 i k) * r (ix2 o k) :=
  (Ideal.dotGeneral_apply DD none .single l r (ix2 i o)).trans (sum_dot l r i o)

end Cert.ReferenceIdeal.RefDot

end
-- ==== Proof.RefSum.lean ====
/-
  The reference's result is the shared specification's, when the two expert numbers are within range.

  With word k of the id array the number e_k, 0 ≤ e_k < 16: the mask is set, so each look-up returns the gathered rows;
  the clamped start index is e_k, so the gathered weight at (k, o, d) is W(e_k, o, d) and the gathered bias at (k, o) is
  b(e_k, o). The sum along the first axis of two entries from the zero word is 0 + (a0 + a1) = a0 + a1; the product is the
  sum over d of x(r, d) times the combined weight at (o, d); the combined bias row is added to every row.
-/
import proofs.«136559_g38783554683117_cont_8to1_b_1222_28_alg».proof.Proof.RefIdx
import proofs.«136559_g38783554683117_cont_8to1_b_1222_28_alg».proof.Proof.RefGather
import proofs.«136559_g38783554683117_cont_8to1_b_1222_28_alg».proof.Proof.RefDot
import proofs.«136559_g38783554683117_cont_8to1_b_1222_28_alg».proof.Proof.Spec
import Idealize.ShloMosaic.PureOps.Ideal.Laws

noncomputable section

open scoped BigOperators

namespace Cert.ReferenceIdeal.RefSum

open Cert.ReferenceIdeal Cert.ReferenceIdeal.Gen Cert.ReferenceIdeal.RefTerm Cert.ReferenceIdeal.RefIdx
open Idealize.ShloMosaic Idealize.ShloMosaic.ValueIdx

/-- The mask spread over the looked-up matrices reads, at (k, o, d), the mask at k. -/
theorem maskW_apply (m : IVec S2 1) (k : Fin 2) (o d : Fin 2048) :
    broadcastInDim S2x2048x2048 ![0] bcast_S2_S2x2048x2048_0 m (ix3 k o d) = m (ix1 k) :=
  broadcastInDim_apply (![0] : Fin 1 → Fin 3) bcast_S2_S2x2048x2048_0 m (ix3 k o d) (ix1 k) fun ax => by
    match ax with
    | ⟨0, _⟩ =>
      show k.val = if (2 : Nat) = 1 then 0 else k.val
      rw [if_neg (by decide)]

/-- The mask spread over the looked-up rows reads, at (k, o), the mask at k. -/
theorem maskB_apply (m : IVec S2 1) (k : Fin 2) (o : Fin 2048) :
    broadcastInDim S2x2048 ![0] bcast_S2_S2x2048_0 m (ix2 k o) = m (ix1 k) :=
  broadcastInDim_apply (![0] : Fin 1 → Fin 2) bcast_S2_S2x2048_0 m (ix2 k o) (ix1 k) fun ax => by
    match ax with
    | ⟨0, _⟩ =>
      show k.val = if (2 : Nat) = 1 then 0 else k.val
      rw [if_neg (by decide)]

/-- The clamped start index at (k, 0) is e. -/
theorem start_eq (ids : IVec S2 32) (k : Fin 2) (e : Fin 16) (h : ids (ix1 k) = BitVec.ofNat 32 e.val) :
    min (idxCol ids (ix2 k (0 : Fin 1))).toInt.toNat 15 = e.val := by
  rw [idxCol_apply, normIds_apply ids k e h]
  exact clamp_eq e

/-- The looked-up weight at (k, o, d) is W(e, o, d). -/
theorem takeW_apply (W : FVec Ideal S16x2048x2048 .f32) (ids : IVec S2 32) (k : Fin 2) (e : Fin 16)
    (h : ids (ix1 k) = BitVec.ofNat 32 e.val) (o d : Fin 2048) : takeW W ids (ix3 k o d) = W (ix3 e o d) := by
  show Scalar.select (broadcastInDim S2x2048x2048 ![0] bcast_S2_S2x2048x2048_0 (inRange ids) (ix3 k o d))
    (Host.gather gather_S16x2048x2048_S2x1_S2x2048x2048_12_0_n_n_0_1_120482048 W (idxCol ids) (ix3 k o d)) _ = _
  rw [maskW_apply, inRange_apply ids k e h, select_one]
  exact (RefGather.gatherW_apply W (idxCol ids) k o d).trans
    (congrArg (fun a : Fin 16 => W (ix3 a o d)) (Fin.ext (start_eq ids k e h)))

/-- The looked-up bias at (k, o) is b(e, o). -/
theorem takeB_apply (b : FVec Ideal S16x2048 .f32) (ids : IVec S2 32) (k : Fin 2) (e : Fin 16)
    (h : ids (ix1 k) = BitVec.ofNat 32 e.val) (o : Fin 2048) : takeB b ids (ix2 k o) = b (ix2 e o) := by
  show Scalar.select (broadcastInDim S2x2048 ![0] bcast_S2_S2x2048_0 (inRange ids) (ix2 k o))
    (Host.gather gather_S16x2048_S2x1_S2x2048_1_0_n_n_0_1_12048 b (idxCol ids) (ix2 k o)) _ = _
  rw [maskB_apply, inRange_apply ids k e h, select_one]
  exact (RefGather.gatherB_apply b (idxCol ids) k o).trans
    (congrArg (fun a : Fin 16 => b (ix2 a o)) (Fin.ext (start_eq ids k e h)))

/-- Over position (o, d) of the summed matrix, with k on the reduced (first) axis, lies the index (k, o, d). -/
theorem lift3 (h : S2x2048x2048.Reduces [0] S2048x2048) (o d : Fin 2048) (k : Fin 2) : h.lift (ix2 o d) k = ix3 k o d :=
  funext fun c => Fin.ext (by match c with | ⟨0, _⟩ => rfl | ⟨1, _⟩ => rfl | ⟨2, _⟩ => rfl)

/-- Over position o of the summed row, with k on the reduced (first) axis, lies the index (k, o). -/
theorem lift2 (h : S2x2048.Reduces [0] S2048) (o : Fin 2048) (k : Fin 2) : h.lift (ix1 o) k = ix2 k o :=
  funext fun c => Fin.ext (by match c with | ⟨0, _⟩ => rfl | ⟨1, _⟩ => rfl)

/-- The summed weight at (o, d) is the specification's combined weight at (d, o). -/
theorem wsum_apply (W : FVec Ideal S16x2048x2048 .f32) (ids : IVec S2 32) (e0 e1 : Fin 16) (hids : RMoE.IdsAre ids e0 e1)
    (o d : Fin 2048) : wsum W ids (ix2 o d) = RMoE.wsumAt W e0 e1 d o := by
  have hr : S2x2048x2048.Reduces [0] S2048x2048 := by decide
  have h1 : wsum W ids (ix2 o d)
      = Ideal.ofBits .f32 0x00000000#32 + ∑ k : Fin 2, takeW W ids (hr.lift (ix2 o d) k) := by
    have h0 := Ideal.hostReduceAdd_single reducesTo_S2x2048x2048_S2048x2048_d0 hr (takeW W ids)
      (Ideal.ofBits .f32 0x00000000#32) (ix2 o d)
    exact h0
  rw [h1, Ideal.ofBits_zero_f32, zero_add, Fin.sum_univ_two, lift3, lift3, takeW_apply W ids 0 e0 hids.1,
    takeW_apply W ids 1 e1 hids.2]
  rfl

/-- The summed bias at o is the specification's combined bias at o. -/
theorem bsum_apply (b : FVec Ideal S16x2048 .f32) (ids : IVec S2 32) (e0 e1 : Fin 16) (hids : RMoE.IdsAre ids e0 e1)
    (o : Fin 2048) : bsum b ids (ix1 o) = RMoE.bsumAt b e0 e1 o := by
  have hr : S2x2048.Reduces [0] S2048 := by decide
  have h1 : bsum b ids (ix1 o)
      = Ideal.ofBits .f32 0x00000000#32 + ∑ k : Fin 2, takeB b ids (hr.lift (ix1 o) k) := by
    have h0 := Ideal.hostReduceAdd_single reducesTo_S2x2048_S2048_d0 hr (takeB b ids)
      (Ideal.ofBits .f32 0x00000000#32) (ix1 o)
    exact h0
  rw [h1, Ideal.ofBits_zero_f32, zero_add, Fin.sum_univ_two, lift2, lift2, takeB_apply b ids 0 e0 hids.1,
    takeB_apply b ids 1 e1 hids.2]
  rfl

/-- A row spread over the rows of the result reads, at (r, o), the row at o. -/
theorem row_apply (v : FVec Ideal S2048 .f32) (r : Fin 16384) (o : Fin 2048) :
    broadcastInDim S16384x2048 ![0, 1] bcast_S1x2048_S16384x2048_0_1
      (broadcastInDim S1x2048 ![1] bcast_S2048_S1x2048_1 v) (ix2 r o) = v (ix1 o) :=
  (broadcastInDim_apply (![0, 1] : Fin 2 → Fin 2) bcast_S1x2048_S16384x2048_0_1 _ (ix2 r o) (ix2 (0 : Fin 1) o) fun ax => by
    match ax with
    | ⟨0, _⟩ =>
      show (0 : Nat) = if (1 : Nat) = 1 then 0 else r.val
      rw [if_pos rfl]
    | ⟨1, _⟩ =>
      show o.val = if (2048 : Nat) = 1 then 0 else o.val
      rw [if_neg (by decide)]).trans
  (broadcastInDim_apply (![1] : Fin 1 → Fin 2) bcast_S2048_S1x2048_1 v (ix2 (0 : Fin 1) o) (ix1 o) fun ax => by
    match ax with
    | ⟨0, _⟩ =>
      show o.val = if (2048 : Nat) = 1 then 0 else o.val
      rw [if_neg (by decide)])

/-- The reference's result at (r, o) is the specification's. -/
theorem refOut_apply (x : FVec Ideal S16384x2048 .f32) (W : FVec Ideal S16x2048x2048 .f32) (b : FVec Ideal S16x2048 .f32)
    (ids : IVec S2 32) (e0 e1 : Fin 16) (hids : RMoE.IdsAre ids e0 e1) (r : Fin 16384) (o : Fin 2048) :
    refOut x W b ids (ix2 r o) = RMoE.outAt x W b e0 e1 r o := by
  show Host.dotGeneral (F := Ideal) dot_S16384x2048_S2048x2048_S16384x2048_1_1_0_0_n_n none x (wsum W ids) (ix2 r o)
    + broadcastInDim S16384x2048 ![0, 1] bcast_S1x2048_S16384x2048_0_1
        (broadcastInDim S1x2048 ![1] bcast_S2048_S1x2048_1 (bsum b ids)) (ix2 r o) = _
  rw [RefDot.dot_apply, row_apply, bsum_apply b ids e0 e1 hids]
  unfold RMoE.outAt
  exact congrArg (· + RMoE.bsumAt b e0 e1 o)
    (Finset.sum_congr rfl fun d _ => congrArg (x (ix2 r d) * ·) (wsum_apply W ids e0 e1 hids o d))

/-- The reference's result is the specification's. -/
theorem refOut_eq (x : FVec Ideal S16384x2048 .f32) (W : FVec Ideal S16x2048x2048 .f32) (b : FVec Ideal S16x2048 .f32)
    (ids : IVec S2 32) (e0 e1 : Fin 16) (hids : RMoE.IdsAre ids e0 e1) :
    refOut x W b ids = RMoE.G x W b e0 e1 := by
  funext i
  rw [eq_ix2 i]
  exact (refOut_apply x W b ids e0 e1 hids (i 0) (i 1)).trans (RMoE.G_apply x W b e0 e1 (i 0) (i 1)).symm

end Cert.ReferenceIdeal.RefSum

end
-- ==== Proof.RefRun.lean ====
/-
  The reference's run: every execution of it terminates with the result buffer at the shared specification's value of
  the four inputs and the inputs unchanged, when the two id words are expert numbers within range.
-/
import proofs.«136559_g38783554683117_cont_8to1_b_1222_28_alg».proof.Proof.RefOps
import proofs.«136559_g38783554683117_cont_8to1_b_1222_28_alg».proof.Proof.RefSum

noncomputable section

namespace Cert.ReferenceIdeal.RefRun

open Cert.ReferenceIdeal Cert.ReferenceIdeal.Gen Cert.ReferenceIdeal.RefTerm Idealize.ShloMosaic Idealize.ShloMosaic.TcCoe Idealize.SL.Sem
open Idealize.ShloMosaic.StableHlo

attribute [local irreducible] Host.reduce Host.gather Host.reduceAdd in
set_option maxRecDepth 8192 in
/-- The operations' fold at the result buffer is the composed term of the four inputs. -/
theorem out_eq (V : Valuation τ sig (Elt Ideal)) :
    after (ops (F := Ideal)) V (main_v7 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

/-- On every device, from any memory with zero counters whose id words are the expert numbers e0 and e1: every weakly
    fair execution of @main terminates with the result at the specification's value of the inputs and the inputs
    unchanged. -/
theorem run (m : (ℓ : Loc nD τ sig) → Buf (Elt Ideal) ℓ) (ρ : Dev nD → PrngReg) (e0 e1 : Fin 16)
    (hids : ∀ c : Dev nD, RMoE.IdsAre (m ((c.tc : Thread nD τ).loc main_arg3)) e0 e1) :
    θ_run (defs (F := Ideal)) (onTc (τ := τ) (main (F := Ideal))) ⟨m, fun _ => 0, ρ⟩ fun r => ∀ c : Dev nD,
      r.2.mem ((c.tc : Thread nD τ).loc main_v7)
          = RMoE.G (m ((c.tc : Thread nD τ).loc main_arg0)) (m ((c.tc : Thread nD τ).loc main_arg1))
              (m ((c.tc : Thread nD τ).loc main_arg2)) e0 e1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨((h c main_v7).trans (out_eq (launchContents m c))).trans
          (RefSum.refOut_eq _ _ _ _ e0 e1 (hids c)),
        (h c main_arg0).trans (arg0_eq (launchContents m c)),
        (h c main_arg1).trans (arg1_eq (launchContents m c)),
        (h c main_arg2).trans (arg2_eq (launchContents m c)),
        (h c main_arg3).trans (arg3_eq (launchContents m c))⟩)
    (run_fold m ρ)

/-- On every device, from any memory with zero counters (no condition on the id words): every weakly fair execution of
    @main terminates with the four inputs unchanged. -/
theorem run_args (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c main_arg0).trans (arg0_eq (launchContents m c)),
        (h c main_arg1).trans (arg1_eq (launchContents m c)),
        (h c main_arg2).trans (arg2_eq (launchContents m c)),
        (h c main_arg3).trans (arg3_eq (launchContents m c))⟩)
    (run_fold m ρ)

end Cert.ReferenceIdeal.RefRun

end
-- ==== Proof.BodyVal0.lean ====
/-
  What the first kernel body leaves in its output buffer, read at an index over the extended reals.

  The one whole store's payload is the transpose of the narrowed sum of the two loaded blocks; narrowing is the
  identity over the extended reals, the transpose at (d, o) reads (o, d), and the leading unit axis of each block is
  dropped: entry (d, o) is x0[0, o, d] + x1[0, o, d].
-/
import proofs.«136559_g38783554683117_cont_8to1_b_1222_28_alg».proof.Proof.Body0
import Idealize.ShloMosaic.Lib.ValueIdx
import Idealize.ShloMosaic.Lib.ValueLayout
import Idealize.ShloMosaic.Lib.Pipeline.Value

noncomputable section

namespace Cert.KernelIdeal.BodyVal

open Cert.KernelIdeal Cert.KernelIdeal.Gen
open Idealize.ShloMosaic Idealize.ShloMosaic.ValueIdx

/-- The zero offsets of a rank-2 whole rectangle. -/
theorem hz2 : (![0, 0] : Fin 2 → Nat) = fun _ => 0 := by
  funext a; match a with | ⟨0, _⟩ => rfl | ⟨1, _⟩ => rfl

/-- The zero offsets of a rank-3 whole rectangle. -/
theorem hz3 : (![0, 0, 0] : Fin 3 → Nat) = fun _ => 0 := by
  funext a; match a with | ⟨0, _⟩ => rfl | ⟨1, _⟩ => rfl | ⟨2, _⟩ => rfl

/-- The whole store of whole loads: the output buffer is the payload of the two blocks. -/
theorem out0_2_eq {F : FTy → Type} [FloatOps F] (x0 x1 : Vec F S1x1024x2048 .f32) :
    Body.out0_2 x0 x1 = k0_pay1 x0 x1 := by
  unfold Body.out0_2
  rw [View.canon_unit_zero hz2]
  simp only [View.ld_unit_zero (S := S1x1024x2048) hz3]

/-- The payload at (d, o): the sum of the two blocks at (0, o, d). -/
theorem k0_pay1_apply (x0 x1 : Vec Ideal S1x1024x2048 .f32) (d : Fin 2048) (o : Fin 1024) :
    k0_pay1 x0 x1 (ix2 d o) = x0 (ix3 (0 : Fin 1) o d) + x1 (ix3 (0 : Fin 1) o d) := by
  unfold k0_pay1
  refine (transpose_ix2_apply _ _ d o).trans ?_
  rw [truncf_apply, addf_apply, shapeCast_1ab_ab_apply, shapeCast_1ab_ab_apply]

/-- The output buffer at (d, o). -/
theorem out0_2_apply (x0 x1 : Vec Ideal S1x1024x2048 .f32) (d : Fin 2048) (o : Fin 1024) :
    Body.out0_2 x0 x1 (ix2 d o) = x0 (ix3 (0 : Fin 1) o d) + x1 (ix3 (0 : Fin 1) o d) := by
  rw [out0_2_eq]; exact k0_pay1_apply x0 x1 d o

end Cert.KernelIdeal.BodyVal

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.BodyVal1.lean ====
/-
  What the second kernel body leaves in its scratch and its output buffer, read at an index over the extended reals.

  The scratch holds the narrowed activation block, and narrowing is the identity over the extended reals. The output
  buffer's one whole store is the product of the scratch read back with the combined weight, into a zero
  accumulator, plus the sum of the two bias blocks broadcast over the rows: entry (r, o) is
  Σ_d x0[r, d] · ws[d, o] + (b0[0, 0, o] + b1[0, 0, o]).
-/
import proofs.«136559_g38783554683117_cont_8to1_b_1222_28_alg».proof.Proof.Body1
import proofs.«136559_g38783554683117_cont_8to1_b_1222_28_alg».proof.Proof.LibPlainDot
import Idealize.ShloMosaic.Lib.ValueIdx
import Idealize.ShloMosaic.Lib.ValueLayout
import Idealize.ShloMosaic.Lib.Pipeline.Value

noncomputable section

open scoped BigOperators

namespace Cert.KernelIdeal.BodyVal

open Cert.KernelIdeal Cert.KernelIdeal.Gen
open Idealize.ShloMosaic Idealize.ShloMosaic.ValueIdx

/-- The zero offsets of a rank-2 whole rectangle. -/
theorem hz2' : (![0, 0] : Fin 2 → Nat) = fun _ => 0 := by
  funext a; match a with | ⟨0, _⟩ => rfl | ⟨1, _⟩ => rfl

/-- The zero offsets of a rank-3 whole rectangle. -/
theorem hz3' : (![0, 0, 0] : Fin 3 → Nat) = fun _ => 0 := by
  funext a; match a with | ⟨0, _⟩ => rfl | ⟨1, _⟩ => rfl | ⟨2, _⟩ => rfl

/-- The whole store of a whole load: the scratch is the narrowed activation block. -/
theorem scr1_eq {F : FTy → Type} [FloatOps F] (x0 : Vec F S1024x2048 .f32) : Body.scr1 x0 = k1_pay1 x0 := by
  unfold Body.scr1
  rw [View.canon_unit_zero hz2']
  simp only [View.ld_unit_zero (S := S1024x2048) hz2']

/-- The whole store of whole loads: the output buffer is the payload of the scratch and the three other blocks. -/
theorem out1_4_eq {F : FTy → Type} [FloatOps F] (x0 : Vec F S1024x2048 .f32) (ws : Vec F S2048x2048 .bf16)
    (b0 b1 : Vec F S1x1x2048 .f32) : Body.out1_4 x0 ws b0 b1 = k1_pay2 (k1_pay1 x0) ws b0 b1 := by
  unfold Body.out1_4
  rw [View.canon_unit_zero hz2']
  simp only [View.ld_unit_zero (S := S1024x2048) hz2', View.ld_unit_zero (S := S2048x2048) hz2',
    View.ld_unit_zero (S := S1x1x2048) hz3', scr1_eq]

/-- The narrowed block is the block. -/
theorem k1_pay1_apply (x0 : Vec Ideal S1024x2048 .f32) (j : S1024x2048.Idx) : k1_pay1 x0 j = x0 j := by
  unfold k1_pay1
  rw [shapeCast_self, truncf_apply]

/-- The kernel's contraction record is the plain product's. -/
theorem dot_eq_plain : dot_S1024x2048_S2048x2048_S1024x2048_1_0_0_1_n_n = DotDims.plain 1024 2048 2048 := rfl

/-- A [1, 1, n] block cast to [n] reads, at o, the block at (0, 0, o). -/
theorem shapeCast_11a_a_apply (x : S1x1x2048.Idx → EReal) (h : S1x1x2048.ShapeCasts S2048) (o : Fin 2048) :
    shapeCast S2048 x h (ValueIdx.ix1 o) = x (ix3 (0 : Fin 1) (0 : Fin 1) o) :=
  shapeCast_apply x h _ _ (by
    rw [Shape.rowMajor_val_three, Shape.rowMajor_val_one]
    show (0 * 1 + 0) * 2048 + o.val = o.val
    omega)

/-- The last store's payload at (r, o). -/
theorem k1_pay2_apply (v5 : Vec Ideal S1024x2048 .bf16) (ws : Vec Ideal S2048x2048 .bf16) (b0 b1 : Vec Ideal S1x1x2048 .f32)
    (r : Fin 1024) (o : Fin 2048) :
    k1_pay2 v5 ws b0 b1 (ix2 r o)
      = (∑ d : Fin 2048, v5 (ix2 r d) * ws (ix2 d o))
        + (b0 (ix3 (0 : Fin 1) (0 : Fin 1) o) + b1 (ix3 (0 : Fin 1) (0 : Fin 1) o)) := by
  unfold k1_pay2
  rw [addf_apply, shapeCast_self, dot_eq_plain]
  rw [broadcastTo_1b_ab_apply, shapeCast_a_1a_apply, addf_apply, shapeCast_11a_a_apply, shapeCast_11a_a_apply]
  exact congrArg (· + _) (Cert.LibPlainDot.matmul_plain 1024 2048 2048 none v5 ws (ix2 r o))

/-- The output buffer at (r, o). -/
theorem out1_4_apply (x0 : Vec Ideal S1024x2048 .f32) (ws : Vec Ideal S2048x2048 .bf16) (b0 b1 : Vec Ideal S1x1x2048 .f32)
    (r : Fin 1024) (o : Fin 2048) :
    Body.out1_4 x0 ws b0 b1 (ix2 r o)
      = (∑ d : Fin 2048, x0 (ix2 r d) * ws (ix2 d o))
        + (b0 (ix3 (0 : Fin 1) (0 : Fin 1) o) + b1 (ix3 (0 : Fin 1) (0 : Fin 1) o)) := by
  rw [out1_4_eq, k1_pay2_apply]
  simp only [k1_pay1_apply]

/-- The scratch at an index: the activation block. -/
theorem scr1_apply (x0 : Vec Ideal S1024x2048 .f32) (j : S1024x2048.Idx) : Body.scr1 x0 j = x0 j := by
  rw [scr1_eq, k1_pay1_apply]

end Cert.KernelIdeal.BodyVal

end
-- ==== Proof.ValKI0.lean ====
/-
  The first region's result array, entry by entry.

  The region walks the two column halves of the combined weight. At point t it is handed rows
  [1024 t, 1024 t + 1024) of the weight matrices of experts e0 and e1 (blocks (e0, t, 0) and (e1, t, 0) of
  the [16, 2048, 2048] array) and writes block (0, t) of the [2048, 2048] result, that is, its columns
  [1024 t, 1024 t + 1024). If the body stores at entry (d, o') of its result block the sum of entries
  (0, o', d) of its two input blocks, then entry (d, o) of the result array is
      W[e0, o, d] + W[e1, o, d]:
  entry (0, o', d) of block (e, t, 0) is W[e, 1024 t + o', d], entry (d, o') of block (0, t) is entry
  (d, 1024 t + o') of the array, and the two blocks cover every column o (the point is o / 1024).
-/
import proofs.«136559_g38783554683117_cont_8to1_b_1222_28_alg».proof.Proof.RunKI0
import proofs.«136559_g38783554683117_cont_8to1_b_1222_28_alg».proof.Proof.TablesKI
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The weights as the region finds them, as a function of the index. -/
abbrev Wof (c : Dev nD) : S16x2048x2048.Idx → EReal := V c main_arg1

section region0

variable (a : (pcfg0 (F := Ideal)).Adm) (e0 e1 : Fin 16) (h : RMoE.IdsAre (a.1 0) e0 e1)

/-- The region's grid has two points. -/
theorem N0 : (cfg0 a).N = 2 := N_0

/-- On a grid of one axis the coordinate of point t is t. -/
theorem coord0 (t : Fin (cfg0 a).N) : ((cfg0 a).grid.coords t 0).val = t.val := by
  have hN : (cfg0 a).N = 2 := N_0
  have ht := t.isLt
  have hs : grid0.stride 0 = 1 := by decide
  show t.val / grid0.stride 0 % 2 = t.val
  rw [hs, Nat.div_one]
  omega

include h

/-- Window 0's block at point t: (e0, t, 0). -/
theorem index0_0 (t : Fin (cfg0 a).N) : ((cfg0 a).win 0).index t = ![e0.val, t.val, 0] := by
  show cc0_transform_0 inb_S2_S1_0 numel1_S1 a.1 ((cfg0 a).grid.coords t) = _
  rw [Tables.t00 a.1 e0 e1 h, coord0]

/-- Window 1's block at point t: (e1, t, 0). -/
theorem index0_1 (t : Fin (cfg0 a).N) : ((cfg0 a).win 1).index t = ![e1.val, t.val, 0] := by
  show cc0_transform_1 inb_S2_S1_1 numel1_S1 a.1 ((cfg0 a).grid.coords t) = _
  rw [Tables.t01 a.1 e0 e1 h, coord0]

omit h

/-- Window 2's block at point t: (0, t). -/
theorem index0_2 (t : Fin (cfg0 a).N) : ((cfg0 a).win 2).index t = ![0, t.val] := by
  have hN : (cfg0 a).N = 2 := N_0
  have ht := t.isLt
  have e : ((cfg0 a).win 2).index t = ![(0#32 : BitVec 32).toNat, (BitVec.ofNat 32 ((cfg0 a).grid.coords t 0).val).toNat] := rfl
  rw [e, coord0, Tables.toNat_ofNat_lt t.val (by omega)]
  rfl

include h

/-- Entry (0, o', d) of window 0's block at point t is W[e0, 1024 t + o', d]. -/
theorem iblk0_0_apply (c : Dev nD) (t : Fin (cfg0 a).N) (x : S1x1024x2048.Idx) (k : S16x2048x2048.Idx)
    (hk0 : (k 0).val = e0.val) (hk1 : (k 1).val = 1024 * t.val + (x 1).val) (hk2 : (k 2).val = (x 2).val) :
    (Run.iblk0 V a c 0 t : Vec Ideal S1x1024x2048 .f32) x = Wof V c k := by
  have hi := index0_0 a e0 e1 h t
  have hi0 : ((cfg0 a).win 0).index t (0 : Fin 3) = e0.val := by rw [hi]; rfl
  have hi1 : ((cfg0 a).win 0).index t (1 : Fin 3) = t.val := by rw [hi]; rfl
  have hi2 : ((cfg0 a).win 0).index t (2 : Fin 3) = 0 := by rw [hi]; rfl
  have hx0 : (x 0).val < 1 := (x 0).isLt
  show Wof V c ((((cfg0 a).win 0).blk t).view.emb x) = Wof V c k
  refine congrArg _ ?_
  funext b
  apply Fin.ext
  match b with
  | ⟨0, _⟩ => show ((cfg0 a).win 0).index t (0 : Fin 3) * 1 + 1 * (x 0).val = (k 0).val; rw [hi0, hk0]; omega
  | ⟨1, _⟩ => show ((cfg0 a).win 0).index t (1 : Fin 3) * 1024 + 1 * (x 1).val = (k 1).val; rw [hi1, hk1]; omega
  | ⟨2, _⟩ => show ((cfg0 a).win 0).index t (2 : Fin 3) * 2048 + 1 * (x 2).val = (k 2).val; rw [hi2, hk2]; omega

/-- Entry (0, o', d) of window 1's block at point t is W[e1, 1024 t + o', d]. -/
theorem iblk0_1_apply (c : Dev nD) (t : Fin (cfg0 a).N) (x : S1x1024x2048.Idx) (k : S16x2048x2048.Idx)
    (hk0 : (k 0).val = e1.val) (hk1 : (k 1).val = 1024 * t.val + (x 1).val) (hk2 : (k 2).val = (x 2).val) :
    (Run.iblk0 V a c 1 t : Vec Ideal S1x1024x2048 .f32) x = Wof V c k := by
  have hi := index0_1 a e0 e1 h t
  have hi0 : ((cfg0 a).win 1).index t (0 : Fin 3) = e1.val := by rw [hi]; rfl
  have hi1 : ((cfg0 a).win 1).index t (1 : Fin 3) = t.val := by rw [hi]; rfl
  have hi2 : ((cfg0 a).win 1).index t (2 : Fin 3) = 0 := by rw [hi]; rfl
  have hx0 : (x 0).val < 1 := (x 0).isLt
  show Wof V c ((((cfg0 a).win 1).blk t).view.emb x) = Wof V c k
  refine congrArg _ ?_
  funext b
  apply Fin.ext
  match b with
  | ⟨0, _⟩ => show ((cfg0 a).win 1).index t (0 : Fin 3) * 1 + 1 * (x 0).val = (k 0).val; rw [hi0, hk0]; omega
  | ⟨1, _⟩ => show ((cfg0 a).win 1).index t (1 : Fin 3) * 1024 + 1 * (x 1).val = (k 1).val; rw [hi1, hk1]; omega
  | ⟨2, _⟩ => show ((cfg0 a).win 1).index t (2 : Fin 3) * 2048 + 1 * (x 2).val = (k 2).val; rw [hi2, hk2]; omega

omit h

/-- The combined, transposed weight: entry (d, o) is W[e0, o, d] + W[e1, o, d]. -/
def G0 (c : Dev nD) (e0 e1 : Fin 16) : S2048x2048.Idx → EReal :=
  fun i => Wof V c (ValueIdx.ix3 e0 (i 1 : Fin 2048) (i 0 : Fin 2048)) + Wof V c (ValueIdx.ix3 e1 (i 1 : Fin 2048) (i 0 : Fin 2048))

/-- Entry (d, o') of the output's block at point t is entry (d, 1024 t + o') of the array. -/
theorem emb0_2 (t : Fin (cfg0 a).N) (x : S2048x1024.Idx) :
    ((((cfg0 a).win 2).blk t).view.emb x (0 : Fin 2)).val = (x 0).val
    ∧ ((((cfg0 a).win 2).blk t).view.emb x (1 : Fin 2)).val = 1024 * t.val + (x 1).val := by
  have hi := index0_2 a t
  have hi0 : ((cfg0 a).win 2).index t (0 : Fin 2) = 0 := by rw [hi]; rfl
  have hi1 : ((cfg0 a).win 2).index t (1 : Fin 2) = t.val := by rw [hi]; rfl
  constructor
  · show ((cfg0 a).win 2).index t (0 : Fin 2) * 2048 + 1 * (x 0).val = (x 0).val
    rw [hi0]; omega
  · show ((cfg0 a).win 2).index t (1 : Fin 2) * 1024 + 1 * (x 1).val = 1024 * t.val + (x 1).val
    rw [hi1]; omega

/-- The output is written back at every point. -/
theorem flush0_2 (t : Fin (cfg0 a).N) : ((cfg0 a).win 2).flush t = true := by
  have hN : (cfg0 a).N = 2 := N_0
  have hN' : (cfg0 a).grid.N = 2 := N_0
  have ht := t.isLt
  rw [Pipeline.Window.flush, Bool.and_eq_true, Bool.or_eq_true, decide_eq_true_eq, decide_eq_true_eq]
  refine ⟨rfl, ?_⟩
  by_cases hl : t.val + 1 = (cfg0 a).N
  · exact Or.inl hl
  · refine Or.inr ⟨by omega, fun e => ?_⟩
    rw [index0_2, index0_2] at e
    have e1 : t.val + 1 = t.val := congrFun e (1 : Fin 2)
    omega

variable (o0 : Vec Ideal S1x1024x2048 .f32 → Vec Ideal S1x1024x2048 .f32 → Vec Ideal S2048x1024 .bf16)
variable (ho0 : ∀ (x0 x1 : Vec Ideal S1x1024x2048 .f32) (d : Fin 2048) (o : Fin 1024),
  o0 x0 x1 (ValueIdx.ix2 d o) = x0 (ValueIdx.ix3 (0 : Fin 1) o d) + x1 (ValueIdx.ix3 (0 : Fin 1) o d))

include h ho0

/-- What point t writes back is block (0, t) of the combined weight. -/
theorem flushed0 (c : Dev nD) (t : Fin (cfg0 a).N) :
    (Run.dat0 V o0 a c).flushed 2 t = (((cfg0 a).win 2).blk t).view.read (Elt Ideal) (G0 V c e0 e1) := by
  show ((cfg0 a).win 2).cut ((cfg0 a).grid.coords t) ((Run.dat0 V o0 a c).after 2 t) = _
  rw [Run.after0_2]
  funext j
  obtain ⟨x, rfl⟩ : ∃ x : S2048x1024.Idx, x = j := ⟨j, rfl⟩
  show o0 (Run.iblk0 V a c 0 t) (Run.iblk0 V a c 1 t) x = G0 V c e0 e1 ((((cfg0 a).win 2).blk t).view.emb x)
  obtain ⟨m0, m1⟩ := emb0_2 a t x
  refine (congrArg (o0 (Run.iblk0 V a c 0 t) (Run.iblk0 V a c 1 t)) (ValueIdx.eq_ix2 x)).trans ?_
  refine (ho0 (Run.iblk0 V a c 0 t) (Run.iblk0 V a c 1 t) (x 0) (x 1)).trans ?_
  exact congrArg₂ (· + ·)
    (iblk0_0_apply V a e0 e1 h c t _ _ rfl m1 m0)
    (iblk0_1_apply V a e0 e1 h c t _ _ rfl m1 m0)

omit h ho0

/-- Every entry of the result lies in the block of the point of its column half. -/
theorem cover0 (i : S2048x2048.Idx) :
    ∃ t : Fin (cfg0 a).N, ((cfg0 a).win 2).flush t = true ∧ i ∈ (((cfg0 a).win 2).blk t).view.set := by
  have hN : (cfg0 a).N = 2 := N_0
  have hi0 : (i 0).val < 2048 := (i 0).isLt
  have hi1 : (i 1).val < 2048 := (i 1).isLt
  obtain ⟨t, ht⟩ : ∃ t : Fin (cfg0 a).N, t.val = (i 1).val / 1024 := ⟨⟨(i 1).val / 1024, by omega⟩, rfl⟩
  refine ⟨t, flush0_2 a t, ?_⟩
  have hi := index0_2 a t
  have q0 : ((cfg0 a).win 2).index t (0 : Fin 2) = 0 := by rw [hi]; rfl
  have q1 : ((cfg0 a).win 2).index t (1 : Fin 2) = t.val := by rw [hi]; rfl
  have e := View.set_slice_whole main_call0_v1 (((cfg0 a).win 2).rect t)
  refine Eq.mpr (congrArg (fun s => i ∈ s) e) (Rect.mem_set_unit.2 fun b => ?_)
  match b with
  | ⟨0, _⟩ =>
    show ((cfg0 a).win 2).index t (0 : Fin 2) * 2048 ≤ (i 0).val ∧ (i 0).val < ((cfg0 a).win 2).index t (0 : Fin 2) * 2048 + 2048
    rw [q0]; omega
  | ⟨1, _⟩ =>
    show ((cfg0 a).win 2).index t (1 : Fin 2) * 1024 ≤ (i 1).val ∧ (i 1).val < ((cfg0 a).win 2).index t (1 : Fin 2) * 1024 + 1024
    rw [q1]; omega

include h ho0

/-- The result array after the region: the combined, transposed weight. -/
theorem arr0_eq (c : Dev nD) : (Run.dat0 V o0 a c).arrAt 2 (cfg0 a).N = G0 V c e0 e1 :=
  (Run.dat0 V o0 a c).arrAt_eq_of_cover 2 (G0 V c e0 e1) (fun t _ => flushed0 V a e0 e1 h o0 ho0 c t) (cover0 a)

end region0

/-- ENTRY (d, o) OF THE FIRST REGION'S RESULT is W[e0, o, d] + W[e1, o, d]. -/
theorem arr0 (V : (c : Dev nD) → (b : Ref sig .tc) → Buf (Elt Ideal) ((c : Thread nD τ).loc b))
    (o0 : Vec Ideal S1x1024x2048 .f32 → Vec Ideal S1x1024x2048 .f32 → Vec Ideal S2048x1024 .bf16)
    (ho0 : ∀ (x0 x1 : Vec Ideal S1x1024x2048 .f32) (d : Fin 2048) (o : Fin 1024),
      o0 x0 x1 (ValueIdx.ix2 d o) = x0 (ValueIdx.ix3 (0 : Fin 1) o d) + x1 (ValueIdx.ix3 (0 : Fin 1) o d))
    (a : (pcfg0 (F := Ideal)).Adm) (e0 e1 : Fin 16) (h : RMoE.IdsAre (a.1 0) e0 e1) (c : Dev nD) (d o : Fin 2048) :
    (Run.dat0 V o0 a c).arrAt 2 (cfg0 a).N (ValueIdx.ix2 d o) = Wof V c (ValueIdx.ix3 e0 o d) + Wof V c (ValueIdx.ix3 e1 o d) :=
  congrFun (arr0_eq V a e0 e1 h o0 ho0 c) (ValueIdx.ix2 d o)

/-- The same, with the right-hand side spelled by the specification's combined weight. -/
theorem arr0_wsum (V : (c : Dev nD) → (b : Ref sig .tc) → Buf (Elt Ideal) ((c : Thread nD τ).loc b))
    (o0 : Vec Ideal S1x1024x2048 .f32 → Vec Ideal S1x1024x2048 .f32 → Vec Ideal S2048x1024 .bf16)
    (ho0 : ∀ (x0 x1 : Vec Ideal S1x1024x2048 .f32) (d : Fin 2048) (o : Fin 1024),
      o0 x0 x1 (ValueIdx.ix2 d o) = x0 (ValueIdx.ix3 (0 : Fin 1) o d) + x1 (ValueIdx.ix3 (0 : Fin 1) o d))
    (a : (pcfg0 (F := Ideal)).Adm) (e0 e1 : Fin 16) (h : RMoE.IdsAre (a.1 0) e0 e1) (c : Dev nD) (d o : Fin 2048) :
    (Run.dat0 V o0 a c).arrAt 2 (cfg0 a).N (ValueIdx.ix2 d o) = RMoE.wsumAt (V c main_arg1) e0 e1 d o :=
  arr0 V o0 ho0 a e0 e1 h c d o

end Cert.KernelIdeal.Val

end
-- ==== Proof.ValKI1.lean ====
/-
  The second region's result array, entry by entry.

  The region walks sixteen row blocks of x. At point t it is handed rows [1024 t, 1024 t + 1024) of x
  (block (t, 0) of the [16384, 2048] array), the whole combined weight (block (0, 0) of the [2048, 2048]
  array), and the bias rows of experts e0 and e1 (blocks (e0, 0, 0) and (e1, 0, 0) of the [16, 1, 2048]
  array), and writes block (t, 0) of the [16384, 2048] result, its rows [1024 t, 1024 t + 1024). If the body
  stores at entry (r', o) of its result block the product row r' of its x block with column o of the weight,
  plus the sum of the two bias entries o, then entry (r, o) of the result array is
      Σ_d x[r, d] · ws[d, o] + (b[e0, 0, o] + b[e1, 0, o]):
  entry (r', d) of block (t, 0) of x is x[1024 t + r', d], the weight block is the array, entry (0, 0, o) of
  block (e, 0, 0) of the bias is b[e, 0, o], and the sixteen blocks cover every row r (the point is r / 1024).
-/
import proofs.«136559_g38783554683117_cont_8to1_b_1222_28_alg».proof.Proof.RunKI1
import proofs.«136559_g38783554683117_cont_8to1_b_1222_28_alg».proof.Proof.TablesKI
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.SL.Sem
open Idealize.ShloMosaic.Pipeline (Dat)
open Cert.KernelIdeal Cert.KernelIdeal.Gen

/-- Entry (r, o) of the product with the combined weight plus the two experts' bias entries. -/
def mmAt (x : FVec Ideal S16384x2048 .f32) (ws : FVec Ideal S2048x2048 .bf16) (b3 : FVec Ideal S16x1x2048 .f32)
    (e0 e1 : Fin 16) (r : Fin 16384) (o : Fin 2048) : EReal :=
  (∑ d : Fin 2048, x (ValueIdx.ix2 r d) * ws (ValueIdx.ix2 d o))
    + (b3 (ValueIdx.ix3 e0 (0 : Fin 1) o) + b3 (ValueIdx.ix3 e1 (0 : Fin 1) o))

variable (V : (c : Dev nD) → (b : Ref sig .tc) → Buf (Elt Ideal) ((c : Thread nD τ).loc b))

/-- The arrays as the region finds them, as functions of the index. -/
abbrev Xof (c : Dev nD) : S16384x2048.Idx → EReal := V c main_arg0
abbrev WSof (c : Dev nD) : S2048x2048.Idx → EReal := V c main_call0_v1
abbrev Bof (c : Dev nD) : S16x1x2048.Idx → EReal := V c main_call0_v0

section region1

variable (a : (pcfg1 (F := Ideal)).Adm) (e0 e1 : Fin 16) (h : RMoE.IdsAre (a.1 0) e0 e1)

/-- The region's grid has sixteen points. -/
theorem N1 : (cfg1 a).N = 16 := N_1

/-- On a grid of one axis the coordinate of point t is t. -/
theorem coord1 (t : Fin (cfg1 a).N) : ((cfg1 a).grid.coords t 0).val = t.val := by
  have hN : (cfg1 a).N = 16 := N_1
  have ht := t.isLt
  have hs : grid1.stride 0 = 1 := by decide
  show t.val / grid1.stride 0 % 16 = t.val
  rw [hs, Nat.div_one]
  omega

/-- Window 0's block at point t: (t, 0). -/
theorem index1_0 (t : Fin (cfg1 a).N) : ((cfg1 a).win 0).index t = ![t.val, 0] := by
  have hN : (cfg1 a).N = 16 := N_1
  have ht := t.isLt
  have e : ((cfg1 a).win 0).index t = ![(BitVec.ofNat 32 ((cfg1 a).grid.coords t 0).val).toNat, (0#32 : BitVec 32).toNat] := rfl
  rw [e, coord1, Tables.toNat_ofNat_lt t.val (by omega)]
  rfl

/-- Window 1's block at every point: (0, 0). -/
theorem index1_1 (t : Fin (cfg1 a).N) : ((cfg1 a).win 1).index t = ![0, 0] := rfl

include h

/-- Window 2's block at every point: (e0, 0, 0). -/
theorem index1_2 (t : Fin (cfg1 a).N) : ((cfg1 a).win 2).index t = ![e0.val, 0, 0] := by
  show cc1_transform_2 inb_S2_S1_0 numel1_S1 a.1 ((cfg1 a).grid.coords t) = _
  rw [Tables.t12 a.1 e0 e1 h]

/-- Window 3's block at every point: (e1, 0, 0). -/
theorem index1_3 (t : Fin (cfg1 a).N) : ((cfg1 a).win 3).index t = ![e1.val, 0, 0] := by
  show cc1_transform_3 inb_S2_S1_1 numel1_S1 a.1 ((cfg1 a).grid.coords t) = _
  rw [Tables.t13 a.1 e0 e1 h]

omit h

/-- Window 4's block at point t: (t, 0). -/
theorem index1_4 (t : Fin (cfg1 a).N) : ((cfg1 a).win 4).index t = ![t.val, 0] := by
  have hN : (cfg1 a).N = 16 := N_1
  have ht := t.isLt
  have e : ((cfg1 a).win 4).index t = ![(BitVec.ofNat 32 ((cfg1 a).grid.coords t 0).val).toNat, (0#32 : BitVec 32).toNat] := rfl
  rw [e, coord1, Tables.toNat_ofNat_lt t.val (by omega)]
  rfl

/-- Entry (r', d) of window 0's block at point t is x[1024 t + r', d]. -/
theorem iblk1_0_apply (c : Dev nD) (t : Fin (cfg1 a).N) (x : S1024x2048.Idx) (k : S16384x2048.Idx)
    (hk0 : (k 0).val = 1024 * t.val + (x 0).val) (hk1 : (k 1).val = (x 1).val) :
    (Run.iblk1 V a c 0 t : Vec Ideal S1024x2048 .f32) x = Xof V c k := by
  have hi := index1_0 a t
  have hi0 : ((cfg1 a).win 0).index t (0 : Fin 2) = t.val := by rw [hi]; rfl
  have hi1 : ((cfg1 a).win 0).index t (1 : Fin 2) = 0 := by rw [hi]; rfl
  show Xof V c ((((cfg1 a).win 0).blk t).view.emb x) = Xof V c k
  refine congrArg _ ?_
  funext b
  apply Fin.ext
  match b with
  | ⟨0, _⟩ => show ((cfg1 a).win 0).index t (0 : Fin 2) * 1024 + 1 * (x 0).val = (k 0).val; rw [hi0, hk0]; omega
  | ⟨1, _⟩ => show ((cfg1 a).win 0).index t (1 : Fin 2) * 2048 + 1 * (x 1).val = (k 1).val; rw [hi1, hk1]; omega

/-- Window 1's block is the combined weight itself. -/
theorem iblk1_1_apply (c : Dev nD) (t : Fin (cfg1 a).N) (x : S2048x2048.Idx) (k : S2048x2048.Idx)
    (hk0 : (k 0).val = (x 0).val) (hk1 : (k 1).val = (x 1).val) :
    (Run.iblk1 V a c 1 t : Vec Ideal S2048x2048 .bf16) x = WSof V c k := by
  have hi := index1_1 a t
  have hi0 : ((cfg1 a).win 1).index t (0 : Fin 2) = 0 := by rw [hi]; rfl
  have hi1 : ((cfg1 a).win 1).index t (1 : Fin 2) = 0 := by rw [hi]; rfl
  show WSof V c ((((cfg1 a).win 1).blk t).view.emb x) = WSof V c k
  refine congrArg _ ?_
  funext b
  apply Fin.ext
  match b with
  | ⟨0, _⟩ => show ((cfg1 a).win 1).index t (0 : Fin 2) * 2048 + 1 * (x 0).val = (k 0).val; rw [hi0, hk0]; omega
  | ⟨1, _⟩ => show ((cfg1 a).win 1).index t (1 : Fin 2) * 2048 + 1 * (x 1).val = (k 1).val; rw [hi1, hk1]; omega

include h

/-- Entry (0, 0, o) of window 2's block is b[e0, 0, o]. -/
theorem iblk1_2_apply (c : Dev nD) (t : Fin (cfg1 a).N) (x : S1x1x2048.Idx) (k : S16x1x2048.Idx)
    (hk0 : (k 0).val = e0.val) (hk2 : (k 2).val = (x 2).val) :
    (Run.iblk1 V a c 2 t : Vec Ideal S1x1x2048 .f32) x = Bof V c k := by
  have hi := index1_2 a e0 e1 h t
  have hi0 : ((cfg1 a).win 2).index t (0 : Fin 3) = e0.val := by rw [hi]; rfl
  have hi1 : ((cfg1 a).win 2).index t (1 : Fin 3) = 0 := by rw [hi]; rfl
  have hi2 : ((cfg1 a).win 2).index t (2 : Fin 3) = 0 := by rw [hi]; rfl
  have hx0 : (x 0).val < 1 := (x 0).isLt
  have hx1 : (x 1).val < 1 := (x 1).isLt
  have hk1 : (k 1).val < 1 := (k 1).isLt
  show Bof V c ((((cfg1 a).win 2).blk t).view.emb x) = Bof V c k
  refine congrArg _ ?_
  funext b
  apply Fin.ext
  match b with
  | ⟨0, _⟩ => show ((cfg1 a).win 2).index t (0 : Fin 3) * 1 + 1 * (x 0).val = (k 0).val; rw [hi0, hk0]; omega
  | ⟨1, _⟩ => show ((cfg1 a).win 2).index t (1 : Fin 3) * 1 + 1 * (x 1).val = (k 1).val; rw [hi1]; omega
  | ⟨2, _⟩ => show ((cfg1 a).win 2).index t (2 : Fin 3) * 2048 + 1 * (x 2).val = (k 2).val; rw [hi2, hk2]; omega

/-- Entry (0, 0, o) of window 3's block is b[e1, 0, o]. -/
theorem iblk1_3_apply (c : Dev nD) (t : Fin (cfg1 a).N) (x : S1x1x2048.Idx) (k : S16x1x2048.Idx)
    (hk0 : (k 0).val = e1.val) (hk2 : (k 2).val = (x 2).val) :
    (Run.iblk1 V a c 3 t : Vec Ideal S1x1x2048 .f32) x = Bof V c k := by
  have hi := index1_3 a e0 e1 h t
  have hi0 : ((cfg1 a).win 3).index t (0 : Fin 3) = e1.val := by rw [hi]; rfl
  have hi1 : ((cfg1 a).win 3).index t (1 : Fin 3) = 0 := by rw [hi]; rfl
  have hi2 : ((cfg1 a).win 3).index t (2 : Fin 3) = 0 := by rw [hi]; rfl
  have hx0 : (x 0).val < 1 := (x 0).isLt
  have hx1 : (x 1).val < 1 := (x 1).isLt
  have hk1 : (k 1).val < 1 := (k 1).isLt
  show Bof V c ((((cfg1 a).win 3).blk t).view.emb x) = Bof V c k
  refine congrArg _ ?_
  funext b
  apply Fin.ext
  match b with
  | ⟨0, _⟩ => show ((cfg1 a).win 3).index t (0 : Fin 3) * 1 + 1 * (x 0).val = (k 0).val; rw [hi0, hk0]; omega
  | ⟨1, _⟩ => show ((cfg1 a).win 3).index t (1 : Fin 3) * 1 + 1 * (x 1).val = (k 1).val; rw [hi1]; omega
  | ⟨2, _⟩ => show ((cfg1 a).win 3).index t (2 : Fin 3) * 2048 + 1 * (x 2).val = (k 2).val; rw [hi2, hk2]; omega

omit h

/-- The result array: entry (r, o) is the product entry plus the two bias entries. -/
def G1 (c : Dev nD) (e0 e1 : Fin 16) : S16384x2048.Idx → EReal :=
  fun i => mmAt (Xof V c) (WSof V c) (Bof V c) e0 e1 (i 0 : Fin 16384) (i 1 : Fin 2048)

/-- Entry (r', o) of the output's block at point t is entry (1024 t + r', o) of the array. -/
theorem emb1_4 (t : Fin (cfg1 a).N) (x : S1024x2048.Idx) :
    ((((cfg1 a).win 4).blk t).view.emb x (0 : Fin 2)).val = 1024 * t.val + (x 0).val
    ∧ ((((cfg1 a).win 4).blk t).view.emb x (1 : Fin 2)).val = (x 1).val := by
  have hi := index1_4 a t
  have hi0 : ((cfg1 a).win 4).index t (0 : Fin 2) = t.val := by rw [hi]; rfl
  have hi1 : ((cfg1 a).win 4).index t (1 : Fin 2) = 0 := by rw [hi]; rfl
  constructor
  · show ((cfg1 a).win 4).index t (0 : Fin 2) * 1024 + 1 * (x 0).val = 1024 * t.val + (x 0).val
    rw [hi0]; omega
  · show ((cfg1 a).win 4).index t (1 : Fin 2) * 2048 + 1 * (x 1).val = (x 1).val
    rw [hi1]; omega

/-- The output is written back at every point. -/
theorem flush1_4 (t : Fin (cfg1 a).N) : ((cfg1 a).win 4).flush t = true := by
  have hN : (cfg1 a).N = 16 := N_1
  have hN' : (cfg1 a).grid.N = 16 := N_1
  have ht := t.isLt
  rw [Pipeline.Window.flush, Bool.and_eq_true, Bool.or_eq_true, decide_eq_true_eq, decide_eq_true_eq]
  refine ⟨rfl, ?_⟩
  by_cases hl : t.val + 1 = (cfg1 a).N
  · exact Or.inl hl
  · refine Or.inr ⟨by omega, fun e => ?_⟩
    rw [index1_4, index1_4] at e
    have e1 : t.val + 1 = t.val := congrFun e (0 : Fin 2)
    omega

variable (o1 : Vec Ideal S1024x2048 .f32 → Vec Ideal S2048x2048 .bf16 → Vec Ideal S1x1x2048 .f32 → Vec Ideal S1x1x2048 .f32 → Vec Ideal S1024x2048 .f32)
variable (ho1 : ∀ (x0 : Vec Ideal S1024x2048 .f32) (ws : Vec Ideal S2048x2048 .bf16) (b0 b1 : Vec Ideal S1x1x2048 .f32) (r : Fin 1024) (o : Fin 2048),
  o1 x0 ws b0 b1 (ValueIdx.ix2 r o) = (∑ d : Fin 2048, x0 (ValueIdx.ix2 r d) * ws (ValueIdx.ix2 d o))
    + (b0 (ValueIdx.ix3 (0 : Fin 1) (0 : Fin 1) o) + b1 (ValueIdx.ix3 (0 : Fin 1) (0 : Fin 1) o)))

include h ho1

/-- What point t writes back is block (t, 0) of the result. -/
theorem flushed1 (c : Dev nD) (t : Fin (cfg1 a).N) :
    (Run.dat1 V o1 a c).flushed 4 t = (((cfg1 a).win 4).blk t).view.read (Elt Ideal) (G1 V c e0 e1) := by
  show ((cfg1 a).win 4).cut ((cfg1 a).grid.coords t) ((Run.dat1 V o1 a c).after 4 t) = _
  rw [Run.after1_4]
  funext j
  obtain ⟨x, rfl⟩ : ∃ x : S1024x2048.Idx, x = j := ⟨j, rfl⟩
  show o1 (Run.iblk1 V a c 0 t) (Run.iblk1 V a c 1 t) (Run.iblk1 V a c 2 t) (Run.iblk1 V a c 3 t) x
    = G1 V c e0 e1 ((((cfg1 a).win 4).blk t).view.emb x)
  obtain ⟨m0, m1⟩ := emb1_4 a t x
  refine (congrArg (o1 (Run.iblk1 V a c 0 t) (Run.iblk1 V a c 1 t) (Run.iblk1 V a c 2 t) (Run.iblk1 V a c 3 t)) (ValueIdx.eq_ix2 x)).trans ?_
  refine (ho1 (Run.iblk1 V a c 0 t) (Run.iblk1 V a c 1 t) (Run.iblk1 V a c 2 t) (Run.iblk1 V a c 3 t) (x 0) (x 1)).trans ?_
  exact congrArg₂ (· + ·)
    (Finset.sum_congr rfl fun d _ => congrArg₂ (· * ·)
      (iblk1_0_apply V a c t _ _ m0 rfl)
      (iblk1_1_apply V a c t _ _ rfl m1))
    (congrArg₂ (· + ·)
      (iblk1_2_apply V a e0 e1 h c t _ _ rfl m1)
      (iblk1_3_apply V a e0 e1 h c t _ _ rfl m1))

omit h ho1

/-- Every entry of the result lies in the block of the point of its row block. -/
theorem cover1 (i : S16384x2048.Idx) :
    ∃ t : Fin (cfg1 a).N, ((cfg1 a).win 4).flush t = true ∧ i ∈ (((cfg1 a).win 4).blk t).view.set := by
  have hN : (cfg1 a).N = 16 := N_1
  have hi0 : (i 0).val < 16384 := (i 0).isLt
  have hi1 : (i 1).val < 2048 := (i 1).isLt
  obtain ⟨t, ht⟩ : ∃ t : Fin (cfg1 a).N, t.val = (i 0).val / 1024 := ⟨⟨(i 0).val / 1024, by omega⟩, rfl⟩
  refine ⟨t, flush1_4 a t, ?_⟩
  have hi := index1_4 a t
  have q0 : ((cfg1 a).win 4).index t (0 : Fin 2) = t.val := by rw [hi]; rfl
  have q1 : ((cfg1 a).win 4).index t (1 : Fin 2) = 0 := by rw [hi]; rfl
  have e := View.set_slice_whole main_v0 (((cfg1 a).win 4).rect t)
  refine Eq.mpr (congrArg (fun s => i ∈ s) e) (Rect.mem_set_unit.2 fun b => ?_)
  match b with
  | ⟨0, _⟩ =>
    show ((cfg1 a).win 4).index t (0 : Fin 2) * 1024 ≤ (i 0).val ∧ (i 0).val < ((cfg1 a).win 4).index t (0 : Fin 2) * 1024 + 1024
    rw [q0]; omega
  | ⟨1, _⟩ =>
    show ((cfg1 a).win 4).index t (1 : Fin 2) * 2048 ≤ (i 1).val ∧ (i 1).val < ((cfg1 a).win 4).index t (1 : Fin 2) * 2048 + 2048
    rw [q1]; omega

include h ho1

/-- The result array after the region. -/
theorem arr1_eq (c : Dev nD) : (Run.dat1 V o1 a c).arrAt 4 (cfg1 a).N = G1 V c e0 e1 :=
  (Run.dat1 V o1 a c).arrAt_eq_of_cover 4 (G1 V c e0 e1) (fun t _ => flushed1 V a e0 e1 h o1 ho1 c t) (cover1 a)

end region1

/-- ENTRY (r, o) OF THE SECOND REGION'S RESULT is Σ_d x[r, d] · ws[d, o] + (b[e0, 0, o] + b[e1, 0, o]). -/
theorem arr1 (V : (c : Dev nD) → (b : Ref sig .tc) → Buf (Elt Ideal) ((c : Thread nD τ).loc b))
    (o1 : Vec Ideal S1024x2048 .f32 → Vec Ideal S2048x2048 .bf16 → Vec Ideal S1x1x2048 .f32 → Vec Ideal S1x1x2048 .f32 → Vec Ideal S1024x2048 .f32)
    (ho1 : ∀ (x0 : Vec Ideal S1024x2048 .f32) (ws : Vec Ideal S2048x2048 .bf16) (b0 b1 : Vec Ideal S1x1x2048 .f32) (r : Fin 1024) (o : Fin 2048),
      o1 x0 ws b0 b1 (ValueIdx.ix2 r o) = (∑ d : Fin 2048, x0 (ValueIdx.ix2 r d) * ws (ValueIdx.ix2 d o))
        + (b0 (ValueIdx.ix3 (0 : Fin 1) (0 : Fin 1) o) + b1 (ValueIdx.ix3 (0 : Fin 1) (0 : Fin 1) o)))
    (a : (pcfg1 (F := Ideal)).Adm) (e0 e1 : Fin 16) (h : RMoE.IdsAre (a.1 0) e0 e1) (c : Dev nD) (r : Fin 16384) (o : Fin 2048) :
    (Run.dat1 V o1 a c).arrAt 4 (cfg1 a).N (ValueIdx.ix2 r o) = mmAt (V c main_arg0) (V c main_call0_v1) (V c main_call0_v0) e0 e1 r o :=
  congrFun (arr1_eq V a e0 e1 h o1 ho1 c) (ValueIdx.ix2 r o)

end Cert.KernelIdeal.Val

end
-- ==== Proof.ValHost.lean ====
/-
  The reshaped bias.

  Before its two regions the program reshapes the bias array [16, 2048] to [16, 1, 2048]. A reshape keeps
  the row-major order of the entries: entry (e, 0, o) of the result sits at position (e · 1 + 0) · 2048 + o
  = e · 2048 + o, which is the position of entry (e, o) of the operand.
-/
import proofs.«136559_g38783554683117_cont_8to1_b_1222_28_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.StableHlo
open Cert.KernelIdeal Cert.KernelIdeal.Gen

/-- The buffer the reshape writes holds the bias array recast. -/
theorem reshaped_eq (m : (ℓ : Loc nD τ sig) → Buf (Elt Ideal) ℓ) (c : Dev nD) :
    (Gen.V1 m c main_call0_v0 : S16x1x2048.Idx → EReal)
      = shapeCast S16x1x2048 (m ((c : Thread nD τ).loc main_arg2) : S16x2048.Idx → EReal) shapeCasts_S16x2048_S16x1x2048 := by
  dsimp only [Gen.V1, Gen.hostOps0]
  after_results
  rfl

/-- ENTRY (e, 0, o) OF THE RESHAPED BIAS is entry (e, o) of the bias. -/
theorem reshaped (m : (ℓ : Loc nD τ sig) → Buf (Elt Ideal) ℓ) (c : Dev nD) (e : Fin 16) (o : Fin 2048) :
    (Gen.V1 m c main_call0_v0 : S16x1x2048.Idx → EReal) (ValueIdx.ix3 e (0 : Fin 1) o)
      = (m ((c : Thread nD τ).loc main_arg2) : S16x2048.Idx → EReal) (ValueIdx.ix2 e o) := by
  rw [reshaped_eq]
  refine shapeCast_apply _ _ _ (ValueIdx.ix2 e o) ?_
  rw [Shape.rowMajor_val_two, Shape.rowMajor_val_three]
  show e.val * 2048 + o.val = (e.val * 1 + 0) * 2048 + o.val
  omega

end Cert.KernelIdeal.Val

end
-- ==== Proof.Compose.lean ====
/-
  The kernel program's result array is the routing layer's function of its inputs.

  The second region's result at (r, o) is Σ_d x[r, d] · w[d, o] + (bias block e0 + bias block e1 at o), where w is what
  the first region left in the combined-weight array: w[d, o] = W[e0, o, d] + W[e1, o, d]. The arguments reach the
  regions unchanged, and the reshaped bias at (e, 0, o) is b[e, o]. Substituting gives
  Σ_d x[r, d] · (W[e0, o, d] + W[e1, o, d]) + (b[e0, o] + b[e1, o]), the specification's entry, term for term.
-/
import proofs.«136559_g38783554683117_cont_8to1_b_1222_28_alg».proof.Proof.Spec
import proofs.«136559_g38783554683117_cont_8to1_b_1222_28_alg».proof.Proof.RunKI2
import proofs.«136559_g38783554683117_cont_8to1_b_1222_28_alg».proof.Proof.Body0
import proofs.«136559_g38783554683117_cont_8to1_b_1222_28_alg».proof.Proof.Body1
import proofs.«136559_g38783554683117_cont_8to1_b_1222_28_alg».proof.Proof.BodyVal0
import proofs.«136559_g38783554683117_cont_8to1_b_1222_28_alg».proof.Proof.BodyVal1
import proofs.«136559_g38783554683117_cont_8to1_b_1222_28_alg».proof.Proof.ValKI0
import proofs.«136559_g38783554683117_cont_8to1_b_1222_28_alg».proof.Proof.ValKI1
import proofs.«136559_g38783554683117_cont_8to1_b_1222_28_alg».proof.Proof.ValHost
import Idealize.ShloMosaic.Lib.ValueIdx

noncomputable section

open scoped BigOperators

namespace Cert.KernelIdeal.Asm

open Cert.KernelIdeal Cert.KernelIdeal.Gen
open Idealize.ShloMosaic Idealize.ShloMosaic.TcCoe Idealize.SL.Sem
open Idealize.ShloMosaic.ValueIdx

/-- One entry, over arrays of the literal shapes: with w the combined weight and bE the reshaped bias, the second
    region's entry at (r, o) is the specification's. -/
theorem entry_eq (e0 e1 : Fin 16) (r : Fin 16384) (o : Fin 2048)
    (x : FVec Ideal RMoE.SX .f32) (w : FVec Ideal S2048x2048 .bf16) (bE : FVec Ideal S16x1x2048 .f32)
    (W : FVec Ideal RMoE.SW .f32) (b : FVec Ideal RMoE.SB .f32)
    (hw : ∀ d o : Fin 2048, w (ix2 d o) = RMoE.wsumAt W e0 e1 d o)
    (hb : ∀ (e : Fin 16) (o : Fin 2048), bE (ix3 e (0 : Fin 1) o) = b (ix2 e o)) :
    (∑ d : Fin 2048, x (ix2 r d) * w (ix2 d o)) + (bE (ix3 e0 (0 : Fin 1) o) + bE (ix3 e1 (0 : Fin 1) o))
      = RMoE.outAt x W b e0 e1 r o := by
  unfold RMoE.outAt RMoE.bsumAt
  rw [hb, hb]
  exact congrArg (· + _) (Finset.sum_congr rfl fun d _ => by rw [hw])

/-- The result array the run leaves is the specification's function of the launch arguments. -/
theorem result_eq (m : (ℓ : Loc nD τ sig) → Buf (Elt Ideal) ℓ) (hO : Run.Ok m) (e0 e1 : Fin 16)
    (h : ∀ c : Dev nD, RMoE.IdsAre (m ((c.tc : Thread nD τ).loc main_arg3)) e0 e1) (c : Dev nD) :
    Run.X3 m Body.out0_2 Body.out1_4 hO c
      = RMoE.G (m ((c.tc : Thread nD τ).loc main_arg0)) (m ((c.tc : Thread nD τ).loc main_arg1))
          (m ((c.tc : Thread nD τ).loc main_arg2)) e0 e1 := by
  have hids0 : RMoE.IdsAre ((Run.adm m hO 0).1 0) e0 e1 := h 0
  have hids1 : RMoE.IdsAre ((Run.adm m hO 1).1 0) e0 e1 := h 0
  -- the activations reach the second region as launched
  have hx : (Run.E2 m Body.out0_2 hO c main_arg0 : FVec Ideal RMoE.SX .f32) = m ((c.tc : Thread nD τ).loc main_arg0) :=
    (Run.W2_of_ne m Body.out0_2 hO c main_arg0 (by decide)).trans (Gen.V1_of m c main_arg0 (by decide))
  -- the weights reach the first region as launched
  have hW1 : (Run.E1 m c main_arg1 : FVec Ideal RMoE.SW .f32) = m ((c.tc : Thread nD τ).loc main_arg1) :=
    Gen.V1_of m c main_arg1 (by decide)
  -- the combined weight is what the first region left: the two experts' matrices added and transposed
  have hw : ∀ d o : Fin 2048, (Run.E2 m Body.out0_2 hO c main_call0_v1 : FVec Ideal S2048x2048 .bf16) (ix2 d o)
      = RMoE.wsumAt (m ((c.tc : Thread nD τ).loc main_arg1)) e0 e1 d o := fun d o => by
    refine (congrFun (Run.W2_self m Body.out0_2 hO c) (ix2 d o)).trans ?_
    refine (Val.arr0 (Run.E1 m) Body.out0_2 BodyVal.out0_2_apply (Run.adm m hO 0) e0 e1 hids0 c d o).trans ?_
    exact congrArg (fun W : FVec Ideal RMoE.SW .f32 => RMoE.wsumAt W e0 e1 d o) hW1
  -- the reshaped bias is the bias
  have hb : ∀ (e : Fin 16) (o : Fin 2048), (Run.E2 m Body.out0_2 hO c main_call0_v0 : FVec Ideal S16x1x2048 .f32) (ix3 e (0 : Fin 1) o)
      = (m ((c.tc : Thread nD τ).loc main_arg2) : FVec Ideal RMoE.SB .f32) (ix2 e o) := fun e o =>
    (congrFun (Run.W2_of_ne m Body.out0_2 hO c main_call0_v0 (by decide)) _).trans (Val.reshaped m c e o)
  funext i
  obtain ⟨r, o, rfl⟩ : ∃ (r : Fin 16384) (o : Fin 2048), i = ix2 r o := ⟨i 0, i 1, eq_ix2 i⟩
  rw [RMoE.G_apply]
  unfold Run.X3
  refine (Val.arr1 (Run.E2 m Body.out0_2 hO) Body.out1_4 BodyVal.out1_4_apply (Run.adm m hO 1) e0 e1 hids1 c r o).trans ?_
  rw [← hx]
  exact entry_eq e0 e1 r o _ _ _ _ _ hw hb

end Cert.KernelIdeal.Asm

end
-- ==== Proof.lean ====
/-
  The certificate's claim.

  The layer sends every token to the same two experts e0, e1 — the two id words, each in [0, 16) by the
  precondition —, so its result is

      y[r, o] = Σ_d x[r, d] · (W[e0, o, d] + W[e1, o, d]) + (b[e0, o] + b[e1, o]).

  Frames. Each of the three programs terminates without fault and leaves its four argument arrays as launched. For
  the kernel program, at the word level and over the extended reals alike, the two pipelined regions run because
  every block they index by an id word lies inside its array (both words are below 16) and each body runs on whole
  staging buffers; the reference is a sequence of host operations, none of which writes an argument.

  Equal results over the extended reals. The kernel program first adds the two experts' weight matrices and
  transposes the sum (narrowing to the shorter format is the identity over the extended reals), then multiplies x by
  it into a zero accumulator and adds the sum of the two experts' bias rows; the reference gathers the two experts'
  weights and biases, adds them and takes the same product. Both end, entry by entry, at the displayed sum: the two
  programs add the weights before multiplying, so the sums over d agree term for term, and the only law of the
  extended reals used is 0 + a = a, for the zero accumulator.

  The idealized kernel program is the kernel program's own text read over the extended reals: no operation was
  rewritten, and there is nothing to preserve.
-/
import proofs.«136559_g38783554683117_cont_8to1_b_1222_28_alg».proof.Defs
import proofs.«136559_g38783554683117_cont_8to1_b_1222_28_alg».proof.Proof.Gen.Kernel
import proofs.«136559_g38783554683117_cont_8to1_b_1222_28_alg».proof.Proof.Gen.KernelIdeal
import proofs.«136559_g38783554683117_cont_8to1_b_1222_28_alg».proof.Proof.Gen.ReferenceIdeal
import proofs.«136559_g38783554683117_cont_8to1_b_1222_28_alg».proof.Proof.Gen.Pre_finite_inputs
import proofs.«136559_g38783554683117_cont_8to1_b_1222_28_alg».proof.Proof.Spec
import proofs.«136559_g38783554683117_cont_8to1_b_1222_28_alg».proof.Proof.Body0
import proofs.«136559_g38783554683117_cont_8to1_b_1222_28_alg».proof.Proof.Body1
import proofs.«136559_g38783554683117_cont_8to1_b_1222_28_alg».proof.Proof.BodyK0
import proofs.«136559_g38783554683117_cont_8to1_b_1222_28_alg».proof.Proof.BodyK1
import proofs.«136559_g38783554683117_cont_8to1_b_1222_28_alg».proof.Proof.OkOfPre
import proofs.«136559_g38783554683117_cont_8to1_b_1222_28_alg».proof.Proof.OkOfPreK
import proofs.«136559_g38783554683117_cont_8to1_b_1222_28_alg».proof.Proof.RunKI4
import proofs.«136559_g38783554683117_cont_8to1_b_1222_28_alg».proof.Proof.RunK4
import proofs.«136559_g38783554683117_cont_8to1_b_1222_28_alg».proof.Proof.RefRun
import proofs.«136559_g38783554683117_cont_8to1_b_1222_28_alg».proof.Proof.Compose
import Idealize.ShloMosaic.Adequacy
import Idealize.ShloMosaic.Init

noncomputable section

namespace Cert.Proof

open Idealize.ShloMosaic Idealize.ShloMosaic.TcCoe Idealize.SL.Sem

/-- The kernel program at the word level runs and leaves its arguments as launched. -/
theorem frame_K : Cert.frame_Kernel := fun m ρ hpre => by
  obtain ⟨e0, e1, hids⟩ := Cert.Kernel.Asm.ids_of_Pre m hpre
  exact (θ_run Cert.Kernel.defs _ _).mono (fun _ h c => (h c).2)
    (Cert.Kernel.Run.run m ρ Cert.Kernel.Body.out0_2 Cert.Kernel.Body.out1_4 Cert.Kernel.Body.scr1
      Cert.Kernel.Body.sound_kernel0 Cert.Kernel.Body.sound_kernel1 (Cert.Kernel.Asm.ok_of_ids m e0 e1 (hids 0)))

/-- The kernel program over the extended reals runs and leaves its arguments as launched. -/
theorem frame_KI : Cert.frame_KernelIdeal := fun m ρ hpre => by
  obtain ⟨e0, e1, hids⟩ := Cert.KernelIdeal.Asm.ids_of_Pre m hpre
  exact (θ_run Cert.KernelIdeal.defs _ _).mono (fun _ h c => (h c).2)
    (Cert.KernelIdeal.Run.run m ρ Cert.KernelIdeal.Body.out0_2 Cert.KernelIdeal.Body.out1_4 Cert.KernelIdeal.Body.scr1
      Cert.KernelIdeal.Body.sound_kernel0 Cert.KernelIdeal.Body.sound_kernel1 (Cert.KernelIdeal.Asm.ok_of_ids m e0 e1 (hids 0)))

/-- The reference runs and leaves its arguments as launched. -/
theorem frame_R : Cert.frame_ReferenceIdeal := fun m ρ _ => Cert.ReferenceIdeal.RefRun.run_args m ρ

/-- Over the extended reals both programs end at the layer's function of the arguments. -/
theorem algebraic : Cert.algebraic_KernelIdeal_ReferenceIdeal := by
  intro m ρ m' ρ' hpre hagree
  obtain ⟨e0, e1, hids⟩ := Cert.KernelIdeal.Asm.ids_of_Pre m hpre
  have hO : Cert.KernelIdeal.Run.Ok m := Cert.KernelIdeal.Asm.ok_of_ids m e0 e1 (hids 0)
  refine ⟨fun c => RMoE.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) e0 e1, ?_, ?_⟩
  · exact (θ_run Cert.KernelIdeal.defs _ _).mono
      (fun _ h c => ⟨(h c).1.trans (Cert.KernelIdeal.Asm.result_eq m hO e0 e1 hids c), (h c).2⟩)
      (Cert.KernelIdeal.Run.run m ρ Cert.KernelIdeal.Body.out0_2 Cert.KernelIdeal.Body.out1_4 Cert.KernelIdeal.Body.scr1
        Cert.KernelIdeal.Body.sound_kernel0 Cert.KernelIdeal.Body.sound_kernel1 hO)
  · refine (θ_run Cert.ReferenceIdeal.defs _ _).mono (fun _ h c => ⟨?_, (h c).2⟩)
      (Cert.ReferenceIdeal.RefRun.run m' ρ' e0 e1 (fun c => by rw [(hagree c).2.2.2]; exact hids c))
    rw [(h c).1, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
